-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v62)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v62) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v80) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x512 : Shape := ⟨2, ![10000, 512]⟩
abbrev S2x640000 : Shape := ⟨2, ![2, 640000]⟩
abbrev S256x512 : Shape := ⟨2, ![256, 512]⟩
abbrev S256 : Shape := ⟨1, ![256]⟩
abbrev S2 : Shape := ⟨1, ![2]⟩
abbrev S_ : Shape := ⟨0, ![]⟩

class Facts : Prop where
  bcast_S_S10000x512 : S_.BroadcastsInDim S10000x512 (![] : Fin 0 → Fin S10000x512.rank)
  reducesTo_S10000x512_S_d0_1 : S10000x512.ReducesTo [0, 1] S_
  h_S_ : 0 < S_.numel
  bcast_S_S256x512 : S_.BroadcastsInDim S256x512 (![] : Fin 0 → Fin S256x512.rank)
  reducesTo_S256x512_S_d0_1 : S256x512.ReducesTo [0, 1] S_
  bcast_S_S256 : S_.BroadcastsInDim S256 (![] : Fin 0 → Fin S256.rank)
  reducesTo_S256_S_d0 : S256.ReducesTo [0] S_
  bcast_S_S2 : S_.BroadcastsInDim S2 (![] : Fin 0 → Fin S2.rank)
  reducesTo_S2_S_d0 : S2.ReducesTo [0] S_
  bcast_S_S2x640000 : S_.BroadcastsInDim S2x640000 (![] : Fin 0 → Fin S2x640000.rank)
  reducesTo_S2x640000_S_d0_1 : S2x640000.ReducesTo [0, 1] S_

variable [Facts]

def fn_part1 {F : FTy → Type} [FloatOps F] (main_arg1 : IVec S2x640000 32) (main_v13 : IVec S_ 1) (main_v16 : IVec S2 1) : IVec S_ 1 :=
  let main_c_5 : IVec S_ 1 := constantI S_ 1 1#1
  let main_v17 : IVec S_ 1 := (fun x v => Host.reduce IntOp.andi x v reducesTo_S2_S_d0 h_S_) main_v16 main_c_5
  let main_v18 : IVec S_ 1 := andi main_v13 main_v17
  let main_c_6 : IVec S_ 32 := constantI S_ 32 0#32
  let main_v19 : IVec S2x640000 32 := broadcastInDim S2x640000 ![] bcast_S_S2x640000 main_c_6
  let main_v20 : IVec S2x640000 1 := cmpi .sge main_arg1 main_v19
  let main_c_7 : IVec S_ 32 := constantI S_ 32 10000#32
  let main_v21 : IVec S2x640000 32 := broadcastInDim S2x640000 ![] bcast_S_S2x640000 main_c_7
  let main_v22 : IVec S2x640000 1 := cmpi .slt main_arg1 main_v21
  let main_v23 : IVec S2x640000 1 := andi main_v20 main_v22
  let main_c_8 : IVec S_ 1 := constantI S_ 1 1#1
  let main_v24 : IVec S_ 1 := (fun x v => Host.reduce IntOp.andi x v reducesTo_S2x640000_S_d0_1 h_S_) main_v23 main_c_8
  let main_v25 : IVec S_ 1 := andi main_v18 main_v24
  main_v25

def fn {F : FTy → Type} [FloatOps F] (main_arg0 : FVec F S10000x512 .f32) (main_arg1 : IVec S2x640000 32) (main_arg2 : FVec F S256x512 .f32) (main_arg3 : FVec F S256 .f32) (main_arg4 : FVec F S2 .f32) : IVec S_ 1 :=
  let main_v0 : FVec F S10000x512 .f32 := Host.absf main_arg0
  let main_cst : FVec F S_ .f32 := constant S_ .f32 0x7F800000#32
  let main_v1 : FVec F S10000x512 .f32 := broadcastInDim S10000x512 ![] bcast_S_S10000x512 main_cst
  let main_v2 : IVec S10000x512 1 := cmpf .olt main_v0 main_v1
  let main_c : IVec S_ 1 := constantI S_ 1 1#1
  let main_v3 : IVec S_ 1 := (fun x v => Host.reduce IntOp.andi x v reducesTo_S10000x512_S_d0_1 h_S_) main_v2 main_c
  let main_v4 : FVec F S256x512 .f32 := Host.absf main_arg2
  let main_cst_0 : FVec F S_ .f32 := constant S_ .f32 0x7F800000#32
  let main_v5 : FVec F S256x512 .f32 := broadcastInDim S256x512 ![] bcast_S_S256x512 main_cst_0
  let main_v6 : IVec S256x512 1 := cmpf .olt main_v4 main_v5
  let main_c_1 : IVec S_ 1 := constantI S_ 1 1#1
  let main_v7 : IVec S_ 1 := (fun x v => Host.reduce IntOp.andi x v reducesTo_S256x512_S_d0_1 h_S_) main_v6 main_c_1
  let main_v8 : IVec S_ 1 := andi main_v3 main_v7
  let main_v9 : FVec F S256 .f32 := Host.absf main_arg3
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S2 .f32 := Host.absf main_arg4
  let main_cst_4 : FVec F S_ .f32 := constant S_ .f32 0x7F800000#32
  let main_v15 : FVec F S2 .f32 := broadcastInDim S2 ![] bcast_S_S2 main_cst_4
  let main_v16 : IVec S2 1 := cmpf .olt main_v14 main_v15
  fn_part1 (F := F) main_arg1 main_v13 main_v16
-- ==== Kernel.lean ====
abbrev S10000x512 : Shape := ⟨2, ![10000, 512]⟩
abbrev S2x640000 : Shape := ⟨2, ![2, 640000]⟩
abbrev S256x512 : Shape := ⟨2, ![256, 512]⟩
abbrev S256 : Shape := ⟨1, ![256]⟩
abbrev S2 : Shape := ⟨1, ![2]⟩
abbrev S1x640000 : Shape := ⟨2, ![1, 640000]⟩
abbrev S640000 : Shape := ⟨1, ![640000]⟩
abbrev S_ : Shape := ⟨0, ![]⟩
abbrev S10000 : Shape := ⟨1, ![10000]⟩
abbrev S640000x1 : Shape := ⟨2, ![640000, 1]⟩
abbrev S10000x10000 : Shape := ⟨2, ![10000, 10000]⟩
abbrev S640000x2 : Shape := ⟨2, ![640000, 2]⟩
abbrev S1x256 : Shape := ⟨2, ![1, 256]⟩
abbrev S10000x256 : Shape := ⟨2, ![10000, 256]⟩
abbrev S1000x512 : Shape := ⟨2, ![1000, 512]⟩
abbrev S1000x256 : Shape := ⟨2, ![1000, 256]⟩
abbrev S1 : Shape := ⟨1, ![1]⟩
abbrev S400x10000 : Shape := ⟨2, ![400, 10000]⟩
abbrev S400x256 : Shape := ⟨2, ![400, 256]⟩

abbrev nBuf : Space → Nat
  | .hbm => 83
  | .vmem => 21
  | .smem => 0
  | _ => 0

abbrev bufTy : (tb : Table) → Fin (tcTables nBuf tb) → BufTy
  | .hbm, ⟨0, _⟩ => ⟨S10000x512, .f32⟩
  | .hbm, ⟨1, _⟩ => ⟨S2x640000, .i32⟩
  | .hbm, ⟨2, _⟩ => ⟨S256x512, .f32⟩
  | .hbm, ⟨3, _⟩ => ⟨S256, .f32⟩
  | .hbm, ⟨4, _⟩ => ⟨S2, .f32⟩
  | .hbm, ⟨5, _⟩ => ⟨S1x640000, .i32⟩
  | .hbm, ⟨6, _⟩ => ⟨S640000, .i32⟩
  | .hbm, ⟨7, _⟩ => ⟨S1x640000, .i32⟩
  | .hbm, ⟨8, _⟩ => ⟨S640000, .i32⟩
  | .hbm, ⟨9, _⟩ => ⟨S_, .f32⟩
  | .hbm, ⟨10, _⟩ => ⟨S640000, .f32⟩
  | .hbm, ⟨11, _⟩ => ⟨S_, .f32⟩
  | .hbm, ⟨12, _⟩ => ⟨S10000, .f32⟩
  | .hbm, ⟨13, _⟩ => ⟨S640000x1, .i32⟩
  | .hbm, ⟨14, _⟩ => ⟨S10000, .f32⟩
  | .hbm, ⟨15, _⟩ => ⟨S_, .f32⟩
  | .hbm, ⟨16, _⟩ => ⟨S10000, .f32⟩
  | .hbm, ⟨17, _⟩ => ⟨S10000, .i1⟩
  | .hbm, ⟨18, _⟩ => ⟨S10000, .f32⟩
  | .hbm, ⟨19, _⟩ => ⟨S_, .f32⟩
  | .hbm, ⟨20, _⟩ => ⟨S_, .f32⟩
  | .hbm, ⟨21, _⟩ => ⟨S10000, .f32⟩
  | .hbm, ⟨22, _⟩ => ⟨S10000, .f32⟩
  | .hbm, ⟨23, _⟩ => ⟨S_, .i32⟩
  | .hbm, ⟨24, _⟩ => ⟨S640000, .i32⟩
  | .hbm, ⟨25, _⟩ => ⟨S640000, .i1⟩
  | .hbm, ⟨26, _⟩ => ⟨S_, .i32⟩
  | .hbm, ⟨27, _⟩ => ⟨S640000, .i32⟩
  | .hbm, ⟨28, _⟩ => ⟨S640000, .i32⟩
  | .hbm, ⟨29, _⟩ => ⟨S640000, .i32⟩
  | .hbm, ⟨30, _⟩ => ⟨S640000x1, .i32⟩
  | .hbm, ⟨31, _⟩ => ⟨S640000, .f32⟩
  | .hbm, ⟨32, _⟩ => ⟨S_, .i32⟩
  | .hbm, ⟨33, _⟩ => ⟨S640000, .i32⟩
  | .hbm, ⟨34, _⟩ => ⟨S640000, .i1⟩
  | .hbm, ⟨35, _⟩ => ⟨S_, .i32⟩
  | .hbm, ⟨36, _⟩ => ⟨S640000, .i32⟩
  | .hbm, ⟨37, _⟩ => ⟨S640000, .i32⟩
  | .hbm, ⟨38, _⟩ => ⟨S640000, .i32⟩
  | .hbm, ⟨39, _⟩ => ⟨S640000x1, .i32⟩
  | .hbm, ⟨40, _⟩ => ⟨S640000, .f32⟩
  | .hbm, ⟨41, _⟩ => ⟨S640000, .f32⟩
  | .hbm, ⟨42, _⟩ => ⟨S_, .f32⟩
  | .hbm, ⟨43, _⟩ => ⟨S10000x10000, .f32⟩
  | .hbm, ⟨44, _⟩ => ⟨S_, .i32⟩
  | .hbm, ⟨45, _⟩ => ⟨S640000, .i32⟩
  | .hbm, ⟨46, _⟩ => ⟨S640000, .i1⟩
  | .hbm, ⟨47, _⟩ => ⟨S_, .i32⟩
  | .hbm, ⟨48, _⟩ => ⟨S640000, .i32⟩
  | .hbm, ⟨49, _⟩ => ⟨S640000, .i32⟩
  | .hbm, ⟨50, _⟩ => ⟨S640000, .i32⟩
  | .hbm, ⟨51, _⟩ => ⟨S_, .i32⟩
  | .hbm, ⟨52, _⟩ => ⟨S640000, .i32⟩
  | .hbm, ⟨53, _⟩ => ⟨S640000, .i1⟩
  | .hbm, ⟨54, _⟩ => ⟨S_, .i32⟩
  | .hbm, ⟨55, _⟩ => ⟨S640000, .i32⟩
  | .hbm, ⟨56, _⟩ => ⟨S640000, .i32⟩
  | .hbm, ⟨57, _⟩ => ⟨S640000, .i32⟩
  | .hbm, ⟨58, _⟩ => ⟨S640000x1, .i32⟩
  | .hbm, ⟨59, _⟩ => ⟨S640000x1, .i32⟩
  | .hbm, ⟨60, _⟩ => ⟨S640000x2, .i32⟩
  | .hbm, ⟨61, _⟩ => ⟨S10000x10000, .f32⟩
  | .hbm, ⟨62, _⟩ => ⟨S10000x10000, .bf16⟩
  | .hbm, ⟨63, _⟩ => ⟨S1x256, .f32⟩
  | .hbm, ⟨64, _⟩ => ⟨S10000x256, .f32⟩
  | .hbm, ⟨65, _⟩ => ⟨S1, .f32⟩
  | .hbm, ⟨66, _⟩ => ⟨S_, .f32⟩
  | .hbm, ⟨67, _⟩ => ⟨S10000x256, .f32⟩
  | .hbm, ⟨68, _⟩ => ⟨S10000x256, .f32⟩
  | .hbm, ⟨69, _⟩ => ⟨S10000x256, .bf16⟩
  | .hbm, ⟨70, _⟩ => ⟨S10000x256, .f32⟩
  | .hbm, ⟨71, _⟩ => ⟨S10000x256, .bf16⟩
  | .hbm, ⟨72, _⟩ => ⟨S10000x256, .f32⟩
  | .hbm, ⟨73, _⟩ => ⟨S1, .f32⟩
  | .hbm, ⟨74, _⟩ => ⟨S_, .f32⟩
  | .hbm, ⟨75, _⟩ => ⟨S10000x256, .f32⟩
  | .hbm, ⟨76, _⟩ => ⟨S10000x256, .f32⟩
  | .hbm, ⟨77, _⟩ => ⟨S10000x256, .bf16⟩
  | .hbm, ⟨78, _⟩ => ⟨S10000x256, .f32⟩
  | .hbm, ⟨79, _⟩ => ⟨S10000x256, .bf16⟩
  | .hbm, ⟨80, _⟩ => ⟨S10000x256, .f32⟩
  | .hbm, ⟨81, _⟩ => ⟨S10000x256, .bf16⟩
  | .hbm, ⟨82, _⟩ => ⟨S10000x256, .f32⟩
  | .local _ .vmem, ⟨0, _⟩ => ⟨S1000x512, .f32⟩
  | .local _ .vmem, ⟨1, _⟩ => ⟨S1000x512, .f32⟩
  | .local _ .vmem, ⟨2, _⟩ => ⟨S256x512, .f32⟩
  | .local _ .vmem, ⟨3, _⟩ => ⟨S1x256, .f32⟩
  | .local _ .vmem, ⟨4, _⟩ => ⟨S1000x256, .f32⟩
  | .local _ .vmem, ⟨5, _⟩ => ⟨S1000x256, .f32⟩
  | .local _ .vmem, ⟨6, _⟩ => ⟨S400x10000, .bf16⟩
  | .local _ .vmem, ⟨7, _⟩ => ⟨S400x10000, .bf16⟩
  | .local _ .vmem, ⟨8, _⟩ => ⟨S10000x256, .bf16⟩
  | .local _ .vmem, ⟨9, _⟩ => ⟨S400x256, .f32⟩
  | .local _ .vmem, ⟨10, _⟩ => ⟨S400x256, .f32⟩
  | .local _ .vmem, ⟨11, _⟩ => ⟨S400x10000, .bf16⟩
  | .local _ .vmem, ⟨12, _⟩ => ⟨S400x10000, .bf16⟩
  | .local _ .vmem, ⟨13, _⟩ => ⟨S10000x256, .bf16⟩
  | .local _ .vmem, ⟨14, _⟩ => ⟨S400x256, .f32⟩
  | .local _ .vmem, ⟨15, _⟩ => ⟨S400x256, .f32⟩
  | .local _ .vmem, ⟨16, _⟩ => ⟨S400x10000, .bf16⟩
  | .local _ .vmem, ⟨17, _⟩ => ⟨S400x10000, .bf16⟩
  | .local _ .vmem, ⟨18, _⟩ => ⟨S10000x256, .bf16⟩
  | .local _ .vmem, ⟨19, _⟩ => ⟨S400x256, .f32⟩
  | .local _ .vmem, ⟨20, _⟩ => ⟨S400x256, .f32⟩
  | _, _ => ⟨S10000x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_2 : Ref sig .tc := ⟨.hbm, 19, rfl⟩
abbrev main_call0_v0 : Ref sig .tc := ⟨.hbm, 20, rfl⟩
abbrev main_call0_v1 : Ref sig .tc := ⟨.hbm, 21, rfl⟩
abbrev main_v11 : Ref sig .tc := ⟨.hbm, 22, rfl⟩
abbrev main_c : Ref sig .tc := ⟨.hbm, 23, rfl⟩
abbrev main_v12 : Ref sig .tc := ⟨.hbm, 24, rfl⟩
abbrev main_v13 : Ref sig .tc := ⟨.hbm, 25, rfl⟩
abbrev main_c_3 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_c_4 : Ref sig .tc := ⟨.hbm, 32, rfl⟩
abbrev main_v19 : Ref sig .tc := ⟨.hbm, 33, rfl⟩
abbrev main_v20 : Ref sig .tc := ⟨.hbm, 34, rfl⟩
abbrev main_c_5 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_cst_6 : Ref sig .tc := ⟨.hbm, 42, rfl⟩
abbrev main_v27 : Ref sig .tc := ⟨.hbm, 43, rfl⟩
abbrev main_c_7 : Ref sig .tc := ⟨.hbm, 44, rfl⟩
abbrev main_v28 : Ref sig .tc := ⟨.hbm, 45, rfl⟩
abbrev main_v29 : Ref sig .tc := ⟨.hbm, 46, rfl⟩
abbrev main_c_8 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_c_9 : Ref sig .tc := ⟨.hbm, 51, rfl⟩
abbrev main_v33 : Ref sig .tc := ⟨.hbm, 52, rfl⟩
abbrev main_v34 : Ref sig .tc := ⟨.hbm, 53, rfl⟩
abbrev main_c_10 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg2_1 : Ref sig .tc := ⟨.vmem, 10, rfl⟩
abbrev cc2_stg0_0 : Ref sig .tc := ⟨.vmem, 11, rfl⟩
abbrev cc2_stg0_1 : Ref sig .tc := ⟨.vmem, 12, rfl⟩
abbrev cc2_stg1_0 : Ref sig .tc := ⟨.vmem, 13, rfl⟩
abbrev cc2_stg2_0 : Ref sig .tc := ⟨.vmem, 14, rfl⟩
abbrev cc2_stg2_1 : Ref sig .tc := ⟨.vmem, 15, rfl⟩
abbrev cc3_stg0_0 : Ref sig .tc := ⟨.vmem, 16, rfl⟩
abbrev cc3_stg0_1 : Ref sig .tc := ⟨.vmem, 17, rfl⟩
abbrev cc3_stg1_0 : Ref sig .tc := ⟨.vmem, 18, rfl⟩
abbrev cc3_stg2_0 : Ref sig .tc := ⟨.vmem, 19, rfl⟩
abbrev cc3_stg2_1 : Ref sig .tc := ⟨.vmem, 20, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem2_1 : DmaSem sig := 10
abbrev cc2_sem0_0 : DmaSem sig := 11
abbrev cc2_sem0_1 : DmaSem sig := 12
abbrev cc2_sem1_0 : DmaSem sig := 13
abbrev cc2_sem2_0 : DmaSem sig := 14
abbrev cc2_sem2_1 : DmaSem sig := 15
abbrev cc3_sem0_0 : DmaSem sig := 16
abbrev cc3_sem0_1 : DmaSem sig := 17
abbrev cc3_sem1_0 : DmaSem sig := 18
abbrev cc3_sem2_0 : DmaSem sig := 19
abbrev cc3_sem2_1 : DmaSem sig := 20

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1000x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1000x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S400x10000 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S10000x256 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S400x256 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S400x10000 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S10000x256 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S400x256 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![25], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S400x10000 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S10000x256 .bf16 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S400x256 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

class Facts₀ : Prop where
  slices_S2x640000_S1x640000_0_0 : S2x640000.Slices ![0, 0] S1x640000
  shapeCasts_S1x640000_S640000 : S1x640000.ShapeCasts S640000
  slices_S2x640000_S1x640000_1_0 : S2x640000.Slices ![1, 0] S1x640000
  bcast_S_S640000 : S_.BroadcastsInDim S640000 (![] : Fin 0 → Fin S640000.rank)
  bcast_S_S10000 : S_.BroadcastsInDim S10000 (![] : Fin 0 → Fin S10000.rank)
  bcast_S640000_S640000x1_0 : S640000.BroadcastsInDim S640000x1 (![0] : Fin 1 → Fin S640000x1.rank)
  bcast_S_S10000x10000 : S_.BroadcastsInDim S10000x10000 (![] : Fin 0 → Fin S10000x10000.rank)
  concatenates_S640000x1_S640000x1_S640000x2_d1 : Shape.Concatenates [S640000x1, S640000x1] S640000x2 1
  bitsLt_bf16_f32 : FTy.bits .bf16 < FTy.bits .f32
  shapeCasts_S256_S1x256 : S256.ShapeCasts S1x256
  inb_S1000x512_S1000x512_0_0 : ∀ a, (![0, 0] : Fin 2 → Nat) a + S1000x512.size a ≤ S1000x512.size a
  h_S1000x512 : 0 < S1000x512.numel
  inb_S256x512_S256x512_0_0 : ∀ a, (![0, 0] : Fin 2 → Nat) a + S256x512.size a ≤ S256x512.size a
  h_S256x512 : 0 < S256x512.numel
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S1000x256 : S1x256.Broadcasts S1000x256
  inb_S1000x256_S1000x256_0_0 : ∀ a, (![0, 0] : Fin 2 → Nat) a + S1000x256.size a ≤ S1000x256.size a
  h_S1000x256 : 0 < S1000x256.numel
  slices_S2_S1_0 : S2.Slices ![0] S1
  shapeCasts_S1_S_ : S1.ShapeCasts S_
  bcast_S_S10000x256 : S_.BroadcastsInDim S10000x256 (![] : Fin 0 → Fin S10000x256.rank)
  inb_S400x10000_S400x10000_0_0 : ∀ a, (![0, 0] : Fin 2 → Nat) a + S400x10000.size a ≤ S400x10000.size a
  h_S400x10000 : 0 < S400x10000.numel
  shapeCasts_S400x10000_S400x10000 : S400x10000.ShapeCasts S400x10000
  inb_S10000x256_S10000x256_0_0 : ∀ a, (![0, 0] : Fin 2 → Nat) a + S10000x256.size a ≤ S10000x256.size a
  h_S10000x256 : 0 < S10000x256.numel
  shapeCasts_S10000x256_S10000x256 : S10000x256.ShapeCasts S10000x256
  inb_S400x256_S400x256_0_0 : ∀ a, (![0, 0] : Fin 2 → Nat) a + S400x256.size a ≤ S400x256.size a
  h_S400x256 : 0 < S400x256.numel
  slices_S2_S1_1 : S2.Slices ![1] S1
  scatter_S10000_S640000x1_S640000_n_0_0_1_wf : ScatterDims.WF S10000 S640000x1 S640000 [] [0] [0] 1
  gather_S10000_S640000x1_S640000_n_0_n_n_0_1_1_wf : GatherDims.WF S10000 S640000x1 S640000 [] [0] [] [0] [] 1 ![1]
  scatter_S10000x10000_S640000x2_S640000_n_01_01_1_wf : ScatterDims.WF S10000x10000 S640000x2 S640000 [] [0, 1] [0, 1] 1
  dot_S1000x512_S256x512_S1000x256_1_1_0_0_n_n_wf : DotDims.WF S1000x512 S256x512 S1000x256 [1] [1] [0] [0] [] []
  dot_S400x10000_S10000x256_S400x256_1_0_0_1_n_n_wf : DotDims.WF S400x10000 S10000x256 S400x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1000x512.size a ≤ S10000x512.size a
  hwx0_0 : ∀ i : grid0.Coords, EltTy.bits .f32 = 32 ∨ (Rect.block (s := S10000x512) S1000x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x512.size a ≤ S256x512.size a
  hwx0_1 : ∀ i : grid0.Coords, EltTy.bits .f32 = 32 ∨ (Rect.block (s := S256x512) S256x512.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x256.size a ≤ S1x256.size a
  hwx0_2 : ∀ i : grid0.Coords, EltTy.bits .f32 = 32 ∨ (Rect.block (s := S1x256) S1x256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1000x256.size a ≤ S10000x256.size a
  hwx0_3 : ∀ i : grid0.Coords, EltTy.bits .f32 = 32 ∨ (Rect.block (s := S10000x256) S1000x256.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S400x10000.size a ≤ S10000x10000.size a
  hwx1_0 : ∀ i : grid1.Coords, EltTy.bits .bf16 = 32 ∨ (Rect.block (s := S10000x10000) S400x10000.size (cc1_transform_0 i) (hinb1_0 i)).WholeWords (EltTy.packing .bf16)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S10000x256.size a ≤ S10000x256.size a
  hwx1_1 : ∀ i : grid1.Coords, EltTy.bits .bf16 = 32 ∨ (Rect.block (s := S10000x256) S10000x256.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S400x256.size a ≤ S10000x256.size a
  hwx1_2 : ∀ i : grid1.Coords, EltTy.bits .f32 = 32 ∨ (Rect.block (s := S10000x256) S400x256.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S400x10000.size a ≤ S10000x10000.size a
  hwx2_0 : ∀ i : grid2.Coords, EltTy.bits .bf16 = 32 ∨ (Rect.block (s := S10000x10000) S400x10000.size (cc2_transform_0 i) (hinb2_0 i)).WholeWords (EltTy.packing .bf16)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S10000x256.size a ≤ S10000x256.size a
  hwx2_1 : ∀ i : grid2.Coords, EltTy.bits .bf16 = 32 ∨ (Rect.block (s := S10000x256) S10000x256.size (cc2_transform_1 i) (hinb2_1 i)).WholeWords (EltTy.packing .bf16)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S400x256.size a ≤ S10000x256.size a
  hwx2_2 : ∀ i : grid2.Coords, EltTy.bits .f32 = 32 ∨ (Rect.block (s := S10000x256) S400x256.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S400x10000.size a ≤ S10000x10000.size a
  hwx3_0 : ∀ i : grid3.Coords, EltTy.bits .bf16 = 32 ∨ (Rect.block (s := S10000x10000) S400x10000.size (cc3_transform_0 i) (hinb3_0 i)).WholeWords (EltTy.packing .bf16)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S10000x256.size a ≤ S10000x256.size a
  hwx3_1 : ∀ i : grid3.Coords, EltTy.bits .bf16 = 32 ∨ (Rect.block (s := S10000x256) S10000x256.size (cc3_transform_1 i) (hinb3_1 i)).WholeWords (EltTy.packing .bf16)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S400x256.size a ≤ S10000x256.size a
  hwx3_2 : ∀ i : grid3.Coords, EltTy.bits .f32 = 32 ∨ (Rect.block (s := S10000x256) S400x256.size (cc3_transform_2 i) (hinb3_2 i)).WholeWords (EltTy.packing .f32)

variable [Facts₀]

def scatter_S10000_S640000x1_S640000_n_0_0_1 : ScatterDims S10000 S640000x1 S640000 where
  updateWindowDims := []
  insertedWindowDims := [0]
  scatterDimsToOperandDims := [0]
  indexVectorDim := 1
  wf := scatter_S10000_S640000x1_S640000_n_0_0_1_wf
def gather_S10000_S640000x1_S640000_n_0_n_n_0_1_1 : GatherDims S10000 S640000x1 S640000 where
  offsetDims := []
  collapsedSliceDims := [0]
  operandBatchingDims := []
  startIndicesBatchingDims := []
  startIndexMap := [0]
  indexVectorDim := 1
  sliceSizes := ![1]
  wf := gather_S10000_S640000x1_S640000_n_0_n_n_0_1_1_wf
def scatter_S10000x10000_S640000x2_S640000_n_01_01_1 : ScatterDims S10000x10000 S640000x2 S640000 where
  updateWindowDims := []
  insertedWindowDims := [0, 1]
  scatterDimsToOperandDims := [0, 1]
  indexVectorDim := 1
  wf := scatter_S10000x10000_S640000x2_S640000_n_01_01_1_wf
def dot_S1000x512_S256x512_S1000x256_1_1_0_0_n_n : DotDims S1000x512 S256x512 S1000x256 where
  lhsContracting := [1]
  rhsContracting := [1]
  lhsNonContracting := [0]
  rhsNonContracting := [0]
  lhsBatch := []
  rhsBatch := []
  wf := dot_S1000x512_S256x512_S1000x256_1_1_0_0_n_n_wf
def dot_S400x10000_S10000x256_S400x256_1_0_0_1_n_n : DotDims S400x10000 S10000x256 S400x256 where
  lhsContracting := [1]
  rhsContracting := [0]
  lhsNonContracting := [0]
  rhsNonContracting := [1]
  lhsBatch := []
  rhsBatch := []
  wf := dot_S400x10000_S10000x256_S400x256_1_0_0_1_n_n_wf

abbrev win0_0 : Pipeline.Window sig grid0 :=
  Pipeline.Window.ofSpec (Memref.whole main_arg0) S1000x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S256x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v43) S1x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v44) S1000x256.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v42) S400x10000.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v49) S10000x256.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v50) S400x256.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v42) S400x10000.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v57) S10000x256.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v58) S400x256.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v42) S400x10000.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v59) S10000x256.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v60) S400x256.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

class Facts : Prop extends Facts₀ where

variable [Facts]
-- ==== ReferenceIdeal.lean ====
abbrev S10000x512 : Shape := ⟨2, ![10000, 512]⟩
abbrev S2x640000 : Shape := ⟨2, ![2, 640000]⟩
abbrev S256x512 : Shape := ⟨2, ![256, 512]⟩
abbrev S256 : Shape := ⟨1, ![256]⟩
abbrev S2 : Shape := ⟨1, ![2]⟩
abbrev S1x640000 : Shape := ⟨2, ![1, 640000]⟩
abbrev S640000 : Shape := ⟨1, ![640000]⟩
abbrev S_ : Shape := ⟨0, ![]⟩
abbrev S10000 : Shape := ⟨1, ![10000]⟩
abbrev S640000x1 : Shape := ⟨2, ![640000, 1]⟩
abbrev S512x256 : Shape := ⟨2, ![512, 256]⟩
abbrev S10000x256 : Shape := ⟨2, ![10000, 256]⟩
abbrev S1x256 : Shape := ⟨2, ![1, 256]⟩
abbrev S640000x256 : Shape := ⟨2, ![640000, 256]⟩
abbrev S1 : Shape := ⟨1, ![1]⟩

abbrev nBuf : Space → Nat
  | .hbm => 105
  | .vmem => 0
  | .smem => 0
  | _ => 0

abbrev bufTy : (tb : Table) → Fin (tcTables nBuf tb) → BufTy
  | .hbm, ⟨0, _⟩ => ⟨S10000x512, .f32⟩
  | .hbm, ⟨1, _⟩ => ⟨S2x640000, .i32⟩
  | .hbm, ⟨2, _⟩ => ⟨S256x512, .f32⟩
  | .hbm, ⟨3, _⟩ => ⟨S256, .f32⟩
  | .hbm, ⟨4, _⟩ => ⟨S2, .f32⟩
  | .hbm, ⟨5, _⟩ => ⟨S1x640000, .i32⟩
  | .hbm, ⟨6, _⟩ => ⟨S640000, .i32⟩
  | .hbm, ⟨7, _⟩ => ⟨S1x640000, .i32⟩
  | .hbm, ⟨8, _⟩ => ⟨S640000, .i32⟩
  | .hbm, ⟨9, _⟩ => ⟨S_, .f32⟩
  | .hbm, ⟨10, _⟩ => ⟨S640000, .f32⟩
  | .hbm, ⟨11, _⟩ => ⟨S_, .f32⟩
  | .hbm, ⟨12, _⟩ => ⟨S10000, .f32⟩
  | .hbm, ⟨13, _⟩ => ⟨S640000x1, .i32⟩
  | .hbm, ⟨14, _⟩ => ⟨S10000, .f32⟩
  | .hbm, ⟨15, _⟩ => ⟨S_, .f32⟩
  | .hbm, ⟨16, _⟩ => ⟨S10000, .f32⟩
  | .hbm, ⟨17, _⟩ => ⟨S10000, .i1⟩
  | .hbm, ⟨18, _⟩ => ⟨S10000, .f32⟩
  | .hbm, ⟨19, _⟩ => ⟨S_, .f32⟩
  | .hbm, ⟨20, _⟩ => ⟨S_, .f32⟩
  | .hbm, ⟨21, _⟩ => ⟨S10000, .f32⟩
  | .hbm, ⟨22, _⟩ => ⟨S10000, .f32⟩
  | .hbm, ⟨23, _⟩ => ⟨S_, .i32⟩
  | .hbm, ⟨24, _⟩ => ⟨S640000, .i32⟩
  | .hbm, ⟨25, _⟩ => ⟨S640000, .i1⟩
  | .hbm, ⟨26, _⟩ => ⟨S_, .i32⟩
  | .hbm, ⟨27, _⟩ => ⟨S640000, .i32⟩
  | .hbm, ⟨28, _⟩ => ⟨S640000, .i32⟩
  | .hbm, ⟨29, _⟩ => ⟨S640000, .i32⟩
  | .hbm, ⟨30, _⟩ => ⟨S640000x1, .i32⟩
  | .hbm, ⟨31, _⟩ => ⟨S640000, .f32⟩
  | .hbm, ⟨32, _⟩ => ⟨S_, .i32⟩
  | .hbm, ⟨33, _⟩ => ⟨S640000, .i32⟩
  | .hbm, ⟨34, _⟩ => ⟨S640000, .i1⟩
  | .hbm, ⟨35, _⟩ => ⟨S_, .i32⟩
  | .hbm, ⟨36, _⟩ => ⟨S640000, .i32⟩
  | .hbm, ⟨37, _⟩ => ⟨S640000, .i32⟩
  | .hbm, ⟨38, _⟩ => ⟨S640000, .i32⟩
  | .hbm, ⟨39, _⟩ => ⟨S640000x1, .i32⟩
  | .hbm, ⟨40, _⟩ => ⟨S640000, .f32⟩
  | .hbm, ⟨41, _⟩ => ⟨S640000, .f32⟩
  | .hbm, ⟨42, _⟩ => ⟨S512x256, .f32⟩
  | .hbm, ⟨43, _⟩ => ⟨S10000x256, .f32⟩
  | .hbm, ⟨44, _⟩ => ⟨S1x256, .f32⟩
  | .hbm, ⟨45, _⟩ => ⟨S10000x256, .f32⟩
  | .hbm, ⟨46, _⟩ => ⟨S10000x256, .f32⟩
  | .hbm, ⟨47, _⟩ => ⟨S640000x1, .f32⟩
  | .hbm, ⟨48, _⟩ => ⟨S_, .i32⟩
  | .hbm, ⟨49, _⟩ => ⟨S640000, .i32⟩
  | .hbm, ⟨50, _⟩ => ⟨S640000, .i1⟩
  | .hbm, ⟨51, _⟩ => ⟨S_, .i32⟩
  | .hbm, ⟨52, _⟩ => ⟨S640000, .i32⟩
  | .hbm, ⟨53, _⟩ => ⟨S640000, .i32⟩
  | .hbm, ⟨54, _⟩ => ⟨S640000, .i32⟩
  | .hbm, ⟨55, _⟩ => ⟨S640000x1, .i32⟩
  | .hbm, ⟨56, _⟩ => ⟨S640000x256, .f32⟩
  | .hbm, ⟨57, _⟩ => ⟨S640000x256, .f32⟩
  | .hbm, ⟨58, _⟩ => ⟨S640000x256, .f32⟩
  | .hbm, ⟨59, _⟩ => ⟨S_, .f32⟩
  | .hbm, ⟨60, _⟩ => ⟨S10000x256, .f32⟩
  | .hbm, ⟨61, _⟩ => ⟨S640000x1, .i32⟩
  | .hbm, ⟨62, _⟩ => ⟨S10000x256, .f32⟩
  | .hbm, ⟨63, _⟩ => ⟨S1, .f32⟩
  | .hbm, ⟨64, _⟩ => ⟨S_, .f32⟩
  | .hbm, ⟨65, _⟩ => ⟨S10000x256, .f32⟩
  | .hbm, ⟨66, _⟩ => ⟨S10000x256, .f32⟩
  | .hbm, ⟨67, _⟩ => ⟨S10000x256, .f32⟩
  | .hbm, ⟨68, _⟩ => ⟨S640000x1, .f32⟩
  | .hbm, ⟨69, _⟩ => ⟨S_, .i32⟩
  | .hbm, ⟨70, _⟩ => ⟨S640000, .i32⟩
  | .hbm, ⟨71, _⟩ => ⟨S640000, .i1⟩
  | .hbm, ⟨72, _⟩ => ⟨S_, .i32⟩
  | .hbm, ⟨73, _⟩ => ⟨S640000, .i32⟩
  | .hbm, ⟨74, _⟩ => ⟨S640000, .i32⟩
  | .hbm, ⟨75, _⟩ => ⟨S640000, .i32⟩
  | .hbm, ⟨76, _⟩ => ⟨S640000x1, .i32⟩
  | .hbm, ⟨77, _⟩ => ⟨S640000x256, .f32⟩
  | .hbm, ⟨78, _⟩ => ⟨S640000x256, .f32⟩
  | .hbm, ⟨79, _⟩ => ⟨S640000x256, .f32⟩
  | .hbm, ⟨80, _⟩ => ⟨S_, .f32⟩
  | .hbm, ⟨81, _⟩ => ⟨S10000x256, .f32⟩
  | .hbm, ⟨82, _⟩ => ⟨S640000x1, .i32⟩
  | .hbm, ⟨83, _⟩ => ⟨S10000x256, .f32⟩
  | .hbm, ⟨84, _⟩ => ⟨S640000x1, .f32⟩
  | .hbm, ⟨85, _⟩ => ⟨S_, .i32⟩
  | .hbm, ⟨86, _⟩ => ⟨S640000, .i32⟩
  | .hbm, ⟨87, _⟩ => ⟨S640000, .i1⟩
  | .hbm, ⟨88, _⟩ => ⟨S_, .i32⟩
  | .hbm, ⟨89, _⟩ => ⟨S640000, .i32⟩
  | .hbm, ⟨90, _⟩ => ⟨S640000, .i32⟩
  | .hbm, ⟨91, _⟩ => ⟨S640000, .i32⟩
  | .hbm, ⟨92, _⟩ => ⟨S640000x1, .i32⟩
  | .hbm, ⟨93, _⟩ => ⟨S640000x256, .f32⟩
  | .hbm, ⟨94, _⟩ => ⟨S640000x256, .f32⟩
  | .hbm, ⟨95, _⟩ => ⟨S640000x256, .f32⟩
  | .hbm, ⟨96, _⟩ => ⟨S_, .f32⟩
  | .hbm, ⟨97, _⟩ => ⟨S10000x256, .f32⟩
  | .hbm, ⟨98, _⟩ => ⟨S640000x1, .i32⟩
  | .hbm, ⟨99, _⟩ => ⟨S10000x256, .f32⟩
  | .hbm, ⟨100, _⟩ => ⟨S1, .f32⟩
  | .hbm, ⟨101, _⟩ => ⟨S_, .f32⟩
  | .hbm, ⟨102, _⟩ => ⟨S10000x256, .f32⟩
  | .hbm, ⟨103, _⟩ => ⟨S10000x256, .f32⟩
  | .hbm, ⟨104, _⟩ => ⟨S10000x256, .f32⟩
  | _, _ => ⟨S10000x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_2 : Ref sig .tc := ⟨.hbm, 19, rfl⟩
abbrev main_call0_v0 : Ref sig .tc := ⟨.hbm, 20, rfl⟩
abbrev main_call0_v1 : Ref sig .tc := ⟨.hbm, 21, rfl⟩
abbrev main_v11 : Ref sig .tc := ⟨.hbm, 22, rfl⟩
abbrev main_c : Ref sig .tc := ⟨.hbm, 23, rfl⟩
abbrev main_v12 : Ref sig .tc := ⟨.hbm, 24, rfl⟩
abbrev main_v13 : Ref sig .tc := ⟨.hbm, 25, rfl⟩
abbrev main_c_3 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_c_4 : Ref sig .tc := ⟨.hbm, 32, rfl⟩
abbrev main_v19 : Ref sig .tc := ⟨.hbm, 33, rfl⟩
abbrev main_v20 : Ref sig .tc := ⟨.hbm, 34, rfl⟩
abbrev main_c_5 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_c_6 : Ref sig .tc := ⟨.hbm, 48, rfl⟩
abbrev main_v33 : Ref sig .tc := ⟨.hbm, 49, rfl⟩
abbrev main_v34 : Ref sig .tc := ⟨.hbm, 50, rfl⟩
abbrev main_c_7 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_cst_8 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_c_9 : Ref sig .tc := ⟨.hbm, 69, rfl⟩
abbrev main_v51 : Ref sig .tc := ⟨.hbm, 70, rfl⟩
abbrev main_v52 : Ref sig .tc := ⟨.hbm, 71, rfl⟩
abbrev main_c_10 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_cst_11 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩
abbrev main_c_12 : Ref sig .tc := ⟨.hbm, 85, rfl⟩
abbrev main_v64 : Ref sig .tc := ⟨.hbm, 86, rfl⟩
abbrev main_v65 : Ref sig .tc := ⟨.hbm, 87, rfl⟩
abbrev main_c_13 : Ref sig .tc := ⟨.hbm, 88, rfl⟩
abbrev main_v66 : Ref sig .tc := ⟨.hbm, 89, rfl⟩
abbrev main_v67 : Ref sig .tc := ⟨.hbm, 90, rfl⟩
abbrev main_v68 : Ref sig .tc := ⟨.hbm, 91, rfl⟩
abbrev main_v69 : Ref sig .tc := ⟨.hbm, 92, rfl⟩
abbrev main_v70 : Ref sig .tc := ⟨.hbm, 93, rfl⟩
abbrev main_v71 : Ref sig .tc := ⟨.hbm, 94, rfl⟩
abbrev main_v72 : Ref sig .tc := ⟨.hbm, 95, rfl⟩
abbrev main_cst_14 : Ref sig .tc := ⟨.hbm, 96, rfl⟩
abbrev main_v73 : Ref sig .tc := ⟨.hbm, 97, rfl⟩
abbrev main_v74 : Ref sig .tc := ⟨.hbm, 98, rfl⟩
abbrev main_v75 : Ref sig .tc := ⟨.hbm, 99, rfl⟩
abbrev main_v76 : Ref sig .tc := ⟨.hbm, 100, rfl⟩
abbrev main_v77 : Ref sig .tc := ⟨.hbm, 101, rfl⟩
abbrev main_v78 : Ref sig .tc := ⟨.hbm, 102, rfl⟩
abbrev main_v79 : Ref sig .tc := ⟨.hbm, 103, rfl⟩
abbrev main_v80 : Ref sig .tc := ⟨.hbm, 104, rfl⟩

abbrev nD : Nat := 1
abbrev τ : Topo := Topo.v7x

variable {F : FTy → Type} [FloatOps F]

class Facts₀ : Prop where
  slices_S2x640000_S1x640000_0_0 : S2x640000.Slices ![0, 0] S1x640000
  shapeCasts_S1x640000_S640000 : S1x640000.ShapeCasts S640000
  slices_S2x640000_S1x640000_1_0 : S2x640000.Slices ![1, 0] S1x640000
  bcast_S_S640000 : S_.BroadcastsInDim S640000 (![] : Fin 0 → Fin S640000.rank)
  bcast_S_S10000 : S_.BroadcastsInDim S10000 (![] : Fin 0 → Fin S10000.rank)
  bcast_S640000_S640000x1_0 : S640000.BroadcastsInDim S640000x1 (![0] : Fin 1 → Fin S640000x1.rank)
  transposes_S256x512_S512x256_1_0 : S256x512.Transposes [1, 0] S512x256
  bcast_S256_S1x256_1 : S256.BroadcastsInDim S1x256 (![1] : Fin 1 → Fin S1x256.rank)
  bcast_S1x256_S10000x256_0_1 : S1x256.BroadcastsInDim S10000x256 (![0, 1] : Fin 2 → Fin S10000x256.rank)
  bcast_S640000x1_S640000x256_0_1 : S640000x1.BroadcastsInDim S640000x256 (![0, 1] : Fin 2 → Fin S640000x256.rank)
  bcast_S_S10000x256 : S_.BroadcastsInDim S10000x256 (![] : Fin 0 → Fin S10000x256.rank)
  slices_S2_S1_0 : S2.Slices ![0] S1
  shapeCasts_S1_S_ : S1.ShapeCasts S_
  slices_S2_S1_1 : S2.Slices ![1] S1
  scatter_S10000_S640000x1_S640000_n_0_0_1_wf : ScatterDims.WF S10000 S640000x1 S640000 [] [0] [0] 1
  gather_S10000_S640000x1_S640000_n_0_n_n_0_1_1_wf : GatherDims.WF S10000 S640000x1 S640000 [] [0] [] [0] [] 1 ![1]
  dot_S10000x512_S512x256_S10000x256_1_0_0_1_n_n_wf : DotDims.WF S10000x512 S512x256 S10000x256 [1] [0] [0] [1] [] []
  gather_S10000x256_S640000x1_S640000x256_1_0_n_n_0_1_1256_wf : GatherDims.WF S10000x256 S640000x1 S640000x256 [1] [0] [] [0] [] 1 ![1, 256]
  scatter_S10000x256_S640000x1_S640000x256_1_0_0_1_wf : ScatterDims.WF S10000x256 S640000x1 S640000x256 [1] [0] [0] 1

variable [Facts₀]

def scatter_S10000_S640000x1_S640000_n_0_0_1 : ScatterDims S10000 S640000x1 S640000 where
  updateWindowDims := []
  insertedWindowDims := [0]
  scatterDimsToOperandDims := [0]
  indexVectorDim := 1
  wf := scatter_S10000_S640000x1_S640000_n_0_0_1_wf
def gather_S10000_S640000x1_S640000_n_0_n_n_0_1_1 : GatherDims S10000 S640000x1 S640000 where
  offsetDims := []
  collapsedSliceDims := [0]
  operandBatchingDims := []
  startIndicesBatchingDims := []
  startIndexMap := [0]
  indexVectorDim := 1
  sliceSizes := ![1]
  wf := gather_S10000_S640000x1_S640000_n_0_n_n_0_1_1_wf
def dot_S10000x512_S512x256_S10000x256_1_0_0_1_n_n : DotDims S10000x512 S512x256 S10000x256 where
  lhsContracting := [1]
  rhsContracting := [0]
  lhsNonContracting := [0]
  rhsNonContracting := [1]
  lhsBatch := []
  rhsBatch := []
  wf := dot_S10000x512_S512x256_S10000x256_1_0_0_1_n_n_wf
def gather_S10000x256_S640000x1_S640000x256_1_0_n_n_0_1_1256 : GatherDims S10000x256 S640000x1 S640000x256 where
  offsetDims := [1]
  collapsedSliceDims := [0]
  operandBatchingDims := []
  startIndicesBatchingDims := []
  startIndexMap := [0]
  indexVectorDim := 1
  sliceSizes := ![1, 256]
  wf := gather_S10000x256_S640000x1_S640000x256_1_0_n_n_0_1_1256_wf
def scatter_S10000x256_S640000x1_S640000x256_1_0_0_1 : ScatterDims S10000x256 S640000x1 S640000x256 where
  updateWindowDims := [1]
  insertedWindowDims := [0]
  scatterDimsToOperandDims := [0]
  indexVectorDim := 1
  wf := scatter_S10000x256_S640000x1_S640000x256_1_0_0_1_wf

class Facts : Prop extends Facts₀ where

variable [Facts]
-- ==== Proof.KRunNamed.lean ====
/-
  The kernel program's run with its result NAMED: every weakly fair execution of @main terminates, nothing faulting, with
  the result buffer at the contents the last boundary of the run's fold assigns to it, and the argument arrays as launched.
-/
import proofs.«176783_j33895881900097_2_alg».proof.Proof.Gen.KernelIdeal.Frame

set_option maxRecDepth 16384

noncomputable section

namespace Cert.KernelIdeal.RunNamed

open Cert.KernelIdeal Cert.KernelIdeal.Gen Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run, the result buffer read at the fold's last boundary. The final state agrees with the last boundary's
    contents on every unscoped buffer of every core; the result buffer is one of them, and each argument's buffer is
    another, which the fold leaves as launched. -/
theorem run_named : θ_run defs (onTc (τ := τ) (main (F := F))) ⟨m, fun _ => 0, ρ⟩ (fun r => ∀ c : Dev nD,
      r.2.mem ((c.tc : Thread nD τ).loc main_v62) = W11 m ρ c (Proc.devRef .tc main_v62)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W11 m ρ c b)
    (hfin := fun c s' => by
      iintro ⟨⟨Hh, -⟩, HSI⟩
      unfold StableHlo.held
      imodintro
      iapply (pointsTo_read_all (Pipeline.ucRefs τ sig) (fun b => (((c : Thread nD τ)).1, b)) (W11 m ρ c) s')
      isplitl [Hh] <;> iassumption)
    (hQ := fun s h c =>
      ⟨h c _ (mem_uc main_v62 (by decide)),
       (h c _ (mem_uc main_arg0 (by decide))).trans (W11_main_arg0 m ρ c),
       (h c _ (mem_uc main_arg1 (by decide))).trans (W11_main_arg1 m ρ c),
       (h c _ (mem_uc main_arg2 (by decide))).trans (W11_main_arg2 m ρ c),
       (h c _ (mem_uc main_arg3 (by decide))).trans (W11_main_arg3 m ρ c),
       (h c _ (mem_uc main_arg4 (by decide))).trans (W11_main_arg4 m ρ c)⟩)

end Cert.KernelIdeal.RunNamed

end
-- ==== Proof.KAdjTerm.lean ====
/-
  The host computation with which the kernel's program builds the dense normalised adjacency matrix from the edge
  list, as pure functions of the edge list (one per stage):
    rowWords / colWords : the two rows of the edge list as vectors of 640000 index words;
    wrapNeg             : an index word with 10000 added when it is negative (Python-style negative indexing);
    degree              : the number of edges whose target word names each node, accumulated from zero;
    invSqrtDeg          : 1 / sqrt(degree) where the degree is positive, 0 elsewhere;
    edgeNorm            : for each edge, invSqrtDeg at its target times invSqrtDeg at its source;
    adjacency           : the 10000 x 10000 matrix, from zero, with edgeNorm e added at (target e, source e) for every edge.
-/
import proofs.«176783_j33895881900097_2_alg».proof.Proof.Gen.KernelIdeal

noncomputable section

namespace Cert.KernelIdeal.AdjTerm

open Cert.KernelIdeal Cert.KernelIdeal.Gen Idealize.ShloMosaic

variable {F : FTy → Type} [FloatOps F]

/-- Row 0 of the edge list: each edge's target word. -/
def rowWords (ei : IVec S2x640000 32) : IVec S640000 32 :=
  shapeCast S640000 (extractStridedSlice S1x640000 ![0, 0] ei slices_S2x640000_S1x640000_0_0) shapeCasts_S1x640000_S640000

/-- Row 1 of the edge list: each edge's source word. -/
def colWords (ei : IVec S2x640000 32) : IVec S640000 32 :=
  shapeCast S640000 (extractStridedSlice S1x640000 ![1, 0] ei slices_S2x640000_S1x640000_1_0) shapeCasts_S1x640000_S640000

/-- A negative index word counts from the end: 10000 is added to it. -/
def wrapNeg (v : IVec S640000 32) : IVec S640000 32 :=
  select (cmpi .slt v (broadcastInDim S640000 ![] bcast_S_S640000 (constantI S_ 32 0#32)))
    (addi v (broadcastInDim S640000 ![] bcast_S_S640000 (constantI S_ 32 10000#32))) v

/-- The degree of every node: one added per edge at the node its (unwrapped) target word names. -/
def degree (ei : IVec S2x640000 32) : FVec F S10000 .f32 :=
  Host.scatterAdd scatter_S10000_S640000x1_S640000_n_0_0_1
    (broadcastInDim S10000 ![] bcast_S_S10000 (constant S_ .f32 0x00000000#32))
    (broadcastInDim S640000x1 ![0] bcast_S640000_S640000x1_0 (rowWords ei))
    (broadcastInDim S640000 ![] bcast_S_S640000 (constant S_ .f32 0x3F800000#32))

/-- 1 / sqrt(degree) where the degree is positive, and 0 elsewhere. -/
def invSqrtDeg (ei : IVec S2x640000 32) : FVec F S10000 .f32 :=
  select (cmpf (F := F) .ogt (degree ei) (broadcastInDim S10000 ![] bcast_S_S10000 (constant S_ .f32 0x00000000#32)))
    (Host.rsqrt (degree ei))
    (broadcastInDim S10000 ![] bcast_S_S10000 (constant S_ .f32 0x00000000#32))

/-- The weight of every edge: the product of invSqrtDeg at its two ends. -/
def edgeNorm (ei : IVec S2x640000 32) : FVec F S640000 .f32 :=
  mulf
    (Host.gather gather_S10000_S640000x1_S640000_n_0_n_n_0_1_1 (invSqrtDeg (F := F) ei)
      (broadcastInDim S640000x1 ![0] bcast_S640000_S640000x1_0 (wrapNeg (rowWords ei))))
    (Host.gather gather_S10000_S640000x1_S640000_n_0_n_n_0_1_1 (invSqrtDeg (F := F) ei)
      (broadcastInDim S640000x1 ![0] bcast_S640000_S640000x1_0 (wrapNeg (colWords ei))))

/-- The pairs (target, source) of the edges as a [640000, 2] array of index words, negatives wrapped. -/
def edgePairs (ei : IVec S2x640000 32) : IVec S640000x2 32 :=
  concatenate S640000x2 1
    [⟨S640000x1, broadcastInDim S640000x1 ![0] bcast_S640000_S640000x1_0 (wrapNeg (rowWords ei))⟩,
     ⟨S640000x1, broadcastInDim S640000x1 ![0] bcast_S640000_S640000x1_0 (wrapNeg (colWords ei))⟩]
    concatenates_S640000x1_S640000x1_S640000x2_d1

/-- The dense normalised adjacency matrix: every edge's weight added, from zero, at (target, source). -/
def adjacency (ei : IVec S2x640000 32) : FVec F S10000x10000 .f32 :=
  Host.scatterAdd scatter_S10000x10000_S640000x2_S640000_n_01_01_1
    (broadcastInDim S10000x10000 ![] bcast_S_S10000x10000 (constant S_ .f32 0x00000000#32))
    (edgePairs ei) (edgeNorm (F := F) ei)

end Cert.KernelIdeal.AdjTerm

end
-- ==== Proof.LibIndexReads.lean ====
/-
  Vector and layout operations read at an index, for any extents.

  Each lemma names the one entry of the operand that an operation's result holds at a given entry, the indices written
  by their coordinates:
    * the logistic function, lane by lane;
    * a matrix product [M, K] × [N, K] with the right operand contracted on its LAST axis, into the zero accumulator:
      entry (r, e) is Σ_k lhs[r, k] · rhs[e, k];
    * a float sum over the LEADING axis of an [a, b, c] array: entry (i, j) is Σ_f src[f, i, j];
    * an array [1, b, c] broadcast along its unit axis to [a, b, c];
    * a matrix reshaped to a matrix, an [a, b, 1, 1] tensor flattened to a matrix, a vector folded into a matrix: the entry
      with the same row-major position;
    * the transpose with permutation [2, 3, 0, 1] of a rank-4 tensor: the two leading axes swapped with the two
      trailing ones.
-/
import Idealize.ShloMosaic.Lib.ValueLayout
import Idealize.ShloMosaic.Lib.Pipeline.Value
import Idealize.ShloMosaic.PureOps.Ideal.Laws

noncomputable section

open scoped BigOperators

namespace Cert.LibIndexReads

open Idealize.ShloMosaic Idealize.ShloMosaic.ValueIdx

variable {α : Type}

/-- The logistic function applied lane by lane. -/
theorem logistic_apply {s : Shape} {φ : FTy} (x : FVec Ideal s φ) (i : s.Idx) : logistic x i = Ideal.logistic (x i) := rfl

/-- Entry (r, e) of an [M, K] × [N, K] product contracted on both last axes, into the zero accumulator, is
    Σ_k lhs[r, k] · rhs[e, k]. -/
theorem matmul_transposedRhs_zero_apply {M K N : ℕ} {φ₁ φ₂ : FTy} (d : DotDims ⟨2, ![M, K]⟩ ⟨2, ![N, K]⟩ ⟨2, ![M, N]⟩)
    (hd : d = DotDims.transposedRhs M K N) (prec : Option ContractPrecision)
    (lhs : FVec Ideal ⟨2, ![M, K]⟩ φ₁) (rhs : FVec Ideal ⟨2, ![N, K]⟩ φ₂) (r : Fin M) (e : Fin N) :
    FloatOps.matmul d prec lhs rhs (constant ⟨2, ![M, N]⟩ .f32 0x00000000#32) (ix2 r e)
      = ∑ k : Fin K, lhs (ix2 r k) * rhs (ix2 e k) := by
  subst hd
  rw [Ideal.matmul_constant_zero_apply, ← Equiv.sum_comp (contrEquiv1 (DotDims.transposedRhs M K N) K rfl rfl).symm]
  refine Finset.sum_congr rfl fun k _ => ?_
  have hk := contrEquiv1_symm_val (DotDims.transposedRhs M K N) K rfl rfl k
  have el : (DotDims.transposedRhs M K N).lhsIdx (ix2 r e) ((contrEquiv1 (DotDims.transposedRhs M K N) K rfl rfl).symm k) = ix2 r k :=
    funext fun a => Fin.ext (by
      match a with
      | ⟨0, _⟩ => rfl
      | ⟨1, _⟩ => exact hk)
  have er : (DotDims.transposedRhs M K N).rhsIdx (ix2 r e) ((contrEquiv1 (DotDims.transposedRhs M K N) K rfl rfl).symm k) = ix2 e k :=
    funext fun a => Fin.ext (by
      match a with
      | ⟨0, _⟩ => rfl
      | ⟨1, _⟩ => exact hk)
  rw [el, er]

/-- A float sum over the leading axis of an [a, b, c] array reads, at (i, j), the sum over f of the entries (f, i, j). -/
theorem multiReduction_add_axis0_apply {a b c : ℕ} {φ : FTy} (src : FVec Ideal ⟨3, ![a, b, c]⟩ φ) (acc : BitVec φ.bits)
    (h : (⟨3, ![a, b, c]⟩ : Shape).Reduces [0] ⟨2, ![b, c]⟩) (hφ : FKind.Formats φ) (hacc : acc = FKind.add.neutral φ hφ)
    (i : Fin b) (j : Fin c) :
    multiReduction .add [0] ⟨2, ![b, c]⟩ src acc h hφ hacc (ix2 i j) = ∑ f : Fin a, src (ix3 f i j) := by
  refine (Ideal.multiReduction_add_single src acc h hφ hacc (ix2 i j)).trans ?_
  exact Finset.sum_congr rfl fun f _ => congrArg src (funext fun d => Fin.ext (by
    match d with
    | ⟨0, _⟩ => rfl
    | ⟨1, _⟩ => rfl
    | ⟨2, _⟩ => rfl))

/-- A [1, b, c] array broadcast to [a, b, c] reads, at (p, i, j), the operand's one slab at (i, j). -/
theorem broadcastTo_1bc_abc_apply {a b c : ℕ} (v : (⟨3, ![1, b, c]⟩ : Shape).Idx → α)
    (h : (⟨3, ![1, b, c]⟩ : Shape).Broadcasts ⟨3, ![a, b, c]⟩) (p : Fin a) (i : Fin b) (j : Fin c) :
    broadcastTo ⟨3, ![a, b, c]⟩ v h (ix3 p i j) = v (ix3 (0 : Fin 1) i j) := by
  refine broadcastTo_apply v h (ix3 p i j) (ix3 (0 : Fin 1) i j) fun ax => ?_
  match ax with
  | ⟨0, _⟩ => rfl
  | ⟨1, _⟩ =>
    show i.val = if b = 1 then 0 else i.val
    split
    · have := i.isLt; omega
    · rfl
  | ⟨2, _⟩ =>
    show j.val = if c = 1 then 0 else j.val
    split
    · have := j.isLt; omega
    · rfl

/-- An [r, l] matrix reshaped to [s, c] reads, at (i, j), the operand at the entry with the same row-major position. -/
theorem shapeCast_matrix_apply {r l s c : ℕ} (x : (⟨2, ![r, l]⟩ : Shape).Idx → α)
    (h : (⟨2, ![r, l]⟩ : Shape).ShapeCasts ⟨2, ![s, c]⟩) (i : Fin s) (j : Fin c) (i' : Fin r) (j' : Fin l)
    (hk : i'.val * l + j'.val = i.val * c + j.val) :
    shapeCast ⟨2, ![s, c]⟩ x h (ix2 i j) = x (ix2 i' j') :=
  shapeCast_apply x h _ _ (by
    rw [Shape.rowMajor_val_two, Shape.rowMajor_val_two]
    exact hk)

/-- An [a, b, 1, 1] tensor reshaped to a matrix reads, at an entry whose row-major position is s·b + k, entry (s, k, 0, 0). -/
theorem shapeCast_ab11_matrix_apply {a b r l : ℕ} (x : (⟨4, ![a, b, 1, 1]⟩ : Shape).Idx → α)
    (h : (⟨4, ![a, b, 1, 1]⟩ : Shape).ShapeCasts ⟨2, ![r, l]⟩) (i : Fin r) (j : Fin l) (s : Fin a) (k : Fin b)
    (hk : s.val * b + k.val = i.val * l + j.val) :
    shapeCast ⟨2, ![r, l]⟩ x h (ix2 i j) = x (ix4 s k (0 : Fin 1) (0 : Fin 1)) :=
  shapeCast_apply x h _ _ (by
    rw [Shape.rowMajor_val_four, Shape.rowMajor_val_two]
    show ((s.val * b + k.val) * 1 + 0) * 1 + 0 = i.val * l + j.val
    omega)

/-- A vector folded into a matrix reads, at an entry whose row-major position is k, entry k. -/
theorem shapeCast_vec_matrix_apply {a r l : ℕ} (x : (⟨1, ![a]⟩ : Shape).Idx → α)
    (h : (⟨1, ![a]⟩ : Shape).ShapeCasts ⟨2, ![r, l]⟩) (i : Fin r) (j : Fin l) (k : Fin a)
    (hk : k.val = i.val * l + j.val) :
    shapeCast ⟨2, ![r, l]⟩ x h (ix2 i j) = x (ix1 k) :=
  shapeCast_apply x h _ _ (by
    rw [Shape.rowMajor_val_one, Shape.rowMajor_val_two]
    exact hk)

/-- The transpose with permutation [2, 3, 0, 1] of an [a, b, c, d] tensor reads, at (i, j, n, k), entry (n, k, i, j). -/
theorem transpose_2301_apply {a b c d : ℕ} (x : (⟨4, ![a, b, c, d]⟩ : Shape).Idx → α)
    (h : (⟨4, ![a, b, c, d]⟩ : Shape).Transposes [2, 3, 0, 1] ⟨4, ![c, d, a, b]⟩)
    (i : Fin c) (j : Fin d) (n : Fin a) (k : Fin b) :
    transpose ⟨4, ![c, d, a, b]⟩ [2, 3, 0, 1] x h (ix4 i j n k) = x (ix4 n k i j) :=
  transpose_apply _ x h _ _ (fun e => by
    match e with
    | ⟨0, _⟩ => rfl
    | ⟨1, _⟩ => rfl
    | ⟨2, _⟩ => rfl
    | ⟨3, _⟩ => rfl)

end Cert.LibIndexReads

end
-- ==== Proof.KRegionLinear.lean ====
/-
  The dense projection launch: after it, the output array holds at (i, j) the sum over k of x(i, k) * w(j, k), plus b(j),
  where x, w and the bias row are the arrays the launch finds.
-/
import proofs.«176783_j33895881900097_2_alg».proof.Proof.Gen.KernelIdeal.Frame
import proofs.«176783_j33895881900097_2_alg».proof.Proof.LibIndexReads

open scoped BigOperators

noncomputable section

namespace Cert.KernelIdeal.RegionValue

open Cert.KernelIdeal Cert.KernelIdeal.Gen Idealize.ShloMosaic Idealize.ShloMosaic.TcCoe Idealize.ShloMosaic.ValueIdx Idealize.SL.Sem

variable (V : (c : Dev nD) → (b : Ref sig .tc) → Buf (Elt Ideal) ((c : Thread nD τ).loc b))

/-- Offsets (0, 0), however spelt, are the zero offsets. -/
theorem linear_zeroOffsets : (![0, 0] : Fin 2 → Nat) = fun _ => 0 := funext fun a => by fin_cases a <;> rfl

/-- Row i of x against row j of w, plus the bias at j. -/
def linear_entry (x : S10000x512.Idx → EReal) (w : S256x512.Idx → EReal) (b : S1x256.Idx → EReal) (i : Fin 10000) (j : Fin 256) : EReal :=
  (∑ k : Fin 512, x (ix2 i k) * w (ix2 j k)) + b (ix2 (0 : Fin 1) j)

/-- The whole projected array: at an index, its row of x against its row of w, plus its bias. -/
def linear_out (x : S10000x512.Idx → EReal) (w : S256x512.Idx → EReal) (b : S1x256.Idx → EReal) : S10000x256.Idx → EReal :=
  fun idx => linear_entry x w b (idx 0) (idx 1)

/-- The body's result for a 1000-row block x0 of x, the whole of w (x1) and the bias row (x2), at (r, e):
    row r of x0 against row e of x1, plus the bias at e. -/
theorem linear_pay_apply (x0 : Vec Ideal S1000x512 .f32) (x1 : Vec Ideal S256x512 .f32) (x2 : Vec Ideal S1x256 .f32)
    (r : Fin 1000) (e : Fin 256) :
    k0_pay1 x0 x1 x2 (ix2 r e) = (∑ k : Fin 512, x0 (ix2 r k) * x1 (ix2 e k)) + x2 (ix2 (0 : Fin 1) e) := by
  unfold k0_pay1
  simp only [shapeCast_self]
  have hm := Cert.LibIndexReads.matmul_transposedRhs_zero_apply dot_S1000x512_S256x512_S1000x256_1_1_0_0_n_n rfl none
    (truncf (F := Ideal) .bf16 x0 bitsLt_bf16_f32) (truncf (F := Ideal) .bf16 x1 bitsLt_bf16_f32) r e
  have hb := broadcastTo_1b_ab_apply x2 broadcasts_S1x256_S1000x256 r e
  exact congrArg₂ (· + ·) hm hb

/-- The block indices over the grid: x's block and the output's block at point t are row block t, column block 0;
    w's and the bias's blocks are their whole arrays. -/
theorem linear_idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- x's block at point t, at (r, k), is x at (1000 t + r, k). -/
theorem linear_blockX_apply (c : Dev nD) (t : Fin cfg0.N) (r : Fin 1000) (k : Fin 512) (i : Fin 10000)
    (hi : i.val = t.val * 1000 + r.val) :
    (iblk0 V c 0 t : Vec Ideal S1000x512 .f32) (ix2 r k) = (V c main_arg0 : S10000x512.Idx → EReal) (ix2 i k) := by
  obtain ⟨e0, e1, -, -, -, -, -, -⟩ := linear_idx_facts t
  unfold iblk0
  rw [View.read_apply]
  show V c main_arg0 _ = V c main_arg0 _
  congr 1
  funext a
  apply Fin.ext
  match a with
  | ⟨0, _⟩ => show win0_0.index t (0 : Fin 2) * 1000 + 1 * r.val = i.val; rw [e0, hi]; omega
  | ⟨1, _⟩ => show win0_0.index t (1 : Fin 2) * 512 + 1 * k.val = k.val; rw [e1]; omega

/-- w's block at any point is w. -/
theorem linear_blockW_apply (c : Dev nD) (t : Fin cfg0.N) (e : Fin 256) (k : Fin 512) :
    (iblk0 V c 1 t : Vec Ideal S256x512 .f32) (ix2 e k) = (V c main_arg2 : S256x512.Idx → EReal) (ix2 e k) := by
  obtain ⟨-, -, e2, e3, -, -, -, -⟩ := linear_idx_facts t
  unfold iblk0
  rw [View.read_apply]
  show V c main_arg2 _ = V c main_arg2 _
  congr 1
  funext a
  apply Fin.ext
  match a with
  | ⟨0, _⟩ => show win0_1.index t (0 : Fin 2) * 256 + 1 * e.val = e.val; rw [e2]; omega
  | ⟨1, _⟩ => show win0_1.index t (1 : Fin 2) * 512 + 1 * k.val = k.val; rw [e3]; omega

/-- The bias row's block at any point is the bias row. -/
theorem linear_blockB_apply (c : Dev nD) (t : Fin cfg0.N) (u : Fin 1) (e : Fin 256) :
    (iblk0 V c 2 t : Vec Ideal S1x256 .f32) (ix2 u e) = (V c main_v43 : S1x256.Idx → EReal) (ix2 u e) := by
  obtain ⟨-, -, -, -, e4, e5, -, -⟩ := linear_idx_facts t
  unfold iblk0
  rw [View.read_apply]
  show V c main_v43 _ = V c main_v43 _
  congr 1
  funext a
  apply Fin.ext
  match a with
  | ⟨0, _⟩ => show win0_2.index t (0 : Fin 2) * 1 + 1 * u.val = u.val; rw [e4]; omega
  | ⟨1, _⟩ => show win0_2.index t (1 : Fin 2) * 256 + 1 * e.val = e.val; rw [e5]; omega

/-- The projected array at an index whose coordinates are i and j. -/
theorem linear_out_apply (x : S10000x512.Idx → EReal) (w : S256x512.Idx → EReal) (b : S1x256.Idx → EReal)
    (idx : S10000x256.Idx) (i : Fin 10000) (j : Fin 256) (h0 : (idx 0).val = i.val) (h1 : (idx 1).val = j.val) :
    linear_out x w b idx = (∑ k : Fin 512, x (ix2 i k) * w (ix2 j k)) + b (ix2 (0 : Fin 1) j) := by
  have e : idx = ix2 i j := by
    funext a
    match a with
    | ⟨0, _⟩ => exact Fin.ext h0
    | ⟨1, _⟩ => exact Fin.ext h1
  subst e
  rfl

/-- What point t writes back is block t of the projected array. -/
theorem linear_flushed_eq (c : Dev nD) (t : Fin cfg0.N) :
    (dat0 (F := Ideal) V c).flushed 3 t
      = ((cfg0.win 3).blk t).view.read (Elt Ideal) (linear_out (V c main_arg0) (V c main_arg2) (V c main_v43)) := by
  show (cfg0.win 3).cut (grid0.coords t) ((dat0 V c).after 3 t) = _
  rw [after0_3]
  unfold out0_3
  rw [View.canon_unit_zero linear_zeroOffsets]
  simp only [View.ld_unit_zero (S := S1000x512) linear_zeroOffsets, View.ld_unit_zero (S := S256x512) linear_zeroOffsets,
    View.ld_unit_zero (S := S1x256) linear_zeroOffsets]
  obtain ⟨-, -, -, -, -, -, e6, e7⟩ := linear_idx_facts t
  have ht : t.val < 10 := lt_of_lt_of_eq t.isLt N_0
  funext y
  have h0 : (y 0).val < 1000 := (y 0).isLt
  have h1 : (y 1).val < 256 := (y 1).isLt
  have ey : (cfg0.win 3).xinj (grid0.coords t) y = ix2 (⟨(y 0).val, h0⟩ : Fin 1000) (⟨(y 1).val, h1⟩ : Fin 256) := by
    funext a
    match a with
    | ⟨0, _⟩ => rfl
    | ⟨1, _⟩ => rfl
  show k0_pay1 (iblk0 V c 0 t) (iblk0 V c 1 t) (iblk0 V c 2 t) ((cfg0.win 3).xinj (grid0.coords t) y)
    = linear_out (V c main_arg0) (V c main_arg2) (V c main_v43) (((cfg0.win 3).blk t).view.emb y)
  rw [ey, linear_pay_apply]
  have he0 : ((((cfg0.win 3).blk t).view.emb y) 0).val = (⟨t.val * 1000 + (y 0).val, by omega⟩ : Fin 10000).val := by
    show win0_3.index t (0 : Fin 2) * 1000 + 1 * (y 0).val = t.val * 1000 + (y 0).val
    rw [e6]; omega
  have he1 : ((((cfg0.win 3).blk t).view.emb y) 1).val = (⟨(y 1).val, h1⟩ : Fin 256).val := by
    show win0_3.index t (1 : Fin 2) * 256 + 1 * (y 1).val = (y 1).val
    rw [e7]; omega
  rw [linear_out_apply (V c main_arg0) (V c main_arg2) (V c main_v43) _ _ _ he0 he1,
    linear_blockB_apply V c t (0 : Fin 1) ⟨(y 1).val, h1⟩]
  congr 1
  refine Finset.sum_congr rfl fun k _ => ?_
  rw [linear_blockX_apply V c t ⟨(y 0).val, h0⟩ k ⟨t.val * 1000 + (y 0).val, by omega⟩ rfl,
    linear_blockW_apply V c t ⟨(y 1).val, h1⟩ k]

/-- An index of the array is in point t's block iff each coordinate is in the block's range on its axis. -/
theorem linear_mem_blk (t : Fin cfg0.N) (i : S10000x256.Idx) :
    i ∈ ((cfg0.win 3).blk t).view.set ↔ ∀ a : Fin 2, win0_3.index t a * S1000x256.size a ≤ (i a).val
      ∧ (i a).val < win0_3.index t a * S1000x256.size a + S1000x256.size a := by
  show i ∈ ((View.whole main_v44).slice (win0_3.rect t)).set ↔ _
  rw [View.set_slice_whole, Rect.mem_set_unit]
  exact Iff.rfl

/-- Every index of the array is in the block of the point its row falls in: row i is in block i / 1000. -/
theorem linear_cover (i : S10000x256.Idx) :
    ∃ t : Fin cfg0.N, (cfg0.win 3).flush t = true ∧ i ∈ ((cfg0.win 3).blk t).view.set := by
  have hi0 : (i 0).val < 10000 := (i 0).isLt
  have hi1 : (i 1).val < 256 := (i 1).isLt
  have hN : cfg0.N = 10 := N_0
  let t : Fin cfg0.N := ⟨(i 0).val / 1000, by rw [hN]; omega⟩
  obtain ⟨-, -, -, -, -, -, e6, e7⟩ := linear_idx_facts t
  have e6' : win0_3.index t (0 : Fin 2) = (i 0).val / 1000 := e6
  refine ⟨t, flush0_3 t, ?_⟩
  rw [linear_mem_blk]
  intro a
  match a with
  | ⟨0, _⟩ =>
    show win0_3.index t (0 : Fin 2) * 1000 ≤ (i 0).val ∧ (i 0).val < win0_3.index t (0 : Fin 2) * 1000 + 1000
    rw [e6']; omega
  | ⟨1, _⟩ =>
    show win0_3.index t (1 : Fin 2) * 256 ≤ (i 1).val ∧ (i 1).val < win0_3.index t (1 : Fin 2) * 256 + 256
    rw [e7]; omega

/-- The array after the launch is the projected array. -/
theorem linear_array (c : Dev nD) :
    (dat0 (F := Ideal) V c).arrAt 3 cfg0.N = linear_out (V c main_arg0) (V c main_arg2) (V c main_v43) :=
  (dat0 (F := Ideal) V c).arrAt_eq_of_cover 3 (linear_out (V c main_arg0) (V c main_arg2) (V c main_v43))
    (fun t _ => linear_flushed_eq V c t) linear_cover

/-- The projection's output array O, entry by entry, from the arrays x, w, b the launch finds. -/
theorem linear_final (c : Dev nD) (x : S10000x512.Idx → EReal) (w : S256x512.Idx → EReal) (b : S1x256.Idx → EReal)
    (O : S10000x256.Idx → EReal) (hx : V c main_arg0 = x) (hw : V c main_arg2 = w) (hb : V c main_v43 = b)
    (hO : (dat0 (F := Ideal) V c).arrAt 3 cfg0.N = O) (i : Fin 10000) (j : Fin 256) :
    O (ix2 i j) = (∑ k : Fin 512, x (ix2 i k) * w (ix2 j k)) + b (ix2 (0 : Fin 1) j) := by
  subst hx hw hb
  rw [← hO]
  exact (congrFun (linear_array V c) (ix2 i j)).trans rfl

end Cert.KernelIdeal.RegionValue

end
-- ==== Proof.LibPlainMatmul.lean ====
/-
  A plain matrix product into a zero accumulator, read at an entry, for any extents.

  For an [M, K] left operand and a [K, N] right operand contracted row by column (left axis 1 against right axis 0,
  no batch axes), on the extended reals, entry (r, e) of the product accumulated into the zero matrix is
  ∑ k < K, lhs[r, k] · rhs[k, e]: the accumulator contributes 0 + _, and the contraction's one-axis index is its one
  coordinate. The dimension record may be any record equal to the plain one (a program's own record differs from it
  only in the proof it carries), which is how the lemma is applied to a printed product.
-/
import Idealize.ShloMosaic.Lib.ValueIdx
import Idealize.ShloMosaic.PureOps.Ideal.Laws

noncomputable section

namespace Idealize.ShloMosaic.ValueIdx

open Idealize.ShloMosaic

/-- Entry (r, e) of a plain [M, K] × [K, N] product into the zero accumulator is ∑ k, lhs[r, k] · rhs[k, e]. -/
theorem matmul_plain_zero_apply {M K N : ℕ} {φ₁ φ₂ : FTy} (d : DotDims ⟨2, ![M, K]⟩ ⟨2, ![K, N]⟩ ⟨2, ![M, N]⟩)
    (hd : d = DotDims.plain M K N) (prec : Option ContractPrecision)
    (lhs : FVec Ideal ⟨2, ![M, K]⟩ φ₁) (rhs : FVec Ideal ⟨2, ![K, N]⟩ φ₂) (r : Fin M) (e : Fin N) :
    FloatOps.matmul d prec lhs rhs (constant ⟨2, ![M, N]⟩ .f32 0x00000000#32) (ix2 r e)
      = ∑ k : Fin K, lhs (ix2 r k) * rhs (ix2 k e) := by
  subst hd
  rw [Ideal.matmul_constant_zero_apply, ← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 r e) ((contrEquiv1 (DotDims.plain M K N) K rfl rfl).symm k) = ix2 r k :=
    funext fun a => Fin.ext (by
      match a with
      | ⟨0, _⟩ => rfl
      | ⟨1, _⟩ => exact hk)
  have er : (DotDims.plain M K N).rhsIdx (ix2 r e) ((contrEquiv1 (DotDims.plain M K N) K rfl rfl).symm k) = ix2 k e :=
    funext fun a => Fin.ext (by
      match a with
      | ⟨0, _⟩ => exact hk
      | ⟨1, _⟩ => rfl)
  rw [el, er]

end Idealize.ShloMosaic.ValueIdx

end
-- ==== Proof.KRegionSpmm1.lean ====
/-
  Dense propagation launch 1: after it, the output array holds at (i, j) the sum over k of A(i, k) * h(k, j), where A is the
  adjacency matrix and h the feature matrix the launch finds.
-/
import proofs.«176783_j33895881900097_2_alg».proof.Proof.Gen.KernelIdeal.Frame
import proofs.«176783_j33895881900097_2_alg».proof.Proof.LibPlainMatmul
import Idealize.ShloMosaic.Lib.Pipeline.Value

open scoped BigOperators

noncomputable section

namespace Cert.KernelIdeal.RegionValue

open Cert.KernelIdeal Cert.KernelIdeal.Gen Idealize.ShloMosaic Idealize.ShloMosaic.TcCoe Idealize.ShloMosaic.ValueIdx Idealize.SL.Sem

variable (V : (c : Dev nD) → (b : Ref sig .tc) → Buf (Elt Ideal) ((c : Thread nD τ).loc b))

/-- Offsets (0, 0), however spelt, are the zero offsets. -/
theorem spmm1_zeroOffsets : (![0, 0] : Fin 2 → Nat) = fun _ => 0 := funext fun a => by fin_cases a <;> rfl

/-- Row i of A against column j of h. -/
def spmm1_rowDot (A : S10000x10000.Idx → EReal) (h : S10000x256.Idx → EReal) (i : Fin 10000) (j : Fin 256) : EReal :=
  ∑ k : Fin 10000, A (ix2 i k) * h (ix2 k j)

/-- The whole product array: at an index, its row of A against its column of h. -/
def spmm1_prod (A : S10000x10000.Idx → EReal) (h : S10000x256.Idx → EReal) : S10000x256.Idx → EReal :=
  fun idx => spmm1_rowDot A h (idx 0) (idx 1)

/-- The body's product of a 400-row block x0 of A with the whole of h, at (r, e): row r of x0 against column e of x1. -/
theorem spmm1_pay_apply (x0 : Vec Ideal S400x10000 .bf16) (x1 : Vec Ideal S10000x256 .bf16) (r : Fin 400) (e : Fin 256) :
    k1_pay1 x0 x1 (ix2 r e) = ∑ k : Fin 10000, x0 (ix2 r k) * x1 (ix2 k e) := by
  unfold k1_pay1
  simp only [shapeCast_self]
  exact matmul_plain_zero_apply dot_S400x10000_S10000x256_S400x256_1_0_0_1_n_n rfl none x0 x1 r e

/-- The block indices over the grid: A's block and the output's block at point t are row block t, column block 0;
    h's block is the whole array. -/
theorem spmm1_idx_facts : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- A's block at point t, at (r, k), is A at (400 t + r, k). -/
theorem spmm1_blockA_apply (c : Dev nD) (t : Fin cfg1.N) (r : Fin 400) (k : Fin 10000) (i : Fin 10000)
    (hi : i.val = t.val * 400 + r.val) :
    (iblk1 V c 0 t : Vec Ideal S400x10000 .bf16) (ix2 r k) = (V c main_v42 : S10000x10000.Idx → EReal) (ix2 i k) := by
  obtain ⟨e0, e1, -, -, -, -⟩ := spmm1_idx_facts t
  unfold iblk1
  rw [View.read_apply]
  show V c main_v42 _ = V c main_v42 _
  congr 1
  funext a
  apply Fin.ext
  match a with
  | ⟨0, _⟩ => show win1_0.index t (0 : Fin 2) * 400 + 1 * r.val = i.val; rw [e0, hi]; omega
  | ⟨1, _⟩ => show win1_0.index t (1 : Fin 2) * 10000 + 1 * k.val = k.val; rw [e1]; omega

/-- h's block at any point is h. -/
theorem spmm1_blockH_apply (c : Dev nD) (t : Fin cfg1.N) (k : Fin 10000) (e : Fin 256) :
    (iblk1 V c 1 t : Vec Ideal S10000x256 .bf16) (ix2 k e) = (V c main_v49 : S10000x256.Idx → EReal) (ix2 k e) := by
  obtain ⟨-, -, e2, e3, -, -⟩ := spmm1_idx_facts t
  unfold iblk1
  rw [View.read_apply]
  show V c main_v49 _ = V c main_v49 _
  congr 1
  funext a
  apply Fin.ext
  match a with
  | ⟨0, _⟩ => show win1_1.index t (0 : Fin 2) * 10000 + 1 * k.val = k.val; rw [e2]; omega
  | ⟨1, _⟩ => show win1_1.index t (1 : Fin 2) * 256 + 1 * e.val = e.val; rw [e3]; omega

/-- The product array at an index whose coordinates are i and j. -/
theorem spmm1_prod_apply (A : S10000x10000.Idx → EReal) (h : S10000x256.Idx → EReal) (idx : S10000x256.Idx)
    (i : Fin 10000) (j : Fin 256) (h0 : (idx 0).val = i.val) (h1 : (idx 1).val = j.val) :
    spmm1_prod A h idx = ∑ k : Fin 10000, A (ix2 i k) * h (ix2 k j) := by
  have e : idx = ix2 i j := by
    funext a
    match a with
    | ⟨0, _⟩ => exact Fin.ext h0
    | ⟨1, _⟩ => exact Fin.ext h1
  subst e
  rfl

/-- What point t writes back is block t of the product array. -/
theorem spmm1_flushed_eq (c : Dev nD) (t : Fin cfg1.N) :
    (dat1 (F := Ideal) V c).flushed 2 t
      = ((cfg1.win 2).blk t).view.read (Elt Ideal) (spmm1_prod (V c main_v42) (V c main_v49)) := by
  show (cfg1.win 2).cut (grid1.coords t) ((dat1 V c).after 2 t) = _
  rw [after1_2]
  unfold out1_2
  rw [View.canon_unit_zero spmm1_zeroOffsets]
  simp only [View.ld_unit_zero (S := S400x10000) spmm1_zeroOffsets, View.ld_unit_zero (S := S10000x256) spmm1_zeroOffsets]
  obtain ⟨-, -, -, -, e4, e5⟩ := spmm1_idx_facts t
  have ht : t.val < 25 := lt_of_lt_of_eq t.isLt N_1
  funext y
  have h0 : (y 0).val < 400 := (y 0).isLt
  have h1 : (y 1).val < 256 := (y 1).isLt
  have ey : (cfg1.win 2).xinj (grid1.coords t) y = ix2 (⟨(y 0).val, h0⟩ : Fin 400) (⟨(y 1).val, h1⟩ : Fin 256) := by
    funext a
    match a with
    | ⟨0, _⟩ => rfl
    | ⟨1, _⟩ => rfl
  show k1_pay1 (iblk1 V c 0 t) (iblk1 V c 1 t) ((cfg1.win 2).xinj (grid1.coords t) y)
    = spmm1_prod (V c main_v42) (V c main_v49) (((cfg1.win 2).blk t).view.emb y)
  rw [ey, spmm1_pay_apply]
  have he0 : ((((cfg1.win 2).blk t).view.emb y) 0).val = (⟨t.val * 400 + (y 0).val, by omega⟩ : Fin 10000).val := by
    show win1_2.index t (0 : Fin 2) * 400 + 1 * (y 0).val = t.val * 400 + (y 0).val
    rw [e4]; omega
  have he1 : ((((cfg1.win 2).blk t).view.emb y) 1).val = (⟨(y 1).val, h1⟩ : Fin 256).val := by
    show win1_2.index t (1 : Fin 2) * 256 + 1 * (y 1).val = (y 1).val
    rw [e5]; omega
  rw [spmm1_prod_apply (V c main_v42) (V c main_v49) _ _ _ he0 he1]
  refine Finset.sum_congr rfl fun k _ => ?_
  rw [spmm1_blockA_apply V c t ⟨(y 0).val, h0⟩ k ⟨t.val * 400 + (y 0).val, by omega⟩ rfl, spmm1_blockH_apply V c t k ⟨(y 1).val, h1⟩]

/-- An index of the array is in point t's block iff each coordinate is in the block's range on its axis. -/
theorem spmm1_mem_blk (t : Fin cfg1.N) (i : S10000x256.Idx) :
    i ∈ ((cfg1.win 2).blk t).view.set ↔ ∀ a : Fin 2, win1_2.index t a * S400x256.size a ≤ (i a).val
      ∧ (i a).val < win1_2.index t a * S400x256.size a + S400x256.size a := by
  show i ∈ ((View.whole main_v50).slice (win1_2.rect t)).set ↔ _
  rw [View.set_slice_whole, Rect.mem_set_unit]
  exact Iff.rfl

/-- Every index of the array is in the block of the point its row falls in: row i is in block i / 400. -/
theorem spmm1_cover (i : S10000x256.Idx) :
    ∃ t : Fin cfg1.N, (cfg1.win 2).flush t = true ∧ i ∈ ((cfg1.win 2).blk t).view.set := by
  have hi0 : (i 0).val < 10000 := (i 0).isLt
  have hi1 : (i 1).val < 256 := (i 1).isLt
  have hN : cfg1.N = 25 := N_1
  let t : Fin cfg1.N := ⟨(i 0).val / 400, by rw [hN]; omega⟩
  obtain ⟨-, -, -, -, e4, e5⟩ := spmm1_idx_facts t
  have e4' : win1_2.index t (0 : Fin 2) = (i 0).val / 400 := e4
  refine ⟨t, flush1_2 t, ?_⟩
  rw [spmm1_mem_blk]
  intro a
  match a with
  | ⟨0, _⟩ =>
    show win1_2.index t (0 : Fin 2) * 400 ≤ (i 0).val ∧ (i 0).val < win1_2.index t (0 : Fin 2) * 400 + 400
    rw [e4']; omega
  | ⟨1, _⟩ =>
    show win1_2.index t (1 : Fin 2) * 256 ≤ (i 1).val ∧ (i 1).val < win1_2.index t (1 : Fin 2) * 256 + 256
    rw [e5]; omega

/-- The array after the launch is the product array. -/
theorem spmm1_array (c : Dev nD) :
    (dat1 (F := Ideal) V c).arrAt 2 cfg1.N = spmm1_prod (V c main_v42) (V c main_v49) :=
  (dat1 (F := Ideal) V c).arrAt_eq_of_cover 2 (spmm1_prod (V c main_v42) (V c main_v49))
    (fun t _ => spmm1_flushed_eq V c t) spmm1_cover

/-- The product's output array O, entry by entry, from the arrays A and h the launch finds. -/
theorem spmm1_final (c : Dev nD) (A : S10000x10000.Idx → EReal) (h : S10000x256.Idx → EReal) (O : S10000x256.Idx → EReal)
    (hA : V c main_v42 = A) (hh : V c main_v49 = h) (hO : (dat1 (F := Ideal) V c).arrAt 2 cfg1.N = O)
    (i : Fin 10000) (j : Fin 256) :
    O (ix2 i j) = ∑ k : Fin 10000, A (ix2 i k) * h (ix2 k j) := by
  subst hA hh
  rw [← hO]
  exact (congrFun (spmm1_array V c) (ix2 i j)).trans rfl

end Cert.KernelIdeal.RegionValue

end
-- ==== Proof.KRegionSpmm2.lean ====
/-
  Dense propagation launch 2: after it, the output array holds at (i, j) the sum over k of A(i, k) * h(k, j), where A is the
  adjacency matrix and h the feature matrix the launch finds.
-/
import proofs.«176783_j33895881900097_2_alg».proof.Proof.Gen.KernelIdeal.Frame
import proofs.«176783_j33895881900097_2_alg».proof.Proof.LibPlainMatmul
import Idealize.ShloMosaic.Lib.Pipeline.Value

open scoped BigOperators

noncomputable section

namespace Cert.KernelIdeal.RegionValue

open Cert.KernelIdeal Cert.KernelIdeal.Gen Idealize.ShloMosaic Idealize.ShloMosaic.TcCoe Idealize.ShloMosaic.ValueIdx Idealize.SL.Sem

variable (V : (c : Dev nD) → (b : Ref sig .tc) → Buf (Elt Ideal) ((c : Thread nD τ).loc b))

/-- Offsets (0, 0), however spelt, are the zero offsets. -/
theorem spmm2_zeroOffsets : (![0, 0] : Fin 2 → Nat) = fun _ => 0 := funext fun a => by fin_cases a <;> rfl

/-- Row i of A against column j of h. -/
def spmm2_rowDot (A : S10000x10000.Idx → EReal) (h : S10000x256.Idx → EReal) (i : Fin 10000) (j : Fin 256) : EReal :=
  ∑ k : Fin 10000, A (ix2 i k) * h (ix2 k j)

/-- The whole product array: at an index, its row of A against its column of h. -/
def spmm2_prod (A : S10000x10000.Idx → EReal) (h : S10000x256.Idx → EReal) : S10000x256.Idx → EReal :=
  fun idx => spmm2_rowDot A h (idx 0) (idx 1)

/-- The body's product of a 400-row block x0 of A with the whole of h, at (r, e): row r of x0 against column e of x1. -/
theorem spmm2_pay_apply (x0 : Vec Ideal S400x10000 .bf16) (x1 : Vec Ideal S10000x256 .bf16) (r : Fin 400) (e : Fin 256) :
    k2_pay1 x0 x1 (ix2 r e) = ∑ k : Fin 10000, x0 (ix2 r k) * x1 (ix2 k e) := by
  unfold k2_pay1
  simp only [shapeCast_self]
  exact matmul_plain_zero_apply dot_S400x10000_S10000x256_S400x256_1_0_0_1_n_n rfl none x0 x1 r e

/-- The block indices over the grid: A's block and the output's block at point t are row block t, column block 0;
    h's block is the whole array. -/
theorem spmm2_idx_facts : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- A's block at point t, at (r, k), is A at (400 t + r, k). -/
theorem spmm2_blockA_apply (c : Dev nD) (t : Fin cfg2.N) (r : Fin 400) (k : Fin 10000) (i : Fin 10000)
    (hi : i.val = t.val * 400 + r.val) :
    (iblk2 V c 0 t : Vec Ideal S400x10000 .bf16) (ix2 r k) = (V c main_v42 : S10000x10000.Idx → EReal) (ix2 i k) := by
  obtain ⟨e0, e1, -, -, -, -⟩ := spmm2_idx_facts t
  unfold iblk2
  rw [View.read_apply]
  show V c main_v42 _ = V c main_v42 _
  congr 1
  funext a
  apply Fin.ext
  match a with
  | ⟨0, _⟩ => show win2_0.index t (0 : Fin 2) * 400 + 1 * r.val = i.val; rw [e0, hi]; omega
  | ⟨1, _⟩ => show win2_0.index t (1 : Fin 2) * 10000 + 1 * k.val = k.val; rw [e1]; omega

/-- h's block at any point is h. -/
theorem spmm2_blockH_apply (c : Dev nD) (t : Fin cfg2.N) (k : Fin 10000) (e : Fin 256) :
    (iblk2 V c 1 t : Vec Ideal S10000x256 .bf16) (ix2 k e) = (V c main_v57 : S10000x256.Idx → EReal) (ix2 k e) := by
  obtain ⟨-, -, e2, e3, -, -⟩ := spmm2_idx_facts t
  unfold iblk2
  rw [View.read_apply]
  show V c main_v57 _ = V c main_v57 _
  congr 1
  funext a
  apply Fin.ext
  match a with
  | ⟨0, _⟩ => show win2_1.index t (0 : Fin 2) * 10000 + 1 * k.val = k.val; rw [e2]; omega
  | ⟨1, _⟩ => show win2_1.index t (1 : Fin 2) * 256 + 1 * e.val = e.val; rw [e3]; omega

/-- The product array at an index whose coordinates are i and j. -/
theorem spmm2_prod_apply (A : S10000x10000.Idx → EReal) (h : S10000x256.Idx → EReal) (idx : S10000x256.Idx)
    (i : Fin 10000) (j : Fin 256) (h0 : (idx 0).val = i.val) (h1 : (idx 1).val = j.val) :
    spmm2_prod A h idx = ∑ k : Fin 10000, A (ix2 i k) * h (ix2 k j) := by
  have e : idx = ix2 i j := by
    funext a
    match a with
    | ⟨0, _⟩ => exact Fin.ext h0
    | ⟨1, _⟩ => exact Fin.ext h1
  subst e
  rfl

/-- What point t writes back is block t of the product array. -/
theorem spmm2_flushed_eq (c : Dev nD) (t : Fin cfg2.N) :
    (dat2 (F := Ideal) V c).flushed 2 t
      = ((cfg2.win 2).blk t).view.read (Elt Ideal) (spmm2_prod (V c main_v42) (V c main_v57)) := by
  show (cfg2.win 2).cut (grid2.coords t) ((dat2 V c).after 2 t) = _
  rw [after2_2]
  unfold out2_2
  rw [View.canon_unit_zero spmm2_zeroOffsets]
  simp only [View.ld_unit_zero (S := S400x10000) spmm2_zeroOffsets, View.ld_unit_zero (S := S10000x256) spmm2_zeroOffsets]
  obtain ⟨-, -, -, -, e4, e5⟩ := spmm2_idx_facts t
  have ht : t.val < 25 := lt_of_lt_of_eq t.isLt N_2
  funext y
  have h0 : (y 0).val < 400 := (y 0).isLt
  have h1 : (y 1).val < 256 := (y 1).isLt
  have ey : (cfg2.win 2).xinj (grid2.coords t) y = ix2 (⟨(y 0).val, h0⟩ : Fin 400) (⟨(y 1).val, h1⟩ : Fin 256) := by
    funext a
    match a with
    | ⟨0, _⟩ => rfl
    | ⟨1, _⟩ => rfl
  show k2_pay1 (iblk2 V c 0 t) (iblk2 V c 1 t) ((cfg2.win 2).xinj (grid2.coords t) y)
    = spmm2_prod (V c main_v42) (V c main_v57) (((cfg2.win 2).blk t).view.emb y)
  rw [ey, spmm2_pay_apply]
  have he0 : ((((cfg2.win 2).blk t).view.emb y) 0).val = (⟨t.val * 400 + (y 0).val, by omega⟩ : Fin 10000).val := by
    show win2_2.index t (0 : Fin 2) * 400 + 1 * (y 0).val = t.val * 400 + (y 0).val
    rw [e4]; omega
  have he1 : ((((cfg2.win 2).blk t).view.emb y) 1).val = (⟨(y 1).val, h1⟩ : Fin 256).val := by
    show win2_2.index t (1 : Fin 2) * 256 + 1 * (y 1).val = (y 1).val
    rw [e5]; omega
  rw [spmm2_prod_apply (V c main_v42) (V c main_v57) _ _ _ he0 he1]
  refine Finset.sum_congr rfl fun k _ => ?_
  rw [spmm2_blockA_apply V c t ⟨(y 0).val, h0⟩ k ⟨t.val * 400 + (y 0).val, by omega⟩ rfl, spmm2_blockH_apply V c t k ⟨(y 1).val, h1⟩]

/-- An index of the array is in point t's block iff each coordinate is in the block's range on its axis. -/
theorem spmm2_mem_blk (t : Fin cfg2.N) (i : S10000x256.Idx) :
    i ∈ ((cfg2.win 2).blk t).view.set ↔ ∀ a : Fin 2, win2_2.index t a * S400x256.size a ≤ (i a).val
      ∧ (i a).val < win2_2.index t a * S400x256.size a + S400x256.size a := by
  show i ∈ ((View.whole main_v58).slice (win2_2.rect t)).set ↔ _
  rw [View.set_slice_whole, Rect.mem_set_unit]
  exact Iff.rfl

/-- Every index of the array is in the block of the point its row falls in: row i is in block i / 400. -/
theorem spmm2_cover (i : S10000x256.Idx) :
    ∃ t : Fin cfg2.N, (cfg2.win 2).flush t = true ∧ i ∈ ((cfg2.win 2).blk t).view.set := by
  have hi0 : (i 0).val < 10000 := (i 0).isLt
  have hi1 : (i 1).val < 256 := (i 1).isLt
  have hN : cfg2.N = 25 := N_2
  let t : Fin cfg2.N := ⟨(i 0).val / 400, by rw [hN]; omega⟩
  obtain ⟨-, -, -, -, e4, e5⟩ := spmm2_idx_facts t
  have e4' : win2_2.index t (0 : Fin 2) = (i 0).val / 400 := e4
  refine ⟨t, flush2_2 t, ?_⟩
  rw [spmm2_mem_blk]
  intro a
  match a with
  | ⟨0, _⟩ =>
    show win2_2.index t (0 : Fin 2) * 400 ≤ (i 0).val ∧ (i 0).val < win2_2.index t (0 : Fin 2) * 400 + 400
    rw [e4']; omega
  | ⟨1, _⟩ =>
    show win2_2.index t (1 : Fin 2) * 256 ≤ (i 1).val ∧ (i 1).val < win2_2.index t (1 : Fin 2) * 256 + 256
    rw [e5]; omega

/-- The array after the launch is the product array. -/
theorem spmm2_array (c : Dev nD) :
    (dat2 (F := Ideal) V c).arrAt 2 cfg2.N = spmm2_prod (V c main_v42) (V c main_v57) :=
  (dat2 (F := Ideal) V c).arrAt_eq_of_cover 2 (spmm2_prod (V c main_v42) (V c main_v57))
    (fun t _ => spmm2_flushed_eq V c t) spmm2_cover

/-- The product's output array O, entry by entry, from the arrays A and h the launch finds. -/
theorem spmm2_final (c : Dev nD) (A : S10000x10000.Idx → EReal) (h : S10000x256.Idx → EReal) (O : S10000x256.Idx → EReal)
    (hA : V c main_v42 = A) (hh : V c main_v57 = h) (hO : (dat2 (F := Ideal) V c).arrAt 2 cfg2.N = O)
    (i : Fin 10000) (j : Fin 256) :
    O (ix2 i j) = ∑ k : Fin 10000, A (ix2 i k) * h (ix2 k j) := by
  subst hA hh
  rw [← hO]
  exact (congrFun (spmm2_array V c) (ix2 i j)).trans rfl

end Cert.KernelIdeal.RegionValue

end
-- ==== Proof.KRegionSpmm3.lean ====
/-
  Dense propagation launch 3: after it, the output array holds at (i, j) the sum over k of A(i, k) * h(k, j), where A is the
  adjacency matrix and h the feature matrix the launch finds.
-/
import proofs.«176783_j33895881900097_2_alg».proof.Proof.Gen.KernelIdeal.Frame
import proofs.«176783_j33895881900097_2_alg».proof.Proof.LibPlainMatmul
import Idealize.ShloMosaic.Lib.Pipeline.Value

open scoped BigOperators

noncomputable section

namespace Cert.KernelIdeal.RegionValue

open Cert.KernelIdeal Cert.KernelIdeal.Gen Idealize.ShloMosaic Idealize.ShloMosaic.TcCoe Idealize.ShloMosaic.ValueIdx Idealize.SL.Sem

variable (V : (c : Dev nD) → (b : Ref sig .tc) → Buf (Elt Ideal) ((c : Thread nD τ).loc b))

/-- Offsets (0, 0), however spelt, are the zero offsets. -/
theorem spmm3_zeroOffsets : (![0, 0] : Fin 2 → Nat) = fun _ => 0 := funext fun a => by fin_cases a <;> rfl

/-- Row i of A against column j of h. -/
def spmm3_rowDot (A : S10000x10000.Idx → EReal) (h : S10000x256.Idx → EReal) (i : Fin 10000) (j : Fin 256) : EReal :=
  ∑ k : Fin 10000, A (ix2 i k) * h (ix2 k j)

/-- The whole product array: at an index, its row of A against its column of h. -/
def spmm3_prod (A : S10000x10000.Idx → EReal) (h : S10000x256.Idx → EReal) : S10000x256.Idx → EReal :=
  fun idx => spmm3_rowDot A h (idx 0) (idx 1)

/-- The body's product of a 400-row block x0 of A with the whole of h, at (r, e): row r of x0 against column e of x1. -/
theorem spmm3_pay_apply (x0 : Vec Ideal S400x10000 .bf16) (x1 : Vec Ideal S10000x256 .bf16) (r : Fin 400) (e : Fin 256) :
    k3_pay1 x0 x1 (ix2 r e) = ∑ k : Fin 10000, x0 (ix2 r k) * x1 (ix2 k e) := by
  unfold k3_pay1
  simp only [shapeCast_self]
  exact matmul_plain_zero_apply dot_S400x10000_S10000x256_S400x256_1_0_0_1_n_n rfl none x0 x1 r e

/-- The block indices over the grid: A's block and the output's block at point t are row block t, column block 0;
    h's block is the whole array. -/
theorem spmm3_idx_facts : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = t.val ∧ win3_2.index t (1 : Fin 2) = 0 :=
  (by decide +kernel : ∀ t : Fin grid3.N, _)

/-- A's block at point t, at (r, k), is A at (400 t + r, k). -/
theorem spmm3_blockA_apply (c : Dev nD) (t : Fin cfg3.N) (r : Fin 400) (k : Fin 10000) (i : Fin 10000)
    (hi : i.val = t.val * 400 + r.val) :
    (iblk3 V c 0 t : Vec Ideal S400x10000 .bf16) (ix2 r k) = (V c main_v42 : S10000x10000.Idx → EReal) (ix2 i k) := by
  obtain ⟨e0, e1, -, -, -, -⟩ := spmm3_idx_facts t
  unfold iblk3
  rw [View.read_apply]
  show V c main_v42 _ = V c main_v42 _
  congr 1
  funext a
  apply Fin.ext
  match a with
  | ⟨0, _⟩ => show win3_0.index t (0 : Fin 2) * 400 + 1 * r.val = i.val; rw [e0, hi]; omega
  | ⟨1, _⟩ => show win3_0.index t (1 : Fin 2) * 10000 + 1 * k.val = k.val; rw [e1]; omega

/-- h's block at any point is h. -/
theorem spmm3_blockH_apply (c : Dev nD) (t : Fin cfg3.N) (k : Fin 10000) (e : Fin 256) :
    (iblk3 V c 1 t : Vec Ideal S10000x256 .bf16) (ix2 k e) = (V c main_v59 : S10000x256.Idx → EReal) (ix2 k e) := by
  obtain ⟨-, -, e2, e3, -, -⟩ := spmm3_idx_facts t
  unfold iblk3
  rw [View.read_apply]
  show V c main_v59 _ = V c main_v59 _
  congr 1
  funext a
  apply Fin.ext
  match a with
  | ⟨0, _⟩ => show win3_1.index t (0 : Fin 2) * 10000 + 1 * k.val = k.val; rw [e2]; omega
  | ⟨1, _⟩ => show win3_1.index t (1 : Fin 2) * 256 + 1 * e.val = e.val; rw [e3]; omega

/-- The product array at an index whose coordinates are i and j. -/
theorem spmm3_prod_apply (A : S10000x10000.Idx → EReal) (h : S10000x256.Idx → EReal) (idx : S10000x256.Idx)
    (i : Fin 10000) (j : Fin 256) (h0 : (idx 0).val = i.val) (h1 : (idx 1).val = j.val) :
    spmm3_prod A h idx = ∑ k : Fin 10000, A (ix2 i k) * h (ix2 k j) := by
  have e : idx = ix2 i j := by
    funext a
    match a with
    | ⟨0, _⟩ => exact Fin.ext h0
    | ⟨1, _⟩ => exact Fin.ext h1
  subst e
  rfl

/-- What point t writes back is block t of the product array. -/
theorem spmm3_flushed_eq (c : Dev nD) (t : Fin cfg3.N) :
    (dat3 (F := Ideal) V c).flushed 2 t
      = ((cfg3.win 2).blk t).view.read (Elt Ideal) (spmm3_prod (V c main_v42) (V c main_v59)) := by
  show (cfg3.win 2).cut (grid3.coords t) ((dat3 V c).after 2 t) = _
  rw [after3_2]
  unfold out3_2
  rw [View.canon_unit_zero spmm3_zeroOffsets]
  simp only [View.ld_unit_zero (S := S400x10000) spmm3_zeroOffsets, View.ld_unit_zero (S := S10000x256) spmm3_zeroOffsets]
  obtain ⟨-, -, -, -, e4, e5⟩ := spmm3_idx_facts t
  have ht : t.val < 25 := lt_of_lt_of_eq t.isLt N_3
  funext y
  have h0 : (y 0).val < 400 := (y 0).isLt
  have h1 : (y 1).val < 256 := (y 1).isLt
  have ey : (cfg3.win 2).xinj (grid3.coords t) y = ix2 (⟨(y 0).val, h0⟩ : Fin 400) (⟨(y 1).val, h1⟩ : Fin 256) := by
    funext a
    match a with
    | ⟨0, _⟩ => rfl
    | ⟨1, _⟩ => rfl
  show k3_pay1 (iblk3 V c 0 t) (iblk3 V c 1 t) ((cfg3.win 2).xinj (grid3.coords t) y)
    = spmm3_prod (V c main_v42) (V c main_v59) (((cfg3.win 2).blk t).view.emb y)
  rw [ey, spmm3_pay_apply]
  have he0 : ((((cfg3.win 2).blk t).view.emb y) 0).val = (⟨t.val * 400 + (y 0).val, by omega⟩ : Fin 10000).val := by
    show win3_2.index t (0 : Fin 2) * 400 + 1 * (y 0).val = t.val * 400 + (y 0).val
    rw [e4]; omega
  have he1 : ((((cfg3.win 2).blk t).view.emb y) 1).val = (⟨(y 1).val, h1⟩ : Fin 256).val := by
    show win3_2.index t (1 : Fin 2) * 256 + 1 * (y 1).val = (y 1).val
    rw [e5]; omega
  rw [spmm3_prod_apply (V c main_v42) (V c main_v59) _ _ _ he0 he1]
  refine Finset.sum_congr rfl fun k _ => ?_
  rw [spmm3_blockA_apply V c t ⟨(y 0).val, h0⟩ k ⟨t.val * 400 + (y 0).val, by omega⟩ rfl, spmm3_blockH_apply V c t k ⟨(y 1).val, h1⟩]

/-- An index of the array is in point t's block iff each coordinate is in the block's range on its axis. -/
theorem spmm3_mem_blk (t : Fin cfg3.N) (i : S10000x256.Idx) :
    i ∈ ((cfg3.win 2).blk t).view.set ↔ ∀ a : Fin 2, win3_2.index t a * S400x256.size a ≤ (i a).val
      ∧ (i a).val < win3_2.index t a * S400x256.size a + S400x256.size a := by
  show i ∈ ((View.whole main_v60).slice (win3_2.rect t)).set ↔ _
  rw [View.set_slice_whole, Rect.mem_set_unit]
  exact Iff.rfl

/-- Every index of the array is in the block of the point its row falls in: row i is in block i / 400. -/
theorem spmm3_cover (i : S10000x256.Idx) :
    ∃ t : Fin cfg3.N, (cfg3.win 2).flush t = true ∧ i ∈ ((cfg3.win 2).blk t).view.set := by
  have hi0 : (i 0).val < 10000 := (i 0).isLt
  have hi1 : (i 1).val < 256 := (i 1).isLt
  have hN : cfg3.N = 25 := N_3
  let t : Fin cfg3.N := ⟨(i 0).val / 400, by rw [hN]; omega⟩
  obtain ⟨-, -, -, -, e4, e5⟩ := spmm3_idx_facts t
  have e4' : win3_2.index t (0 : Fin 2) = (i 0).val / 400 := e4
  refine ⟨t, flush3_2 t, ?_⟩
  rw [spmm3_mem_blk]
  intro a
  match a with
  | ⟨0, _⟩ =>
    show win3_2.index t (0 : Fin 2) * 400 ≤ (i 0).val ∧ (i 0).val < win3_2.index t (0 : Fin 2) * 400 + 400
    rw [e4']; omega
  | ⟨1, _⟩ =>
    show win3_2.index t (1 : Fin 2) * 256 ≤ (i 1).val ∧ (i 1).val < win3_2.index t (1 : Fin 2) * 256 + 256
    rw [e5]; omega

/-- The array after the launch is the product array. -/
theorem spmm3_array (c : Dev nD) :
    (dat3 (F := Ideal) V c).arrAt 2 cfg3.N = spmm3_prod (V c main_v42) (V c main_v59) :=
  (dat3 (F := Ideal) V c).arrAt_eq_of_cover 2 (spmm3_prod (V c main_v42) (V c main_v59))
    (fun t _ => spmm3_flushed_eq V c t) spmm3_cover

/-- The product's output array O, entry by entry, from the arrays A and h the launch finds. -/
theorem spmm3_final (c : Dev nD) (A : S10000x10000.Idx → EReal) (h : S10000x256.Idx → EReal) (O : S10000x256.Idx → EReal)
    (hA : V c main_v42 = A) (hh : V c main_v59 = h) (hO : (dat3 (F := Ideal) V c).arrAt 2 cfg3.N = O)
    (i : Fin 10000) (j : Fin 256) :
    O (ix2 i j) = ∑ k : Fin 10000, A (ix2 i k) * h (ix2 k j) := by
  subst hA hh
  rw [← hO]
  exact (congrFun (spmm3_array V c) (ix2 i j)).trans rfl

end Cert.KernelIdeal.RegionValue

end
-- ==== Proof.ArmaSpec.lean ====
/-
  The two-hop ARMA graph convolution as functions of the argument arrays, index by index, on the extended reals.

  A graph on 10000 nodes is given by 640000 edges, edge e going from node col e to node row e, with a weight n e.
  Three ways of propagating a node-feature matrix h : [10000, 256] along the edges:
    * agg  : (agg h)(i, j) = 0 + the sum over the edges e with row e = i of  n e * h(col e, j)   (a scatter-add of rows);
    * adj  : the dense adjacency matrix  adj(i, k) = 0 + the sum over the edges with row e = i and col e = k of n e;
    * mm   : the matrix product  (mm A h)(i, j) = the sum over k of A(i, k) * h(k, j).
  The layer starts from the dense projection  lin x w b (i, j) = (sum over k of x(i,k) * w(j,k)) + b j  and adds, hop by
  hop, a scaled propagation of what it has so far. One program scales before propagating through the dense product
  (viaProduct), the other propagates along the edges and scales afterwards (viaEdges).
-/
import Idealize.ShloMosaic.PureOps.Ideal

open scoped BigOperators

noncomputable section

namespace Cert.Arma

variable {ι ε γ κ : Type} [Fintype ι] [Fintype ε] [Fintype γ] [Fintype κ] [DecidableEq ι]

/-- The dense projection: x times the transpose of w, plus the bias row. -/
def lin (x : ι → κ → EReal) (w : γ → κ → EReal) (b : γ → EReal) : ι → γ → EReal :=
  fun i j => (∑ k, x i k * w j k) + b j

/-- The dense adjacency matrix of the weighted edges, accumulated into the zero matrix. -/
def adj (row col : ε → ι) (n : ε → EReal) : ι → ι → EReal :=
  fun i k => 0 + ∑ e ∈ Finset.univ.filter (fun e => row e = i ∧ col e = k), n e

/-- The matrix product. -/
def mm (A : ι → ι → EReal) (h : ι → γ → EReal) : ι → γ → EReal :=
  fun i j => ∑ k, A i k * h k j

/-- Propagation along the edges: every edge sends n e times the feature row of its source to its target, accumulated
    into the zero matrix. -/
def agg (row col : ε → ι) (n : ε → EReal) (h : ι → γ → EReal) : ι → γ → EReal :=
  fun i j => 0 + ∑ e ∈ Finset.univ.filter (fun e => row e = i), n e * h (col e) j

/-- Two hops, scaling BEFORE the dense product: o1 = o0 + A (ω0 o0), result o1 + A (A (ω1 o1)). -/
def viaProduct (o0 : ι → γ → EReal) (ω0 ω1 : EReal) (A : ι → ι → EReal) : ι → γ → EReal :=
  fun i j =>
    (o0 i j + mm A (fun k l => ω0 * o0 k l) i j)
      + mm A (mm A (fun k l => ω1 * (o0 k l + mm A (fun k' l' => ω0 * o0 k' l') k l))) i j

/-- Two hops, scaling AFTER the propagation P: o1 = o0 + ω0 P o0, result o1 + ω1 P (P o1). -/
def viaEdges (o0 : ι → γ → EReal) (ω0 ω1 : EReal) (P : (ι → γ → EReal) → ι → γ → EReal) : ι → γ → EReal :=
  fun i j =>
    (o0 i j + ω0 * P o0 i j)
      + ω1 * P (P (fun k l => o0 k l + ω0 * P o0 k l)) i j

end Cert.Arma

end
-- ==== Proof.KChain.lean ====
/-
  What the kernel program's result buffer holds, entry by entry, as a function of the argument arrays: the dense
  projection, then two hops, each scaling what has been accumulated, multiplying it by the dense adjacency matrix (once
  in the first hop, twice in the second) and adding the product.

  The run's boundaries are walked from the last back to the launch. Each stretch of host operations is read once, over
  ANY buffer contents it may start from: the buffers it writes as its operations' values of the buffers it reads, every
  other buffer unchanged. Each of the four launches contributes its output array entry by entry. Chained, the result
  buffer at (i, j) is
      o1(i, j) + sum_k A(i, k) * (sum_k' A(k, k') * (w1 * o1(k', j))),   o1(i, j) = o0(i, j) + sum_k A(i, k) * (w0 * o0(k, j)),
  with o0 the projection x w^T + b, A the dense adjacency matrix computed from the edge list, and w0, w1 the two weights.
-/
import proofs.«176783_j33895881900097_2_alg».proof.Proof.Gen.KernelIdeal.Frame
import proofs.«176783_j33895881900097_2_alg».proof.Proof.KAdjTerm
import proofs.«176783_j33895881900097_2_alg».proof.Proof.KRegionLinear
import proofs.«176783_j33895881900097_2_alg».proof.Proof.KRegionSpmm1
import proofs.«176783_j33895881900097_2_alg».proof.Proof.KRegionSpmm2
import proofs.«176783_j33895881900097_2_alg».proof.Proof.KRegionSpmm3
import proofs.«176783_j33895881900097_2_alg».proof.Proof.ArmaSpec

open scoped BigOperators

noncomputable section

namespace Cert.KernelIdeal.Chain

open Cert.KernelIdeal Cert.KernelIdeal.Gen Idealize.ShloMosaic Idealize.ShloMosaic.TcCoe Idealize.ShloMosaic.ValueIdx Idealize.SL.Sem

/-! ## The host stretches, each over ANY buffer contents `X` it starts from -/

section Stretches

variable (X : Valuation τ sig (Elt Ideal))

/-- The last stretch adds the second hop's product to what the first hop left. -/
theorem tail_result : @Eq (FVec Ideal S10000x256 .f32) (StableHlo.after (hostOps4 (F := Ideal)) X (Proc.devRef .tc main_v62))
    (addf (X (Proc.devRef .tc main_v52) : FVec Ideal S10000x256 .f32) (X (Proc.devRef .tc main_v60))) := by
  dsimp only [hostOps4]; after_results

/-- Before the last product the previous one is narrowed, which changes nothing here. -/
theorem narrow3_result : @Eq (FVec Ideal S10000x256 .bf16) (StableHlo.after (hostOps3 (F := Ideal)) X (Proc.devRef .tc main_v59))
    (truncf .bf16 (X (Proc.devRef .tc main_v58) : FVec Ideal S10000x256 .f32) bitsLt_bf16_f32) := by
  dsimp only [hostOps3]; after_results
theorem narrow3_v42 : StableHlo.after (hostOps3 (F := Ideal)) X (Proc.devRef .tc main_v42) = X (Proc.devRef .tc main_v42) := by
  dsimp only [hostOps3]; after_results
theorem narrow3_v52 : StableHlo.after (hostOps3 (F := Ideal)) X (Proc.devRef .tc main_v52) = X (Proc.devRef .tc main_v52) := by
  dsimp only [hostOps3]; after_results

/-- Between the first and the second hop: the first hop's sum, and that sum scaled by the second weight. -/
theorem hop1_sum : @Eq (FVec Ideal S10000x256 .f32) (StableHlo.after (hostOps2 (F := Ideal)) X (Proc.devRef .tc main_v52))
    (addf (X (Proc.devRef .tc main_v44) : FVec Ideal S10000x256 .f32) (X (Proc.devRef .tc main_v50))) := by
  dsimp only [hostOps2]; after_results
theorem hop1_scaled : @Eq (FVec Ideal S10000x256 .bf16) (StableHlo.after (hostOps2 (F := Ideal)) X (Proc.devRef .tc main_v57))
    (truncf .bf16
        (mulf
          (broadcastInDim S10000x256 ![] bcast_S_S10000x256
            (shapeCast S_ (extractStridedSlice S1 ![1] (X (Proc.devRef .tc main_arg4) : FVec Ideal S2 .f32) slices_S2_S1_1) shapeCasts_S1_S_))
          (addf (X (Proc.devRef .tc main_v44) : FVec Ideal S10000x256 .f32) (X (Proc.devRef .tc main_v50))))
        bitsLt_bf16_f32) := by
  dsimp only [hostOps2]; after_results; rfl
theorem hop1_v42 : StableHlo.after (hostOps2 (F := Ideal)) X (Proc.devRef .tc main_v42) = X (Proc.devRef .tc main_v42) := by
  dsimp only [hostOps2]; after_results

/-- Before the first hop: the projection scaled by the first weight. -/
theorem hop0_scaled : @Eq (FVec Ideal S10000x256 .bf16) (StableHlo.after (hostOps1 (F := Ideal)) X (Proc.devRef .tc main_v49))
    (truncf .bf16
        (mulf
          (broadcastInDim S10000x256 ![] bcast_S_S10000x256
            (shapeCast S_ (extractStridedSlice S1 ![0] (X (Proc.devRef .tc main_arg4) : FVec Ideal S2 .f32) slices_S2_S1_0) shapeCasts_S1_S_))
          (X (Proc.devRef .tc main_v44) : FVec Ideal S10000x256 .f32))
        bitsLt_bf16_f32) := by
  dsimp only [hostOps1]; after_results; rfl
theorem hop0_v42 : StableHlo.after (hostOps1 (F := Ideal)) X (Proc.devRef .tc main_v42) = X (Proc.devRef .tc main_v42) := by
  dsimp only [hostOps1]; after_results
theorem hop0_v44 : StableHlo.after (hostOps1 (F := Ideal)) X (Proc.devRef .tc main_v44) = X (Proc.devRef .tc main_v44) := by
  dsimp only [hostOps1]; after_results
theorem hop0_arg4 : StableHlo.after (hostOps1 (F := Ideal)) X (Proc.devRef .tc main_arg4) = X (Proc.devRef .tc main_arg4) := by
  dsimp only [hostOps1]; after_results

end Stretches

/-! ## The three stretches before the projection: the dense adjacency matrix and the bias row -/

section Adjacency

variable (X : Valuation τ sig (Elt Ideal))

/-- First stretch: the two rows of the edge list, the degree's comparison with zero, its inverse square root and
    the zero the comparison chooses elsewhere. -/
theorem s0_rows : StableHlo.after (hostOps0 (F := Ideal)) X (Proc.devRef .tc main_v1)
    = AdjTerm.rowWords (X (Proc.devRef .tc main_arg1)) := by
  dsimp only [hostOps0]; after_results; rfl
theorem s0_cols : StableHlo.after (hostOps0 (F := Ideal)) X (Proc.devRef .tc main_v3)
    = AdjTerm.colWords (X (Proc.devRef .tc main_arg1)) := by
  dsimp only [hostOps0]; after_results; rfl
theorem s0_pos : StableHlo.after (hostOps0 (F := Ideal)) X (Proc.devRef .tc main_v9)
    = cmpf (F := Ideal) .ogt (AdjTerm.degree (F := Ideal) (X (Proc.devRef .tc main_arg1)))
        (broadcastInDim S10000 ![] bcast_S_S10000 (constant (F := Ideal) S_ .f32 0x00000000#32)) := by
  dsimp only [hostOps0]; after_results; rfl
theorem s0_rsqrt : StableHlo.after (hostOps0 (F := Ideal)) X (Proc.devRef .tc main_v10)
    = Host.rsqrt (AdjTerm.degree (F := Ideal) (X (Proc.devRef .tc main_arg1))) := by
  dsimp only [hostOps0]; after_results; rfl
theorem s0_zero : StableHlo.after (hostOps0 (F := Ideal)) X (Proc.devRef .tc main_cst_2)
    = constant (F := Ideal) S_ .f32 0x00000000#32 := by
  dsimp only [hostOps0]; after_results

end Adjacency

section Adjacency2

variable (X : Valuation τ sig (Elt Ideal)) (ei : IVec S2x640000 32)

/-- Second stretch: the inverse square root kept where the degree is positive, zero elsewhere; the edge list's rows
    are not touched. -/
theorem s1_invSqrt
    (h9 : X (Proc.devRef .tc main_v9) = cmpf (F := Ideal) .ogt (AdjTerm.degree (F := Ideal) ei)
        (broadcastInDim S10000 ![] bcast_S_S10000 (constant (F := Ideal) S_ .f32 0x00000000#32)))
    (h10 : X (Proc.devRef .tc main_v10) = Host.rsqrt (AdjTerm.degree (F := Ideal) ei))
    (hz : X (Proc.devRef .tc main_cst_2) = constant (F := Ideal) S_ .f32 0x00000000#32) :
    StableHlo.after (hostOps0_1 (F := Ideal)) X (Proc.devRef .tc main_v11) = AdjTerm.invSqrtDeg (F := Ideal) ei := by
  dsimp only [hostOps0_1]; after_results
  show select (X (Proc.devRef .tc main_v9)) (X (Proc.devRef .tc main_v10))
    (broadcastInDim S10000 ![] bcast_S_S10000 (X (Proc.devRef .tc main_cst_2))) = _
  rw [h9, h10, hz]; rfl
theorem s1_rows : StableHlo.after (hostOps0_1 (F := Ideal)) X (Proc.devRef .tc main_v1) = X (Proc.devRef .tc main_v1) := by
  dsimp only [hostOps0_1]; after_results
theorem s1_cols : StableHlo.after (hostOps0_1 (F := Ideal)) X (Proc.devRef .tc main_v3) = X (Proc.devRef .tc main_v3) := by
  dsimp only [hostOps0_1]; after_results

/-- The pairs array of two columns is determined by its columns. -/
theorem pairs_congr {a a' b b' : IVec S640000x1 32} (ha : a = a') (hb : b = b') :
    concatenate S640000x2 1 [⟨S640000x1, a⟩, ⟨S640000x1, b⟩] concatenates_S640000x1_S640000x1_S640000x2_d1
      = concatenate S640000x2 1 [⟨S640000x1, a'⟩, ⟨S640000x1, b'⟩] concatenates_S640000x1_S640000x1_S640000x2_d1 := by
  subst ha hb; rfl

set_option maxHeartbeats 1000000 in
/-- Third stretch: the edge weights scattered into the zero matrix at the wrapped (target, source) pairs, and narrowed. -/
theorem s2_adj
    (h1 : X (Proc.devRef .tc main_v1) = AdjTerm.rowWords ei)
    (h3 : X (Proc.devRef .tc main_v3) = AdjTerm.colWords ei)
    (h11 : X (Proc.devRef .tc main_v11) = AdjTerm.invSqrtDeg (F := Ideal) ei) :
    @Eq (FVec Ideal S10000x10000 .bf16) (StableHlo.after (hostOps0_2 (F := Ideal)) X (Proc.devRef .tc main_v42))
      (truncf .bf16 (AdjTerm.adjacency (F := Ideal) ei) bitsLt_bf16_f32) := by
  dsimp only [hostOps0_2]; after_results_simp
  rw [pairs_congr
    (a' := broadcastInDim S640000x1 ![0] bcast_S640000_S640000x1_0 (AdjTerm.wrapNeg (AdjTerm.rowWords ei)))
    (b' := broadcastInDim S640000x1 ![0] bcast_S640000_S640000x1_0 (AdjTerm.wrapNeg (AdjTerm.colWords ei)))]
  · rw [h1, h3, h11]; rfl
  · after_results_simp; rw [h1]; rfl
  · after_results_simp; rw [h3]; rfl

/-- Third stretch: the bias as one row. -/
theorem s2_bias :
    @Eq (FVec Ideal S1x256 .f32) (StableHlo.after (hostOps0_2 (F := Ideal)) X (Proc.devRef .tc main_v43))
      (shapeCast S1x256 (X (Proc.devRef .tc main_arg3) : FVec Ideal S256 .f32) shapeCasts_S256_S1x256) := by
  dsimp only [hostOps0_2]; after_results_simp; rfl

end Adjacency2

/-! ## The argument buffers through the first three stretches: none is written -/

section Arguments

variable (X : Valuation τ sig (Elt Ideal))

theorem s0_arg0 : StableHlo.after (hostOps0 (F := Ideal)) X (Proc.devRef .tc main_arg0) = X (Proc.devRef .tc main_arg0) := by
  dsimp only [hostOps0]; after_results
theorem s0_arg2 : StableHlo.after (hostOps0 (F := Ideal)) X (Proc.devRef .tc main_arg2) = X (Proc.devRef .tc main_arg2) := by
  dsimp only [hostOps0]; after_results
theorem s0_arg3 : StableHlo.after (hostOps0 (F := Ideal)) X (Proc.devRef .tc main_arg3) = X (Proc.devRef .tc main_arg3) := by
  dsimp only [hostOps0]; after_results
theorem s0_arg4 : StableHlo.after (hostOps0 (F := Ideal)) X (Proc.devRef .tc main_arg4) = X (Proc.devRef .tc main_arg4) := by
  dsimp only [hostOps0]; after_results
theorem s1_arg0 : StableHlo.after (hostOps0_1 (F := Ideal)) X (Proc.devRef .tc main_arg0) = X (Proc.devRef .tc main_arg0) := by
  dsimp only [hostOps0_1]; after_results
theorem s1_arg2 : StableHlo.after (hostOps0_1 (F := Ideal)) X (Proc.devRef .tc main_arg2) = X (Proc.devRef .tc main_arg2) := by
  dsimp only [hostOps0_1]; after_results
theorem s1_arg3 : StableHlo.after (hostOps0_1 (F := Ideal)) X (Proc.devRef .tc main_arg3) = X (Proc.devRef .tc main_arg3) := by
  dsimp only [hostOps0_1]; after_results
theorem s1_arg4 : StableHlo.after (hostOps0_1 (F := Ideal)) X (Proc.devRef .tc main_arg4) = X (Proc.devRef .tc main_arg4) := by
  dsimp only [hostOps0_1]; after_results
theorem s2_arg0 : StableHlo.after (hostOps0_2 (F := Ideal)) X (Proc.devRef .tc main_arg0) = X (Proc.devRef .tc main_arg0) := by
  dsimp only [hostOps0_2]; after_results_simp
theorem s2_arg2 : StableHlo.after (hostOps0_2 (F := Ideal)) X (Proc.devRef .tc main_arg2) = X (Proc.devRef .tc main_arg2) := by
  dsimp only [hostOps0_2]; after_results_simp
theorem s2_arg4 : StableHlo.after (hostOps0_2 (F := Ideal)) X (Proc.devRef .tc main_arg4) = X (Proc.devRef .tc main_arg4) := by
  dsimp only [hostOps0_2]; after_results_simp

end Arguments

/-! ## The buffers at the run's boundaries -/

section Boundaries

variable (m : (ℓ : Loc nD τ sig) → Buf (Elt Ideal) ℓ) (ρ : Dev nD → PrngReg) (c : Dev nD)

/-- At the projection's entry the argument arrays are as launched. -/
theorem entry_arg0 : W3 (F := Ideal) m ρ c (Proc.devRef .tc main_arg0) = m ((c.tc : Thread nD τ).loc main_arg0) :=
  (s2_arg0 (W2 m ρ c)).trans ((s1_arg0 (W1 m ρ c)).trans ((s0_arg0 (W0 m ρ c)).trans rfl))
theorem entry_arg2 : W3 (F := Ideal) m ρ c (Proc.devRef .tc main_arg2) = m ((c.tc : Thread nD τ).loc main_arg2) :=
  (s2_arg2 (W2 m ρ c)).trans ((s1_arg2 (W1 m ρ c)).trans ((s0_arg2 (W0 m ρ c)).trans rfl))
theorem entry_arg4 : W3 (F := Ideal) m ρ c (Proc.devRef .tc main_arg4) = m ((c.tc : Thread nD τ).loc main_arg4) :=
  (s2_arg4 (W2 m ρ c)).trans ((s1_arg4 (W1 m ρ c)).trans ((s0_arg4 (W0 m ρ c)).trans rfl))

/-- The bias enters the projection as one row. -/
theorem entry_bias : @Eq (FVec Ideal S1x256 .f32) (W3 (F := Ideal) m ρ c (Proc.devRef .tc main_v43))
    (shapeCast S1x256 (m ((c.tc : Thread nD τ).loc main_arg3) : FVec Ideal S256 .f32) shapeCasts_S256_S1x256) :=
  (s2_bias (W2 m ρ c)).trans (congrArg (fun v : FVec Ideal S256 .f32 => shapeCast S1x256 v shapeCasts_S256_S1x256)
    ((s1_arg3 (W1 m ρ c)).trans ((s0_arg3 (W0 m ρ c)).trans rfl)))

/-- The dense adjacency matrix the three products multiply by, as the host computation of the edge list. -/
theorem entry_adj : @Eq (FVec Ideal S10000x10000 .bf16) (W3 (F := Ideal) m ρ c (Proc.devRef .tc main_v42))
    (truncf .bf16 (AdjTerm.adjacency (F := Ideal) (m ((c.tc : Thread nD τ).loc main_arg1))) bitsLt_bf16_f32) :=
  s2_adj (W2 m ρ c) (m ((c.tc : Thread nD τ).loc main_arg1))
    ((s1_rows (W1 m ρ c)).trans (s0_rows (W0 m ρ c)))
    ((s1_cols (W1 m ρ c)).trans (s0_cols (W0 m ρ c)))
    (s1_invSqrt (W1 m ρ c) (m ((c.tc : Thread nD τ).loc main_arg1)) (s0_pos (W0 m ρ c)) (s0_rsqrt (W0 m ρ c)) (s0_zero (W0 m ρ c)))

/-- The adjacency matrix is an input of each product and written by nothing after its stretch. -/
theorem adj_at5 : W5 (F := Ideal) m ρ c (Proc.devRef .tc main_v42) = W3 (F := Ideal) m ρ c (Proc.devRef .tc main_v42) :=
  (hop0_v42 (W4 m ρ c)).trans (W4_of_ne m ρ c main_v42 (by decide))
theorem adj_at7 : W7 (F := Ideal) m ρ c (Proc.devRef .tc main_v42) = W3 (F := Ideal) m ρ c (Proc.devRef .tc main_v42) :=
  (hop1_v42 (W6 m ρ c)).trans (((W6_arr m ρ c 0).trans (((dat1 (V5 m ρ) c).arrAt_in 0 rfl _).trans (A_eq1 (V5 m ρ) c 0))).trans
    (adj_at5 m ρ c))
theorem adj_at9 : W9 (F := Ideal) m ρ c (Proc.devRef .tc main_v42) = W3 (F := Ideal) m ρ c (Proc.devRef .tc main_v42) :=
  (narrow3_v42 (W8 m ρ c)).trans (((W8_arr m ρ c 0).trans (((dat2 (V7 m ρ) c).arrAt_in 0 rfl _).trans (A_eq2 (V7 m ρ) c 0))).trans
    (adj_at7 m ρ c))

/-- The weights' array is never written. -/
theorem weights_at4 : W4 (F := Ideal) m ρ c (Proc.devRef .tc main_arg4) = m ((c.tc : Thread nD τ).loc main_arg4) :=
  (W4_of_ne m ρ c main_arg4 (by decide)).trans (entry_arg4 m ρ c)
theorem weights_at6 : W6 (F := Ideal) m ρ c (Proc.devRef .tc main_arg4) = m ((c.tc : Thread nD τ).loc main_arg4) :=
  (W6_of_ne m ρ c main_arg4 (by decide)).trans ((hop0_arg4 (W4 m ρ c)).trans (weights_at4 m ρ c))

/-- The projection's output stays where the first hop's sum reads it. -/
theorem proj_at6 : W6 (F := Ideal) m ρ c (Proc.devRef .tc main_v44) = W4 (F := Ideal) m ρ c (Proc.devRef .tc main_v44) :=
  (W6_of_ne m ρ c main_v44 (by decide)).trans (hop0_v44 (W4 m ρ c))

/-- The first hop's sum stays where the last stretch reads it. -/
theorem sum_at10 : W10 (F := Ideal) m ρ c (Proc.devRef .tc main_v52) = W7 (F := Ideal) m ρ c (Proc.devRef .tc main_v52) :=
  (W10_of_ne m ρ c main_v52 (by decide)).trans ((narrow3_v52 (W8 m ρ c)).trans (W8_of_ne m ρ c main_v52 (by decide)))

end Boundaries

/-! ## Reading the buffers entry by entry -/

section Entries

/-- A weight is one entry of the two-element array, cut out, made a scalar and spread over the feature matrix. -/
theorem weight0_read (v : FVec Ideal S2 .f32) (y : S10000x256.Idx) :
    broadcastInDim S10000x256 ![] bcast_S_S10000x256
        (shapeCast S_ (extractStridedSlice S1 ![0] v slices_S2_S1_0) shapeCasts_S1_S_) y = v (ix1 (0 : Fin 2)) := by
  refine (broadcastInDim_apply ![] bcast_S_S10000x256 _ y ix0 (fun a => a.elim0)).trans ?_
  refine (shapeCast_dropUnit_apply ![] _ shapeCasts_S1_S_ ix0).trans ?_
  refine extractStridedSlice_apply ![0] v slices_S2_S1_0 _ (ix1 (0 : Fin 2)) fun a => ?_
  match a with | ⟨0, _⟩ => rfl
theorem weight1_read (v : FVec Ideal S2 .f32) (y : S10000x256.Idx) :
    broadcastInDim S10000x256 ![] bcast_S_S10000x256
        (shapeCast S_ (extractStridedSlice S1 ![1] v slices_S2_S1_1) shapeCasts_S1_S_) y = v (ix1 (1 : Fin 2)) := by
  refine (broadcastInDim_apply ![] bcast_S_S10000x256 _ y ix0 (fun a => a.elim0)).trans ?_
  refine (shapeCast_dropUnit_apply ![] _ shapeCasts_S1_S_ ix0).trans ?_
  refine extractStridedSlice_apply ![1] v slices_S2_S1_1 _ (ix1 (1 : Fin 2)) fun a => ?_
  match a with | ⟨0, _⟩ => rfl

variable (m : (ℓ : Loc nD τ sig) → Buf (Elt Ideal) ℓ) (ρ : Dev nD → PrngReg) (c : Dev nD)

/-- The dense projection of the argument arrays. -/
def proj : Fin 10000 → Fin 256 → EReal :=
  Cert.Arma.lin
    (fun i k => (m ((c.tc : Thread nD τ).loc main_arg0) : S10000x512.Idx → EReal) (ix2 i k))
    (fun j k => (m ((c.tc : Thread nD τ).loc main_arg2) : S256x512.Idx → EReal) (ix2 j k))
    (fun j => (m ((c.tc : Thread nD τ).loc main_arg3) : S256.Idx → EReal) (ix1 j))
/-- The two hop weights. -/
def wt0 : EReal := (m ((c.tc : Thread nD τ).loc main_arg4) : S2.Idx → EReal) (ix1 (0 : Fin 2))
def wt1 : EReal := (m ((c.tc : Thread nD τ).loc main_arg4) : S2.Idx → EReal) (ix1 (1 : Fin 2))
/-- The dense adjacency matrix, entry by entry. -/
def adjM : Fin 10000 → Fin 10000 → EReal :=
  fun i k => (AdjTerm.adjacency (F := Ideal) (m ((c.tc : Thread nD τ).loc main_arg1)) : S10000x10000.Idx → EReal) (ix2 i k)
/-- What the first hop leaves: the projection plus the adjacency matrix times the scaled projection. -/
def hop1 : Fin 10000 → Fin 256 → EReal :=
  fun i j => proj m c i j + Cert.Arma.mm (adjM m c) (fun k l => wt0 m c * proj m c k l) i j

/-- The adjacency matrix read at an entry of the narrowed buffer the products take. -/
theorem adj_entry (i k : Fin 10000) :
    (W3 (F := Ideal) m ρ c (Proc.devRef .tc main_v42) : S10000x10000.Idx → EReal) (ix2 i k) = adjM m c i k := by
  rw [entry_adj m ρ c, truncf_apply]; rfl

/-- The projection's output is the projection. -/
theorem proj_entry (i : Fin 10000) (j : Fin 256) :
    (W4 (F := Ideal) m ρ c (Proc.devRef .tc main_v44) : S10000x256.Idx → EReal) (ix2 i j) = proj m c i j := by
  refine (congrFun (W4_arr m ρ c 3) (ix2 i j)).trans ?_
  refine (RegionValue.linear_final (V3 m ρ) c (W3 m ρ c (Proc.devRef .tc main_arg0)) (W3 m ρ c (Proc.devRef .tc main_arg2))
    (W3 m ρ c (Proc.devRef .tc main_v43)) ((dat0 (V3 m ρ) c).arrAt 3 cfg0.N) rfl rfl rfl rfl i j).trans ?_
  rw [entry_arg0 m ρ c, entry_arg2 m ρ c, entry_bias m ρ c, shapeCast_a_1a_apply]
  rfl

/-- The first product's right factor: the projection scaled by the first weight. -/
theorem scaled0_entry (k : Fin 10000) (j : Fin 256) :
    (W5 (F := Ideal) m ρ c (Proc.devRef .tc main_v49) : S10000x256.Idx → EReal) (ix2 k j) = wt0 m c * proj m c k j := by
  rw [show W5 (F := Ideal) m ρ c (Proc.devRef .tc main_v49) = _ from hop0_scaled (W4 m ρ c), truncf_apply, mulf_apply,
    weight0_read, weights_at4 m ρ c, proj_entry m ρ c]
  rfl

/-- The first product. -/
theorem prod1_entry (i : Fin 10000) (j : Fin 256) :
    (W6 (F := Ideal) m ρ c (Proc.devRef .tc main_v50) : S10000x256.Idx → EReal) (ix2 i j)
      = Cert.Arma.mm (adjM m c) (fun k l => wt0 m c * proj m c k l) i j := by
  refine (congrFun (W6_arr m ρ c 2) (ix2 i j)).trans ?_
  refine (RegionValue.spmm1_final (V5 m ρ) c (W5 m ρ c (Proc.devRef .tc main_v42)) (W5 m ρ c (Proc.devRef .tc main_v49))
    ((dat1 (V5 m ρ) c).arrAt 2 cfg1.N) rfl rfl rfl i j).trans ?_
  exact Finset.sum_congr rfl fun k _ => by rw [adj_at5 m ρ c, adj_entry m ρ c, scaled0_entry m ρ c]

/-- The first hop's sum. -/
theorem sum1_entry (i : Fin 10000) (j : Fin 256) :
    (W7 (F := Ideal) m ρ c (Proc.devRef .tc main_v52) : S10000x256.Idx → EReal) (ix2 i j) = hop1 m c i j := by
  rw [show W7 (F := Ideal) m ρ c (Proc.devRef .tc main_v52) = _ from hop1_sum (W6 m ρ c), addf_apply,
    proj_at6 m ρ c, proj_entry m ρ c, prod1_entry m ρ c]
  rfl

/-- The second product's right factor: the first hop's sum scaled by the second weight. -/
theorem scaled1_entry (k : Fin 10000) (j : Fin 256) :
    (W7 (F := Ideal) m ρ c (Proc.devRef .tc main_v57) : S10000x256.Idx → EReal) (ix2 k j) = wt1 m c * hop1 m c k j := by
  rw [show W7 (F := Ideal) m ρ c (Proc.devRef .tc main_v57) = _ from hop1_scaled (W6 m ρ c), truncf_apply, mulf_apply,
    weight1_read, weights_at6 m ρ c, addf_apply, proj_at6 m ρ c, proj_entry m ρ c, prod1_entry m ρ c]
  rfl

/-- The second product. -/
theorem prod2_entry (i : Fin 10000) (j : Fin 256) :
    (W8 (F := Ideal) m ρ c (Proc.devRef .tc main_v58) : S10000x256.Idx → EReal) (ix2 i j)
      = Cert.Arma.mm (adjM m c) (fun k l => wt1 m c * hop1 m c k l) i j := by
  refine (congrFun (W8_arr m ρ c 2) (ix2 i j)).trans ?_
  refine (RegionValue.spmm2_final (V7 m ρ) c (W7 m ρ c (Proc.devRef .tc main_v42)) (W7 m ρ c (Proc.devRef .tc main_v57))
    ((dat2 (V7 m ρ) c).arrAt 2 cfg2.N) rfl rfl rfl i j).trans ?_
  exact Finset.sum_congr rfl fun k _ => by rw [adj_at7 m ρ c, adj_entry m ρ c, scaled1_entry m ρ c]

/-- The third product's right factor is the second product, narrowed. -/
theorem narrowed_entry (k : Fin 10000) (j : Fin 256) :
    (W9 (F := Ideal) m ρ c (Proc.devRef .tc main_v59) : S10000x256.Idx → EReal) (ix2 k j)
      = Cert.Arma.mm (adjM m c) (fun k l => wt1 m c * hop1 m c k l) k j := by
  rw [show W9 (F := Ideal) m ρ c (Proc.devRef .tc main_v59) = _ from narrow3_result (W8 m ρ c), truncf_apply,
    prod2_entry m ρ c]

/-- The third product. -/
theorem prod3_entry (i : Fin 10000) (j : Fin 256) :
    (W10 (F := Ideal) m ρ c (Proc.devRef .tc main_v60) : S10000x256.Idx → EReal) (ix2 i j)
      = Cert.Arma.mm (adjM m c) (Cert.Arma.mm (adjM m c) (fun k l => wt1 m c * hop1 m c k l)) i j := by
  refine (congrFun (W10_arr m ρ c 2) (ix2 i j)).trans ?_
  refine (RegionValue.spmm3_final (V9 m ρ) c (W9 m ρ c (Proc.devRef .tc main_v42)) (W9 m ρ c (Proc.devRef .tc main_v59))
    ((dat3 (V9 m ρ) c).arrAt 2 cfg3.N) rfl rfl rfl i j).trans ?_
  exact Finset.sum_congr rfl fun k _ => by rw [adj_at9 m ρ c, adj_entry m ρ c, narrowed_entry m ρ c]

end Entries

variable (m : (ℓ : Loc nD τ sig) → Buf (Elt Ideal) ℓ) (ρ : Dev nD → PrngReg)

/-- The result buffer at the run's last boundary, at (i, j). -/
theorem kernel_value (c : Dev nD) (i : Fin 10000) (j : Fin 256) :
    (W11 (F := Ideal) m ρ c (Proc.devRef .tc main_v62) : S10000x256.Idx → EReal) (ix2 i j)
      = Cert.Arma.viaProduct
          (Cert.Arma.lin
            (fun i k => (m ((c.tc : Thread nD τ).loc main_arg0) : S10000x512.Idx → EReal) (ix2 i k))
            (fun j k => (m ((c.tc : Thread nD τ).loc main_arg2) : S256x512.Idx → EReal) (ix2 j k))
            (fun j => (m ((c.tc : Thread nD τ).loc main_arg3) : S256.Idx → EReal) (ix1 j)))
          ((m ((c.tc : Thread nD τ).loc main_arg4) : S2.Idx → EReal) (ix1 (0 : Fin 2)))
          ((m ((c.tc : Thread nD τ).loc main_arg4) : S2.Idx → EReal) (ix1 (1 : Fin 2)))
          (fun i k => (AdjTerm.adjacency (F := Ideal) (m ((c.tc : Thread nD τ).loc main_arg1)) : S10000x10000.Idx → EReal) (ix2 i k))
          i j := by
  rw [show W11 (F := Ideal) m ρ c (Proc.devRef .tc main_v62) = _ from tail_result (W10 m ρ c), addf_apply,
    sum_at10 m ρ c, sum1_entry m ρ c, prod3_entry m ρ c]
  rfl

end Cert.KernelIdeal.Chain

end
-- ==== Proof.ArmaIndex.lean ====
/-
  The edge list of the graph as the programs receive it: an integer array [2, 640000], row 0 holding each edge's target
  node and row 1 its source node, as 32-bit words. A word names a node when, read as a signed integer, it lies in
  [0, 10000). `nodeOf` reads a word signed and clamps it into that range (what a gather does with a start index), so it
  is total; on a word in range it is the node the word names.
-/
import Idealize.ShloMosaic.Lib.ValueIdx

noncomputable section

namespace Cert.Arma

open Idealize.ShloMosaic Idealize.ShloMosaic.ValueIdx

/-- The node an index word names: read signed, clamped into [0, 9999]. -/
def nodeOf (w : BitVec 32) : Fin 10000 := ⟨min w.toInt.toNat (10000 - 1), by omega⟩

/-- The target node of edge e (row 0 of the edge list). -/
def rowN (ei : IVec ⟨2, ![2, 640000]⟩ 32) (e : Fin 640000) : Fin 10000 := nodeOf (ei (ix2 (0 : Fin 2) e))

/-- The source node of edge e (row 1 of the edge list). -/
def colN (ei : IVec ⟨2, ![2, 640000]⟩ 32) (e : Fin 640000) : Fin 10000 := nodeOf (ei (ix2 (1 : Fin 2) e))

/-- Every word of the edge list names a node. -/
def InRange (ei : IVec ⟨2, ![2, 640000]⟩ 32) : Prop :=
  ∀ (k : Fin 2) (e : Fin 640000), 0 ≤ (ei (ix2 k e)).toInt ∧ (ei (ix2 k e)).toInt < 10000

/-- On a word in range, the node is the word's value. -/
theorem nodeOf_val (w : BitVec 32) (h0 : 0 ≤ w.toInt) (h1 : w.toInt < 10000) : ((nodeOf w).val : ℤ) = w.toInt := by
  unfold nodeOf
  show ((min w.toInt.toNat (10000 - 1) : ℕ) : ℤ) = w.toInt
  omega

/-- A word in range names node i exactly when its signed value is i. -/
theorem nodeOf_eq_iff (w : BitVec 32) (h0 : 0 ≤ w.toInt) (h1 : w.toInt < 10000) (i : Fin 10000) :
    nodeOf w = i ↔ w.toInt = (i.val : ℤ) := by
  rw [← nodeOf_val w h0 h1]
  constructor
  · intro h; rw [h]
  · intro h; exact Fin.ext (by exact_mod_cast h)

end Cert.Arma

end
-- ==== Proof.LibEdgeReads.lean ====
/-
  GENERAL LEMMAS: the three host operations of a message-passing layer, READ AT AN INDEX.

  A layer that sends a message along every edge of a graph with N nodes and E edges, features of width C, reads its
  node arrays through a column  idx : [E, 1]  of node numbers (one per edge) and writes its messages back through such
  a column. For ANY extents N, E, C, any index width w and any element type:

  * ROW GATHER  h[idx]  of  h : [N, C]  (stablehlo.gather with offset_dims [1], collapsed_slice_dims [0],
    start_index_map [0], index_vector_dim 1, slice_sizes [1, C]): result entry (e, f) is h at row
    min (idx[e, 0] read signed).toNat (N − 1)  and column f. On operand axis 0 the slice has size 1, so the start
    index is clamped into [0, N − 1], and the axis is collapsed, so nothing is added to it; operand axis 1 is not in
    the start index map, so its start is 0, and it is the one offset axis, read by result axis 1.
  * ELEMENT GATHER  v[idx]  of  v : [N]  (offset_dims [], collapsed_slice_dims [0], start_index_map [0],
    index_vector_dim 1, slice_sizes [1]): result entry e is v at that same clamped row.
  * ROW SCATTER into an [N, C] operand from updates [E, C] (update_window_dims [1], inserted_window_dims [0],
    scatter_dims_to_operand_dims [0], index_vector_dim 1): when update index j lands on operand index i, then
    idx[j 0, 0] read signed IS i 0 — a scatter index is not clamped; an update whose row leaves the operand is
    dropped — and the columns agree, j 1 = i 1: operand axis 0 is inserted (window coordinate 0) and is the axis the
    scatter index names; operand axis 1 is the one window axis (start 0), read by update axis 1.

  In each case the start-indices index the operation reads for edge e is (e, 0): result (update) axis 0 is the one
  batch (scatter) axis and reads start-indices axis 0; axis 1 of the start indices is the index vector's, of size 1.
  Nothing here enumerates an axis: every step is over the variables N, E, C, coordinates by the axis literal.
-/
import Idealize.ShloMosaic.Lib.ValueIdx

noncomputable section

namespace Cert.LibEdgeReads

open Idealize.ShloMosaic Idealize.ShloMosaic.ValueIdx

/-! ## Row gather `h[idx]` of an `[N, C]` operand at an `[E, 1]` column of start indices -/

section RowGather
variable {α : Type}

/-- The dimension numbers of a row gather: operand `[N, C]`, start indices `[E, 1]`, result `[E, C]`; their
    conditions `wf` are decided on a program's literal shapes. -/
abbrev rowGatherDims (N E C : ℕ)
    (wf : GatherDims.WF ⟨2, ![N, C]⟩ ⟨2, ![E, 1]⟩ ⟨2, ![E, C]⟩ [1] [0] [] [0] [] 1 ![1, C]) :
    GatherDims ⟨2, ![N, C]⟩ ⟨2, ![E, 1]⟩ ⟨2, ![E, C]⟩ where
  offsetDims := [1]
  collapsedSliceDims := [0]
  operandBatchingDims := []
  startIndicesBatchingDims := []
  startIndexMap := [0]
  indexVectorDim := 1
  sliceSizes := ![1, C]
  wf := wf

/-- THE ROW GATHER READ AT `(e, f)`: the operand at row `idx[e, 0]`, read signed and clamped into `[0, N − 1]`, and
    column `f`. -/
theorem gather_rows_apply {N E C w : ℕ} (hN : 0 < N)
    (wf : GatherDims.WF ⟨2, ![N, C]⟩ ⟨2, ![E, 1]⟩ ⟨2, ![E, C]⟩ [1] [0] [] [0] [] 1 ![1, C])
    (d : GatherDims ⟨2, ![N, C]⟩ ⟨2, ![E, 1]⟩ ⟨2, ![E, C]⟩) (hd : d = rowGatherDims N E C wf)
    (x : (⟨2, ![N, C]⟩ : Shape).Idx → α) (idx : IVec ⟨2, ![E, 1]⟩ w) (e : Fin E) (f : Fin C) :
    Host.gather d x idx (ix2 e f)
      = x (ix2 ⟨min (idx (ix2 e (0 : Fin 1))).toInt.toNat (N - 1), by omega⟩ f) := by
  subst hd
  unfold Host.gather
  congr 1
  funext a
  refine Fin.ext ?_
  match a with
  | ⟨0, _⟩ =>
    -- axis 0: the clamped start index; no batching coordinate, and no offset (the axis is collapsed)
    show (rowGatherDims N E C wf).start (ix2 e f) idx 0 + (rowGatherDims N E C wf).batchCoord (ix2 e f) 0
      + (rowGatherDims N E C wf).offCoord (ix2 e f) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowGatherDims N E C wf).startIndexMap from List.mem_singleton.mpr rfl)]
    have hsi : (rowGatherDims N E C wf).siIdx (ix2 e f) ⟨List.idxOf (0 : Fin 2) (rowGatherDims N E C wf).startIndexMap,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl
  | ⟨1, _⟩ =>
    -- axis 1: start 0 (not in the start index map), no batching coordinate; the offset is result coordinate 1
    show (rowGatherDims N E C wf).start (ix2 e f) idx 1 + (rowGatherDims N E C wf).batchCoord (ix2 e f) 1
      + (rowGatherDims N E C wf).offCoord (ix2 e f) 1 = f.val
    rw [GatherDims.batchCoord_eq_zero _ _ _ List.not_mem_nil]
    have hst : (rowGatherDims N E C wf).start (ix2 e f) idx 1 = 0 := by
      unfold GatherDims.start
      rw [dif_neg (fun h => absurd (List.mem_singleton.mp h) (by decide : (1 : Fin 2) ≠ 0))]
    rw [hst]
    simp only [Nat.add_zero, Nat.zero_add]
    have hk : (1 : Fin 2) ∈ (rowGatherDims N E C wf).sKept :=
      (GatherDims.mem_sKept _ _).mpr ⟨fun h => absurd (List.mem_singleton.mp h) (by decide : (1 : Fin 2) ≠ 0), List.not_mem_nil⟩
    unfold GatherDims.offCoord
    rw [dif_pos hk]
    rfl

end RowGather

/-! ## Element gather `v[idx]` of an `[N]` operand at an `[E, 1]` column of start indices -/

section EltGather
variable {α : Type}

/-- The dimension numbers of an element gather: operand `[N]`, start indices `[E, 1]`, result `[E]`. -/
abbrev eltGatherDims (N E : ℕ)
    (wf : GatherDims.WF ⟨1, ![N]⟩ ⟨2, ![E, 1]⟩ ⟨1, ![E]⟩ [] [0] [] [0] [] 1 ![1]) :
    GatherDims ⟨1, ![N]⟩ ⟨2, ![E, 1]⟩ ⟨1, ![E]⟩ where
  offsetDims := []
  collapsedSliceDims := [0]
  operandBatchingDims := []
  startIndicesBatchingDims := []
  startIndexMap := [0]
  indexVectorDim := 1
  sliceSizes := ![1]
  wf := wf

/-- THE ELEMENT GATHER READ AT `e`: the operand at `idx[e, 0]`, read signed and clamped into `[0, N − 1]`. -/
theorem gather_elts_apply {N E w : ℕ} (hN : 0 < N)
    (wf : GatherDims.WF ⟨1, ![N]⟩ ⟨2, ![E, 1]⟩ ⟨1, ![E]⟩ [] [0] [] [0] [] 1 ![1])
    (d : GatherDims ⟨1, ![N]⟩ ⟨2, ![E, 1]⟩ ⟨1, ![E]⟩) (hd : d = eltGatherDims N E wf)
    (v : (⟨1, ![N]⟩ : Shape).Idx → α) (idx : IVec ⟨2, ![E, 1]⟩ w) (e : Fin E) :
    Host.gather d v idx (ix1 e)
      = v (ix1 ⟨min (idx (ix2 e (0 : Fin 1))).toInt.toNat (N - 1), by omega⟩) := by
  subst hd
  unfold Host.gather
  congr 1
  funext a
  obtain rfl : a = 0 := Subsingleton.elim _ _
  refine Fin.ext ?_
  show (eltGatherDims N E wf).start (ix1 e) idx 0 + (eltGatherDims N E wf).batchCoord (ix1 e) 0
    + (eltGatherDims N E wf).offCoord (ix1 e) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (eltGatherDims N E wf).startIndexMap from List.mem_singleton.mpr rfl)]
  have hsi : (eltGatherDims N E wf).siIdx (ix1 e) ⟨List.idxOf (0 : Fin 1) (eltGatherDims N E wf).startIndexMap,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]
  rfl

end EltGather

/-! ## Row scatter into an `[N, C]` operand from `[E, C]` updates at an `[E, 1]` column of scatter indices -/

section RowScatter

/-- The dimension numbers of a row scatter: operand `[N, C]`, scatter indices `[E, 1]`, updates `[E, C]`. -/
abbrev rowScatterDims (N E C : ℕ)
    (wf : ScatterDims.WF ⟨2, ![N, C]⟩ ⟨2, ![E, 1]⟩ ⟨2, ![E, C]⟩ [1] [0] [0] 1) :
    ScatterDims ⟨2, ![N, C]⟩ ⟨2, ![E, 1]⟩ ⟨2, ![E, C]⟩ where
  updateWindowDims := [1]
  insertedWindowDims := [0]
  scatterDimsToOperandDims := [0]
  indexVectorDim := 1
  wf := wf

/-- WHERE AN UPDATE LANDS: if update index `j` lands on operand index `i`, its scatter index `idx[j 0, 0]`, read
    signed (not clamped), is the row `i 0`, and the columns agree. -/
theorem scatter_rows_lands {N E C w : ℕ}
    (wf : ScatterDims.WF ⟨2, ![N, C]⟩ ⟨2, ![E, 1]⟩ ⟨2, ![E, C]⟩ [1] [0] [0] 1)
    (d : ScatterDims ⟨2, ![N, C]⟩ ⟨2, ![E, 1]⟩ ⟨2, ![E, C]⟩) (hd : d = rowScatterDims N E C wf)
    (idx : IVec ⟨2, ![E, 1]⟩ w) (j : (⟨2, ![E, C]⟩ : Shape).Idx) (i : (⟨2, ![N, C]⟩ : Shape).Idx)
    (h : d.resultIdx? j idx = some i) :
    (idx (ix2 (j 0) (0 : Fin 1))).toInt = ((i 0).val : ℤ) ∧ (j 1).val = (i 1).val := by
  subst hd
  have h0 : (0 : Fin 2) ∈ (rowScatterDims N E C wf).scatterDimsToOperandDims := List.mem_singleton.mpr rfl
  have hst0 : (rowScatterDims N E C wf).start j idx 0 = (idx (ix2 (j 0) (0 : Fin 1))).toInt := by
    unfold ScatterDims.start
    rw [dif_pos h0]
    have hsi : (rowScatterDims N E C wf).siIdx j ⟨List.idxOf (0 : Fin 2) (rowScatterDims N E C wf).scatterDimsToOperandDims,
        List.idxOf_lt_length_iff.2 h0⟩ = ix2 (j 0) (0 : Fin 1) := by
      funext b; refine Fin.ext ?_
      match b with
      | ⟨0, _⟩ => rfl
      | ⟨1, _⟩ => rfl
    rw [hsi]
    rfl
  have hst1 : (rowScatterDims N E C wf).start j idx 1 = 0 := by
    unfold ScatterDims.start
    rw [dif_neg (fun hm => absurd (List.mem_singleton.mp hm) (by decide : (1 : Fin 2) ≠ 0))]
  have hw0 : (rowScatterDims N E C wf).window j 0 = 0 := by
    unfold ScatterDims.window
    rw [dif_neg (fun hm => by
      have := (List.mem_filter.mp hm).2
      simp at this)]
  have hw1 : (rowScatterDims N E C wf).window j 1 = (j 1).val := by
    unfold ScatterDims.window
    rw [dif_pos (show (1 : Fin 2) ∈ (rowScatterDims N E C wf).sKept from
      List.mem_filter.mpr ⟨List.mem_finRange _, by simp⟩)]
    rfl
  -- landing inside the operand: i is start + window on each axis, a natural number there
  unfold ScatterDims.resultIdx? at h
  split at h
  · rename_i hin
    have hi := Option.some.inj h
    subst hi
    have a0 := hin 0
    have a1 := hin 1
    rw [hst0, hw0] at a0
    constructor
    · show _ = (((rowScatterDims N E C wf).start j idx 0 + ((rowScatterDims N E C wf).window j 0 : ℕ)).toNat : ℤ)
      rw [hst0, hw0]
      omega
    · show _ = ((rowScatterDims N E C wf).start j idx 1 + ((rowScatterDims N E C wf).window j 1 : ℕ)).toNat
      rw [hst1, hw1]
      omega
  · exact absurd h (by simp)

end RowScatter

end Cert.LibEdgeReads

end
-- ==== Proof.RefScatterSum.lean ====
/-
  The accumulating row scatter, read at an entry, on the extended reals.

  A row scatter into an [N, C] operand from [E, C] updates at an [E, 1] column of row numbers sends update entry (e, f)
  to operand entry (r, f), r being the e-th row number read signed, and drops it when r is not a row of the operand.
  So update (e, f) lands on (i, f) exactly when the e-th row number is i, and the accumulated result at (i, f) is the
  operand's entry plus the sum, over the edges e whose row number is i, of the update's entry (e, f).
-/
import proofs.«176783_j33895881900097_2_alg».proof.Proof.LibEdgeReads

open scoped BigOperators

noncomputable section

namespace Cert.RefScatterSum

open Idealize.ShloMosaic Idealize.ShloMosaic.ValueIdx Cert.LibEdgeReads

/-- An update whose row number, read signed, is the row i lands on (i, f): the converse of `scatter_rows_lands`. -/
theorem scatter_rows_hits {N E C w : ℕ}
    (wf : ScatterDims.WF ⟨2, ![N, C]⟩ ⟨2, ![E, 1]⟩ ⟨2, ![E, C]⟩ [1] [0] [0] 1)
    (d : ScatterDims ⟨2, ![N, C]⟩ ⟨2, ![E, 1]⟩ ⟨2, ![E, C]⟩) (hd : d = rowScatterDims N E C wf)
    (idx : IVec ⟨2, ![E, 1]⟩ w) (e : Fin E) (f : Fin C) (i : Fin N)
    (h : (idx (ix2 e (0 : Fin 1))).toInt = (i.val : ℤ)) :
    d.resultIdx? (ix2 e f) idx = some (ix2 i f) := by
  subst hd
  have h0 : (0 : Fin 2) ∈ (rowScatterDims N E C wf).scatterDimsToOperandDims := List.mem_singleton.mpr rfl
  have hst0 : (rowScatterDims N E C wf).start (ix2 e f) idx 0 = (idx (ix2 e (0 : Fin 1))).toInt := by
    unfold ScatterDims.start
    rw [dif_pos h0]
    have hsi : (rowScatterDims N E C wf).siIdx (ix2 e f) ⟨List.idxOf (0 : Fin 2) (rowScatterDims N E C wf).scatterDimsToOperandDims,
        List.idxOf_lt_length_iff.2 h0⟩ = ix2 e (0 : Fin 1) := by
      funext b; refine Fin.ext ?_
      match b with
      | ⟨0, _⟩ => rfl
      | ⟨1, _⟩ => rfl
    rw [hsi]
  have hst1 : (rowScatterDims N E C wf).start (ix2 e f) idx 1 = 0 := by
    unfold ScatterDims.start
    rw [dif_neg (fun hm => absurd (List.mem_singleton.mp hm) (by decide : (1 : Fin 2) ≠ 0))]
  have hw0 : (rowScatterDims N E C wf).window (ix2 e f) 0 = 0 := by
    unfold ScatterDims.window
    rw [dif_neg (fun hm => by
      have := (List.mem_filter.mp hm).2
      simp at this)]
  have hw1 : (rowScatterDims N E C wf).window (ix2 e f) 1 = f.val := by
    unfold ScatterDims.window
    rw [dif_pos (show (1 : Fin 2) ∈ (rowScatterDims N E C wf).sKept from
      List.mem_filter.mpr ⟨List.mem_finRange _, by simp⟩)]
    rfl
  -- on both axes start + window is the coordinate of (i, f), which lies inside the operand
  have hcond : ∀ a, 0 ≤ (rowScatterDims N E C wf).start (ix2 e f) idx a + (rowScatterDims N E C wf).window (ix2 e f) a
      ∧ (rowScatterDims N E C wf).start (ix2 e f) idx a + (rowScatterDims N E C wf).window (ix2 e f) a
        < (⟨2, ![N, C]⟩ : Shape).size a := by
    intro a
    match a with
    | ⟨0, _⟩ =>
      show 0 ≤ (rowScatterDims N E C wf).start (ix2 e f) idx 0 + ((rowScatterDims N E C wf).window (ix2 e f) 0 : ℕ)
        ∧ (rowScatterDims N E C wf).start (ix2 e f) idx 0 + ((rowScatterDims N E C wf).window (ix2 e f) 0 : ℕ) < ((N : ℕ) : ℤ)
      rw [hst0, hw0, h]
      have := i.isLt
      omega
    | ⟨1, _⟩ =>
      show 0 ≤ (rowScatterDims N E C wf).start (ix2 e f) idx 1 + ((rowScatterDims N E C wf).window (ix2 e f) 1 : ℕ)
        ∧ (rowScatterDims N E C wf).start (ix2 e f) idx 1 + ((rowScatterDims N E C wf).window (ix2 e f) 1 : ℕ) < ((C : ℕ) : ℤ)
      rw [hst1, hw1]
      have := f.isLt
      omega
  unfold ScatterDims.resultIdx?
  rw [dif_pos hcond]
  congr 1
  funext a
  refine Fin.ext ?_
  match a with
  | ⟨0, _⟩ =>
    show ((rowScatterDims N E C wf).start (ix2 e f) idx 0 + ((rowScatterDims N E C wf).window (ix2 e f) 0 : ℕ)).toNat = i.val
    rw [hst0, hw0, h]
    omega
  | ⟨1, _⟩ =>
    show ((rowScatterDims N E C wf).start (ix2 e f) idx 1 + ((rowScatterDims N E C wf).window (ix2 e f) 1 : ℕ)).toNat = f.val
    rw [hst1, hw1]
    omega

/-- THE ACCUMULATING ROW SCATTER READ AT (i, f): the operand's entry plus the sum of the update entries (e, f) over the
    edges e whose row number is i. -/
theorem scatterAdd_rows_apply {N E C w : ℕ}
    (wf : ScatterDims.WF ⟨2, ![N, C]⟩ ⟨2, ![E, 1]⟩ ⟨2, ![E, C]⟩ [1] [0] [0] 1)
    (d : ScatterDims ⟨2, ![N, C]⟩ ⟨2, ![E, 1]⟩ ⟨2, ![E, C]⟩) (hd : d = rowScatterDims N E C wf)
    (x : (⟨2, ![N, C]⟩ : Shape).Idx → EReal) (idx : IVec ⟨2, ![E, 1]⟩ w) (upd : (⟨2, ![E, C]⟩ : Shape).Idx → EReal)
    (i : Fin N) (f : Fin C) :
    Ideal.hostScatterAdd d x idx upd (ix2 i f)
      = x (ix2 i f)
        + ∑ e ∈ Finset.univ.filter (fun e : Fin E => (idx (ix2 e (0 : Fin 1))).toInt = (i.val : ℤ)), upd (ix2 e f) := by
  unfold Ideal.hostScatterAdd
  congr 1
  symm
  refine Finset.sum_nbij' (fun e => ix2 e f) (fun j => j 0) ?_ ?_ ?_ ?_ ?_
  · intro e he
    rw [Finset.mem_filter] at he ⊢
    exact ⟨Finset.mem_univ _, scatter_rows_hits wf d hd idx e f i he.2⟩
  · intro j hj
    exact Finset.mem_filter.mpr ⟨Finset.mem_univ _,
      (scatter_rows_lands wf d hd idx j (ix2 i f) (Finset.mem_filter.mp hj).2).1⟩
  · intro e _
    rfl
  · intro j hj
    rw [Finset.mem_filter] at hj
    have h1 : (j 1).val = f.val := (scatter_rows_lands wf d hd idx j (ix2 i f) hj.2).2
    have h2 : j 1 = f := Fin.ext h1
    rw [← h2]
    exact (eq_ix2 j).symm
  · intro e _
    rfl

end Cert.RefScatterSum

end
-- ==== Proof.RefStages.lean ====
/-
  The stages of the reference program, entry by entry.

  The edge list ei : [2, 640000] holds, for each edge e, its target node (row 0) and its source node (row 1) as 32-bit
  words, every word naming a node. The reference computes
    * the dense projection  o0 = x · wᵀ + b  (a contraction over the 512 input features, plus the bias row);
    * three times, a propagation of a node-feature matrix h : [10000, 256] along the edges: it gathers the row of h at
      each edge's source node (the source word, with 10000 added if it were negative — never the case here — and
      clamped to a row number), scales it by the edge's weight, and scatter-adds the scaled row into a zero matrix at
      the edge's target node (the raw target word: an update lands on row i exactly when the word's value is i). Entry
      (i, j) of the outcome is therefore 0 plus the sum, over the edges whose target is node i, of the edge's weight
      times h at (source node, j);
    * the two hop weights, read off a 2-vector through a slice and a reshape to rank 0.
-/
import proofs.«176783_j33895881900097_2_alg».proof.Proof.RefReadP
import proofs.«176783_j33895881900097_2_alg».proof.Proof.ArmaSpec
import proofs.«176783_j33895881900097_2_alg».proof.Proof.ArmaIndex
import proofs.«176783_j33895881900097_2_alg».proof.Proof.LibEdgeReads
import proofs.«176783_j33895881900097_2_alg».proof.Proof.RefScatterSum

open scoped BigOperators

noncomputable section

namespace Cert.ReferenceIdeal.RefStages

open Cert.ReferenceIdeal Cert.ReferenceIdeal.Gen Idealize.ShloMosaic Idealize.ShloMosaic.TcCoe Idealize.ShloMosaic.ValueIdx Idealize.SL.Sem
open Cert.ReferenceIdeal.ReadP

/-! ## Index words -/

/-- A word that is not negative is not replaced: the comparison "below zero" is false, so the selection keeps it. -/
theorem select_slt_zero (w a : BitVec 32) (h0 : 0 ≤ w.toInt) :
    Scalar.select (IntOp.cmpi .slt w 0#32) a w = w := by
  have hc : IntOp.cmpi .slt w 0#32 = 0#1 := by
    show BitVec.ofBool (w.slt 0#32) = 0#1
    rw [BitVec.slt_eq_decide, BitVec.toInt_zero, decide_eq_false (by omega)]
    rfl
  rw [hc]
  exact select_zero _ _

/-- Row 0 of the edge list, flattened: entry e is the target word of edge e. -/
theorem row_word (ei : IVec S2x640000 32) (k : S640000.Idx) (e : Fin 640000) (hk : (k 0).val = e.val) :
    val_main_v1 (F := Ideal) ei k = ei (ix2 (0 : Fin 2) e) := by
  rw [val_main_v1_apply, val_main_v0_apply]
  refine congrArg ei (funext fun a => Fin.ext ?_)
  match a with
  | ⟨0, _⟩ => rfl
  | ⟨1, _⟩ =>
    show (k 0).val % 640000 = e.val
    rw [hk]
    exact Nat.mod_eq_of_lt e.isLt

/-- Row 1 of the edge list, flattened: entry e is the source word of edge e. -/
theorem col_word (ei : IVec S2x640000 32) (k : S640000.Idx) (e : Fin 640000) (hk : (k 0).val = e.val) :
    val_main_v3 (F := Ideal) ei k = ei (ix2 (1 : Fin 2) e) := by
  rw [val_main_v3_apply, val_main_v2_apply]
  refine congrArg ei (funext fun a => Fin.ext ?_)
  match a with
  | ⟨0, _⟩ => rfl
  | ⟨1, _⟩ =>
    show (k 0).val % 640000 = e.val
    rw [hk]
    exact Nat.mod_eq_of_lt e.isLt

/-- The column of scatter indices of the first propagation: the target words. -/
theorem rows_v43 (ei : IVec S2x640000 32) (e : Fin 640000) :
    val_main_v43 (F := Ideal) ei (ix2 e (0 : Fin 1)) = ei (ix2 (0 : Fin 2) e) := by
  rw [val_main_v43_apply]
  exact row_word ei _ e rfl

/-- The column of scatter indices of the second propagation: the target words. -/
theorem rows_v61 (ei : IVec S2x640000 32) (e : Fin 640000) :
    val_main_v61 (F := Ideal) ei (ix2 e (0 : Fin 1)) = ei (ix2 (0 : Fin 2) e) := by
  rw [val_main_v61_apply]
  exact row_word ei _ e rfl

/-- The column of scatter indices of the third propagation: the target words. -/
theorem rows_v74 (ei : IVec S2x640000 32) (e : Fin 640000) :
    val_main_v74 (F := Ideal) ei (ix2 e (0 : Fin 1)) = ei (ix2 (0 : Fin 2) e) := by
  rw [val_main_v74_apply]
  exact row_word ei _ e rfl

/-- The column of gather indices of the first propagation: the source words, unchanged since none is negative. -/
theorem cols_v38 (ei : IVec S2x640000 32) (hin : Cert.Arma.InRange ei) (e : Fin 640000) :
    val_main_v38 (F := Ideal) ei (ix2 e (0 : Fin 1)) = ei (ix2 (1 : Fin 2) e) := by
  rw [val_main_v38_apply, val_main_v37_apply, val_main_v34_apply, val_main_v33_apply, val_main_c_6_apply,
    col_word ei _ e rfl]
  exact select_slt_zero _ _ (hin 1 e).1

/-- The column of gather indices of the second propagation: the source words. -/
theorem cols_v56 (ei : IVec S2x640000 32) (hin : Cert.Arma.InRange ei) (e : Fin 640000) :
    val_main_v56 (F := Ideal) ei (ix2 e (0 : Fin 1)) = ei (ix2 (1 : Fin 2) e) := by
  rw [val_main_v56_apply, val_main_v55_apply, val_main_v52_apply, val_main_v51_apply, val_main_c_9_apply,
    col_word ei _ e rfl]
  exact select_slt_zero _ _ (hin 1 e).1

/-- The column of gather indices of the third propagation: the source words. -/
theorem cols_v69 (ei : IVec S2x640000 32) (hin : Cert.Arma.InRange ei) (e : Fin 640000) :
    val_main_v69 (F := Ideal) ei (ix2 e (0 : Fin 1)) = ei (ix2 (1 : Fin 2) e) := by
  rw [val_main_v69_apply, val_main_v68_apply, val_main_v65_apply, val_main_v64_apply, val_main_c_12_apply,
    col_word ei _ e rfl]
  exact select_slt_zero _ _ (hin 1 e).1

/-! ## The edge weights broadcast along the features, and the zero matrices -/

/-- The edge weights broadcast along the 256 features (first propagation): entry (e, f) is the weight of edge e. -/
theorem weights_v40 (ei : IVec S2x640000 32) (e : Fin 640000) (f : Fin 256) :
    (val_main_v40 (F := Ideal) ei (ix2 e f) : EReal) = val_main_v26 (F := Ideal) ei (ix1 e) := by
  rw [val_main_v40_apply, val_main_v32_apply]
  refine congrArg (val_main_v26 (F := Ideal) ei) (funext fun a => Fin.ext ?_)
  match a with
  | ⟨0, _⟩ => rfl

/-- The edge weights broadcast along the features (second propagation). -/
theorem weights_v58 (ei : IVec S2x640000 32) (e : Fin 640000) (f : Fin 256) :
    (val_main_v58 (F := Ideal) ei (ix2 e f) : EReal) = val_main_v26 (F := Ideal) ei (ix1 e) := by
  rw [val_main_v58_apply, val_main_v50_apply]
  refine congrArg (val_main_v26 (F := Ideal) ei) (funext fun a => Fin.ext ?_)
  match a with
  | ⟨0, _⟩ => rfl

/-- The edge weights broadcast along the features (third propagation). -/
theorem weights_v71 (ei : IVec S2x640000 32) (e : Fin 640000) (f : Fin 256) :
    (val_main_v71 (F := Ideal) ei (ix2 e f) : EReal) = val_main_v26 (F := Ideal) ei (ix1 e) := by
  rw [val_main_v71_apply, val_main_v63_apply]
  refine congrArg (val_main_v26 (F := Ideal) ei) (funext fun a => Fin.ext ?_)
  match a with
  | ⟨0, _⟩ => rfl

/-- The matrix the first propagation accumulates into is zero. -/
theorem zero_v42 (p : S10000x256.Idx) : (val_main_v42 (F := Ideal) p : EReal) = 0 := by
  rw [val_main_v42_apply, val_main_cst_8_apply]
  exact Ideal.ofBits_zero_f32

/-- The matrix the second propagation accumulates into is zero. -/
theorem zero_v60 (p : S10000x256.Idx) : (val_main_v60 (F := Ideal) p : EReal) = 0 := by
  rw [val_main_v60_apply, val_main_cst_11_apply]
  exact Ideal.ofBits_zero_f32

/-- The matrix the third propagation accumulates into is zero. -/
theorem zero_v73 (p : S10000x256.Idx) : (val_main_v73 (F := Ideal) p : EReal) = 0 := by
  rw [val_main_v73_apply, val_main_cst_14_apply]
  exact Ideal.ofBits_zero_f32

/-! ## One propagation along the edges -/

/-- ONE PROPAGATION, for any node-feature matrix h: gathering the rows of h at the source words, scaling row e by the
    weight of edge e and scatter-adding the rows into a zero matrix at the target words gives, at (i, j), 0 plus the
    sum over the edges with target i of the weight times h at (source, j). -/
theorem propagate_apply (ei : IVec S2x640000 32) (hin : Cert.Arma.InRange ei) (nrm : Fin 640000 → EReal)
    (zero : FVec Ideal S10000x256 .f32) (hzero : ∀ p, (zero p : EReal) = 0)
    (rows cols : IVec S640000x1 32)
    (hrows : ∀ e : Fin 640000, rows (ix2 e (0 : Fin 1)) = ei (ix2 (0 : Fin 2) e))
    (hcols : ∀ e : Fin 640000, cols (ix2 e (0 : Fin 1)) = ei (ix2 (1 : Fin 2) e))
    (nb : FVec Ideal S640000x256 .f32) (hnb : ∀ (e : Fin 640000) (f : Fin 256), (nb (ix2 e f) : EReal) = nrm e)
    (h : FVec Ideal S10000x256 .f32) (i : Fin 10000) (j : Fin 256) :
    (Host.scatterAdd (F := Ideal) scatter_S10000x256_S640000x1_S640000x256_1_0_0_1 zero rows
        (mulf nb (Host.gather gather_S10000x256_S640000x1_S640000x256_1_0_n_n_0_1_1256 h cols)) (ix2 i j) : EReal)
      = Cert.Arma.agg (Cert.Arma.rowN ei) (Cert.Arma.colN ei) nrm (fun k l => (h (ix2 k l) : EReal)) i j := by
  refine (Cert.RefScatterSum.scatterAdd_rows_apply scatter_S10000x256_S640000x1_S640000x256_1_0_0_1_wf
    scatter_S10000x256_S640000x1_S640000x256_1_0_0_1 rfl zero rows
    (mulf nb (Host.gather gather_S10000x256_S640000x1_S640000x256_1_0_n_n_0_1_1256 h cols)) i j).trans ?_
  unfold Cert.Arma.agg
  rw [hzero]
  refine congrArg (fun s : EReal => 0 + s) ?_
  refine Finset.sum_congr (Finset.filter_congr fun e _ => ?_) fun e _ => ?_
  · rw [hrows e]
    exact (Cert.Arma.nodeOf_eq_iff _ (hin 0 e).1 (hin 0 e).2 i).symm
  · rw [mulf_apply, hnb e j,
      Cert.LibEdgeReads.gather_rows_apply (by decide) gather_S10000x256_S640000x1_S640000x256_1_0_n_n_0_1_1256_wf
        gather_S10000x256_S640000x1_S640000x256_1_0_n_n_0_1_1256 rfl h cols e j]
    have hc : (⟨min (cols (ix2 e (0 : Fin 1))).toInt.toNat (10000 - 1), by omega⟩ : Fin 10000) = Cert.Arma.colN ei e := by
      refine Fin.ext ?_
      show min (cols (ix2 e (0 : Fin 1))).toInt.toNat (10000 - 1) = min (ei (ix2 (1 : Fin 2) e)).toInt.toNat (10000 - 1)
      rw [hcols e]
    exact congrArg (fun k => nrm e * (h (ix2 k j) : EReal)) hc

/-! ## The dense projection -/

/-- THE PROJECTION at (i, j): the contraction of row i of x with row j of w over the 512 input features, plus b j. -/
theorem lin_apply (x0 : FVec Ideal S10000x512 .f32) (x2 : FVec Ideal S256x512 .f32) (x3 : FVec Ideal S256 .f32)
    (i : Fin 10000) (j : Fin 256) :
    (val_main_v31 (F := Ideal) x0 x2 x3 (ix2 i j) : EReal)
      = Cert.Arma.lin (fun i k => (x0 (ix2 i k) : EReal)) (fun j k => (x2 (ix2 j k) : EReal))
          (fun j => (x3 (ix1 j) : EReal)) i j := by
  have el : ∀ k : Fin 512, lidx_main_v28 (ix2 i j) k = ix2 i k := fun k => funext fun a => Fin.ext (by
    match a with
    | ⟨0, _⟩ => rfl
    | ⟨1, _⟩ => rfl)
  have er : ∀ k : Fin 512, idx_main_v27 (ridx_main_v28 (ix2 i j) k) = ix2 j k := fun k => funext fun a => Fin.ext (by
    match a with
    | ⟨0, _⟩ => rfl
    | ⟨1, _⟩ => rfl)
  have eb : idx_main_v29 (idx_main_v30 (ix2 i j)) = ix1 j := funext fun a => Fin.ext (by
    match a with
    | ⟨0, _⟩ => rfl)
  rw [val_main_v31_apply]
  show (val_main_v28 (F := Ideal) x0 x2 (ix2 i j) : EReal) + val_main_v30 (F := Ideal) x3 (ix2 i j) = _
  rw [val_main_v28_apply, val_main_v30_apply, val_main_v29_apply, eb]
  unfold Cert.Arma.lin
  refine congrArg (fun s : EReal => s + x3 (ix1 j)) ?_
  refine Finset.sum_congr rfl fun k _ => ?_
  rw [val_main_v27_apply, el k, er k]

/-! ## The two hop weights -/

/-- The first hop weight: entry 0 of the 2-vector, as a scalar. -/
theorem omega0_apply (x4 : FVec Ideal S2 .f32) (p : S_.Idx) :
    (val_main_v46 (F := Ideal) x4 p : EReal) = x4 (ix1 (0 : Fin 2)) := by
  have hk : (S1.rowMajor (ix1 (0 : Fin 1))).val = (S_.rowMajor p).val := by
    have h1 := (S_.rowMajor p).isLt
    have hn : S_.numel = 1 := by simp [Shape.numel]
    rw [Shape.rowMajor_val_one]
    show 0 = _
    omega
  unfold val_main_v46
  rw [shapeCast_apply _ shapeCasts_S1_S_ p (ix1 (0 : Fin 1)) hk, val_main_v45_apply]
  refine congrArg x4 (funext fun a => Fin.ext ?_)
  match a with
  | ⟨0, _⟩ => rfl

/-- The second hop weight: entry 1 of the 2-vector, as a scalar. -/
theorem omega1_apply (x4 : FVec Ideal S2 .f32) (p : S_.Idx) :
    (val_main_v77 (F := Ideal) x4 p : EReal) = x4 (ix1 (1 : Fin 2)) := by
  have hk : (S1.rowMajor (ix1 (0 : Fin 1))).val = (S_.rowMajor p).val := by
    have h1 := (S_.rowMajor p).isLt
    have hn : S_.numel = 1 := by simp [Shape.numel]
    rw [Shape.rowMajor_val_one]
    show 0 = _
    omega
  unfold val_main_v77
  rw [shapeCast_apply _ shapeCasts_S1_S_ p (ix1 (0 : Fin 1)) hk, val_main_v76_apply]
  refine congrArg x4 (funext fun a => Fin.ext ?_)
  match a with
  | ⟨0, _⟩ => rfl

end Cert.ReferenceIdeal.RefStages

end
-- ==== Proof.RefValue.lean ====
/-
  What the reference program's result holds, entry by entry, as a function of the argument arrays, when every word of
  the edge list names a node: the dense projection, then two hops, each propagating what has been accumulated along the
  edges (once in the first hop, twice in the second: a gather of the source rows, a scaling by the edge weight, a
  scatter-add at the target rows), scaling the outcome and adding it.

  With o0 the projection, P the propagation along the edges and ω0, ω1 the two hop weights:
    after the first hop   o1 = o0 + ω0 · P o0,
    the result            o1 + ω1 · P (P o1).
-/
import proofs.«176783_j33895881900097_2_alg».proof.Proof.RefReadP
import proofs.«176783_j33895881900097_2_alg».proof.Proof.ArmaSpec
import proofs.«176783_j33895881900097_2_alg».proof.Proof.ArmaIndex
import proofs.«176783_j33895881900097_2_alg».proof.Proof.LibEdgeReads
import proofs.«176783_j33895881900097_2_alg».proof.Proof.RefStages

open scoped BigOperators

noncomputable section

namespace Cert.ReferenceIdeal.RefValue

open Cert.ReferenceIdeal Cert.ReferenceIdeal.Gen Idealize.ShloMosaic Idealize.ShloMosaic.TcCoe Idealize.ShloMosaic.ValueIdx Idealize.SL.Sem

section Stages

open Cert.ReferenceIdeal.ReadP Cert.ReferenceIdeal.RefStages

variable (x0 : FVec Ideal S10000x512 .f32) (x1 : IVec S2x640000 32) (x2 : FVec Ideal S256x512 .f32)
  (x3 : FVec Ideal S256 .f32) (x4 : FVec Ideal S2 .f32)

/-- The dense projection of the node features, by node and output feature. -/
abbrev o0 : Fin 10000 → Fin 256 → EReal :=
  Cert.Arma.lin (fun i k => (x0 (ix2 i k) : EReal)) (fun j k => (x2 (ix2 j k) : EReal)) (fun j => (x3 (ix1 j) : EReal))

/-- The propagation along the edges, with the reference's own edge weights. -/
abbrev prop : (Fin 10000 → Fin 256 → EReal) → Fin 10000 → Fin 256 → EReal :=
  Cert.Arma.agg (Cert.Arma.rowN x1) (Cert.Arma.colN x1) (fun e => (val_main_v26 (F := Ideal) x1 (ix1 e) : EReal))

/-- What has been accumulated after the first hop. -/
abbrev o1 : Fin 10000 → Fin 256 → EReal :=
  fun k l => o0 x0 x2 x3 k l + x4 (ix1 (0 : Fin 2)) * prop x1 (o0 x0 x2 x3) k l

/-- The projection stage, as a function of node and feature. -/
theorem v31_fun : (fun k l => (val_main_v31 (F := Ideal) x0 x2 x3 (ix2 k l) : EReal)) = o0 x0 x2 x3 :=
  funext fun k => funext fun l => lin_apply x0 x2 x3 k l

/-- First hop: the projection propagated once. -/
theorem v44_value (hin : Cert.Arma.InRange x1) (i : Fin 10000) (j : Fin 256) :
    (val_main_v44 (F := Ideal) x0 x1 x2 x3 (ix2 i j) : EReal) = prop x1 (o0 x0 x2 x3) i j :=
  (propagate_apply x1 hin (fun e => (val_main_v26 (F := Ideal) x1 (ix1 e) : EReal))
    (val_main_v42 (F := Ideal)) zero_v42 (val_main_v43 (F := Ideal) x1) (val_main_v38 (F := Ideal) x1)
    (rows_v43 x1) (cols_v38 x1 hin) (val_main_v40 (F := Ideal) x1) (weights_v40 x1)
    (val_main_v31 (F := Ideal) x0 x2 x3) i j).trans
    (congrArg (fun h => prop x1 h i j) (v31_fun x0 x2 x3))

/-- The first hop weight broadcast over the nodes and features. -/
theorem v47_value (p : S10000x256.Idx) : (val_main_v47 (F := Ideal) x4 p : EReal) = x4 (ix1 (0 : Fin 2)) := by
  rw [val_main_v47_apply]
  exact omega0_apply x4 _

/-- After the first hop. -/
theorem v49_value (hin : Cert.Arma.InRange x1) (i : Fin 10000) (j : Fin 256) :
    (val_main_v49 (F := Ideal) x0 x1 x2 x3 x4 (ix2 i j) : EReal) = o1 x0 x1 x2 x3 x4 i j := by
  rw [val_main_v49_apply]
  show (val_main_v31 (F := Ideal) x0 x2 x3 (ix2 i j) : EReal) + val_main_v48 (F := Ideal) x0 x1 x2 x3 x4 (ix2 i j) = _
  rw [val_main_v48_apply]
  show (val_main_v31 (F := Ideal) x0 x2 x3 (ix2 i j) : EReal)
    + (val_main_v47 (F := Ideal) x4 (ix2 i j) : EReal) * val_main_v44 (F := Ideal) x0 x1 x2 x3 (ix2 i j) = _
  rw [lin_apply, v47_value, v44_value x0 x1 x2 x3 hin]

/-- The accumulated matrix after the first hop, as a function of node and feature. -/
theorem v49_fun (hin : Cert.Arma.InRange x1) :
    (fun k l => (val_main_v49 (F := Ideal) x0 x1 x2 x3 x4 (ix2 k l) : EReal)) = o1 x0 x1 x2 x3 x4 :=
  funext fun k => funext fun l => v49_value x0 x1 x2 x3 x4 hin k l

/-- Second hop, first propagation. -/
theorem v62_value (hin : Cert.Arma.InRange x1) (i : Fin 10000) (j : Fin 256) :
    (val_main_v62 (F := Ideal) x0 x1 x2 x3 x4 (ix2 i j) : EReal) = prop x1 (o1 x0 x1 x2 x3 x4) i j :=
  (propagate_apply x1 hin (fun e => (val_main_v26 (F := Ideal) x1 (ix1 e) : EReal))
    (val_main_v60 (F := Ideal)) zero_v60 (val_main_v61 (F := Ideal) x1) (val_main_v56 (F := Ideal) x1)
    (rows_v61 x1) (cols_v56 x1 hin) (val_main_v58 (F := Ideal) x1) (weights_v58 x1)
    (val_main_v49 (F := Ideal) x0 x1 x2 x3 x4) i j).trans
    (congrArg (fun h => prop x1 h i j) (v49_fun x0 x1 x2 x3 x4 hin))

/-- The once-propagated matrix of the second hop, as a function of node and feature. -/
theorem v62_fun (hin : Cert.Arma.InRange x1) :
    (fun k l => (val_main_v62 (F := Ideal) x0 x1 x2 x3 x4 (ix2 k l) : EReal)) = prop x1 (o1 x0 x1 x2 x3 x4) :=
  funext fun k => funext fun l => v62_value x0 x1 x2 x3 x4 hin k l

/-- Second hop, second propagation. -/
theorem v75_value (hin : Cert.Arma.InRange x1) (i : Fin 10000) (j : Fin 256) :
    (val_main_v75 (F := Ideal) x0 x1 x2 x3 x4 (ix2 i j) : EReal) = prop x1 (prop x1 (o1 x0 x1 x2 x3 x4)) i j :=
  (propagate_apply x1 hin (fun e => (val_main_v26 (F := Ideal) x1 (ix1 e) : EReal))
    (val_main_v73 (F := Ideal)) zero_v73 (val_main_v74 (F := Ideal) x1) (val_main_v69 (F := Ideal) x1)
    (rows_v74 x1) (cols_v69 x1 hin) (val_main_v71 (F := Ideal) x1) (weights_v71 x1)
    (val_main_v62 (F := Ideal) x0 x1 x2 x3 x4) i j).trans
    (congrArg (fun h => prop x1 h i j) (v62_fun x0 x1 x2 x3 x4 hin))

/-- The second hop weight broadcast over the nodes and features. -/
theorem v78_value (p : S10000x256.Idx) : (val_main_v78 (F := Ideal) x4 p : EReal) = x4 (ix1 (1 : Fin 2)) := by
  rw [val_main_v78_apply]
  exact omega1_apply x4 _

/-- THE LAST STAGE at (i, j): what the first hop left plus the second hop's scaled double propagation of it. -/
theorem v80_value (hin : Cert.Arma.InRange x1) (i : Fin 10000) (j : Fin 256) :
    (val_main_v80 (F := Ideal) x0 x1 x2 x3 x4 (ix2 i j) : EReal)
      = Cert.Arma.viaEdges (o0 x0 x2 x3) (x4 (ix1 (0 : Fin 2))) (x4 (ix1 (1 : Fin 2))) (prop x1) i j := by
  rw [val_main_v80_apply]
  show (val_main_v49 (F := Ideal) x0 x1 x2 x3 x4 (ix2 i j) : EReal) + val_main_v79 (F := Ideal) x0 x1 x2 x3 x4 (ix2 i j) = _
  rw [val_main_v79_apply]
  show (val_main_v49 (F := Ideal) x0 x1 x2 x3 x4 (ix2 i j) : EReal)
    + (val_main_v78 (F := Ideal) x4 (ix2 i j) : EReal) * val_main_v75 (F := Ideal) x0 x1 x2 x3 x4 (ix2 i j) = _
  rw [v49_value x0 x1 x2 x3 x4 hin, v78_value, v75_value x0 x1 x2 x3 x4 hin]
  rfl

end Stages

variable (m : (ℓ : Loc nD τ sig) → Buf (Elt Ideal) ℓ)

/-- The reference's result term at (i, j). -/
theorem ref_value (c : Dev nD) (hin : Cert.Arma.InRange (m ((c.tc : Thread nD τ).loc main_arg1))) (i : Fin 10000) (j : Fin 256) :
    (Cert.ReferenceIdeal.ValueP.res_main_v80 (F := Ideal) m c : S10000x256.Idx → EReal) (ix2 i j)
      = Cert.Arma.viaEdges
          (Cert.Arma.lin
            (fun i k => (m ((c.tc : Thread nD τ).loc main_arg0) : S10000x512.Idx → EReal) (ix2 i k))
            (fun j k => (m ((c.tc : Thread nD τ).loc main_arg2) : S256x512.Idx → EReal) (ix2 j k))
            (fun j => (m ((c.tc : Thread nD τ).loc main_arg3) : S256.Idx → EReal) (ix1 j)))
          ((m ((c.tc : Thread nD τ).loc main_arg4) : S2.Idx → EReal) (ix1 (0 : Fin 2)))
          ((m ((c.tc : Thread nD τ).loc main_arg4) : S2.Idx → EReal) (ix1 (1 : Fin 2)))
          (Cert.Arma.agg
            (Cert.Arma.rowN (m ((c.tc : Thread nD τ).loc main_arg1)))
            (Cert.Arma.colN (m ((c.tc : Thread nD τ).loc main_arg1)))
            (fun e => (Cert.ReferenceIdeal.ReadP.val_main_v26 (F := Ideal) (m ((c.tc : Thread nD τ).loc main_arg1)) : S640000.Idx → EReal) (ix1 e)))
          i j := by
  rw [Cert.ReferenceIdeal.ReadP.val_main_v80_eq]
  exact v80_value _ _ _ _ _ hin i j

end Cert.ReferenceIdeal.RefValue

end
-- ==== Proof.AdjValue.lean ====
/-
  The edge weights and the dense adjacency matrix of the kernel's program, read:
    * the edge weights are the same function of the edge list as the reference's edge weights (the two programs compute
      them by the same operations);
    * when every word of the edge list names a node, entry (i, k) of the dense matrix is 0 plus the sum of the weights of
      the edges with target i and source k.
  The second reading goes through four facts: a scatter of one scalar per edge at an array of index pairs lands on
  (i, k) exactly when the pair, read signed, is (i, k); the pairs are the two rows of the edge list, a word that is not
  negative being left as it is; the accumulating scatter at the extended reals is the operand's entry plus the sum of
  the updates landing there; and a sum over rank-1 indices is the sum over their one coordinate.
-/
import proofs.«176783_j33895881900097_2_alg».proof.Proof.KAdjTerm
import proofs.«176783_j33895881900097_2_alg».proof.Proof.RefReadP
import proofs.«176783_j33895881900097_2_alg».proof.Proof.ArmaSpec
import proofs.«176783_j33895881900097_2_alg».proof.Proof.ArmaIndex
import proofs.«176783_j33895881900097_2_alg».proof.Proof.LibEdgeReads

open scoped BigOperators

noncomputable section

namespace Cert.AdjValue

open Idealize.ShloMosaic Idealize.ShloMosaic.ValueIdx

/-! ## A scatter of one scalar per edge into an [N, M] operand at an [E, 2] array of index pairs -/

section PairScatter

/-- The dimension numbers of a pair scatter: operand [N, M], scatter indices [E, 2], updates [E]. -/
abbrev pairScatterDims (N M E : ℕ)
    (wf : ScatterDims.WF ⟨2, ![N, M]⟩ ⟨2, ![E, 2]⟩ ⟨1, ![E]⟩ [] [0, 1] [0, 1] 1) :
    ScatterDims ⟨2, ![N, M]⟩ ⟨2, ![E, 2]⟩ ⟨1, ![E]⟩ where
  updateWindowDims := []
  insertedWindowDims := [0, 1]
  scatterDimsToOperandDims := [0, 1]
  indexVectorDim := 1
  wf := wf

theorem scatter_pairs_lands_iff {N M E w : ℕ}
    (wf : ScatterDims.WF ⟨2, ![N, M]⟩ ⟨2, ![E, 2]⟩ ⟨1, ![E]⟩ [] [0, 1] [0, 1] 1)
    (d : ScatterDims ⟨2, ![N, M]⟩ ⟨2, ![E, 2]⟩ ⟨1, ![E]⟩) (hd : d = pairScatterDims N M E wf)
    (idx : IVec ⟨2, ![E, 2]⟩ w) (e : Fin E) (i : Fin N) (k : Fin M) :
    d.resultIdx? (ix1 e) idx = some (ix2 i k) ↔
      (idx (ix2 e (0 : Fin 2))).toInt = (i.val : ℤ) ∧ (idx (ix2 e (1 : Fin 2))).toInt = (k.val : ℤ) := by
  subst hd
  have h0 : (0 : Fin 2) ∈ (pairScatterDims N M E wf).scatterDimsToOperandDims := by
    show (0 : Fin 2) ∈ [0, 1]; simp
  have h1 : (1 : Fin 2) ∈ (pairScatterDims N M E wf).scatterDimsToOperandDims := by
    show (1 : Fin 2) ∈ [0, 1]; simp
  have hst0 : (pairScatterDims N M E wf).start (ix1 e) idx 0 = (idx (ix2 e (0 : Fin 2))).toInt := by
    unfold ScatterDims.start
    rw [dif_pos h0]
    have hsi : (pairScatterDims N M E wf).siIdx (ix1 e) ⟨List.idxOf (0 : Fin 2) (pairScatterDims N M E wf).scatterDimsToOperandDims,
        List.idxOf_lt_length_iff.2 h0⟩ = ix2 e (0 : Fin 2) := by
      funext b; refine Fin.ext ?_
      match b with
      | ⟨0, _⟩ => rfl
      | ⟨1, _⟩ => rfl
    rw [hsi]
  have hst1 : (pairScatterDims N M E wf).start (ix1 e) idx 1 = (idx (ix2 e (1 : Fin 2))).toInt := by
    unfold ScatterDims.start
    rw [dif_pos h1]
    have hsi : (pairScatterDims N M E wf).siIdx (ix1 e) ⟨List.idxOf (1 : Fin 2) (pairScatterDims N M E wf).scatterDimsToOperandDims,
        List.idxOf_lt_length_iff.2 h1⟩ = ix2 e (1 : Fin 2) := by
      funext b; refine Fin.ext ?_
      match b with
      | ⟨0, _⟩ => rfl
      | ⟨1, _⟩ => rfl
    rw [hsi]
  have hw : ∀ a, (pairScatterDims N M E wf).window (ix1 e) a = 0 := by
    intro a
    unfold ScatterDims.window
    rw [dif_neg (fun hm => by
      have := (List.mem_filter.mp hm).2
      match a with
      | ⟨0, _⟩ => simp at this
      | ⟨1, _⟩ => simp at this)]
  constructor
  · intro h
    unfold ScatterDims.resultIdx? at h
    split at h
    · rename_i hin
      have hi := Option.some.inj h
      have a0 := hin 0
      have a1 := hin 1
      rw [hst0, hw] at a0
      rw [hst1, hw] at a1
      have e0 := congrArg (fun f => (f 0).val) hi
      have e1 := congrArg (fun f => (f 1).val) hi
      simp only [] at e0 e1
      constructor
      · have e0' : ((pairScatterDims N M E wf).start (ix1 e) idx 0 + ((pairScatterDims N M E wf).window (ix1 e) 0 : ℕ)).toNat = i.val := e0
        rw [hst0, hw] at e0'
        omega
      · have e1' : ((pairScatterDims N M E wf).start (ix1 e) idx 1 + ((pairScatterDims N M E wf).window (ix1 e) 1 : ℕ)).toNat = k.val := e1
        rw [hst1, hw] at e1'
        omega
    · exact absurd h (by simp)
  · rintro ⟨e0, e1⟩
    have hin : ∀ a, 0 ≤ (pairScatterDims N M E wf).start (ix1 e) idx a + (pairScatterDims N M E wf).window (ix1 e) a ∧
        (pairScatterDims N M E wf).start (ix1 e) idx a + (pairScatterDims N M E wf).window (ix1 e) a < (⟨2, ![N, M]⟩ : Shape).size a := by
      intro a
      match a with
      | ⟨0, _⟩ =>
        show 0 ≤ (pairScatterDims N M E wf).start (ix1 e) idx 0 + ((pairScatterDims N M E wf).window (ix1 e) 0 : ℕ) ∧
          (pairScatterDims N M E wf).start (ix1 e) idx 0 + ((pairScatterDims N M E wf).window (ix1 e) 0 : ℕ) < (N : ℤ)
        rw [hst0, hw, e0]; have := i.isLt; omega
      | ⟨1, _⟩ =>
        show 0 ≤ (pairScatterDims N M E wf).start (ix1 e) idx 1 + ((pairScatterDims N M E wf).window (ix1 e) 1 : ℕ) ∧
          (pairScatterDims N M E wf).start (ix1 e) idx 1 + ((pairScatterDims N M E wf).window (ix1 e) 1 : ℕ) < (M : ℤ)
        rw [hst1, hw, e1]; have := k.isLt; omega
    unfold ScatterDims.resultIdx?
    rw [dif_pos hin]
    refine congrArg some (funext fun a => Fin.ext ?_)
    match a with
    | ⟨0, _⟩ =>
      show ((pairScatterDims N M E wf).start (ix1 e) idx 0 + ((pairScatterDims N M E wf).window (ix1 e) 0 : ℕ)).toNat = i.val
      rw [hst0, hw, e0]; omega
    | ⟨1, _⟩ =>
      show ((pairScatterDims N M E wf).start (ix1 e) idx 1 + ((pairScatterDims N M E wf).window (ix1 e) 1 : ℕ)).toNat = k.val
      rw [hst1, hw, e1]; omega

end PairScatter

open Cert.KernelIdeal Cert.KernelIdeal.Gen Cert.KernelIdeal.AdjTerm

/-! ## The index words, read -/

theorem rowWords_apply (ei : IVec S2x640000 32) (e : Fin 640000) :
    rowWords ei (ix1 e) = ei (ix2 (0 : Fin 2) e) := by
  unfold rowWords
  refine (shapeCast_apply _ shapeCasts_S1x640000_S640000 (ix1 e) (ix2 (0 : Fin 1) e) ?_).trans ?_
  · rewrite [Shape.rowMajor_val_two, Shape.rowMajor_val_one]; show 0 * 640000 + e.val = e.val; omega
  · exact extractStridedSlice_apply ![0, 0] ei slices_S2x640000_S1x640000_0_0 (ix2 (0 : Fin 1) e) (ix2 (0 : Fin 2) e) (fun a => match a with
      | ⟨0, _⟩ => by show 0 = 0 + 0; omega
      | ⟨1, _⟩ => by show e.val = 0 + e.val; omega)

theorem colWords_apply (ei : IVec S2x640000 32) (e : Fin 640000) :
    colWords ei (ix1 e) = ei (ix2 (1 : Fin 2) e) := by
  unfold colWords
  refine (shapeCast_apply _ shapeCasts_S1x640000_S640000 (ix1 e) (ix2 (0 : Fin 1) e) ?_).trans ?_
  · rewrite [Shape.rowMajor_val_two, Shape.rowMajor_val_one]; show 0 * 640000 + e.val = e.val; omega
  · exact extractStridedSlice_apply ![1, 0] ei slices_S2x640000_S1x640000_1_0 (ix2 (0 : Fin 1) e) (ix2 (1 : Fin 2) e) (fun a => match a with
      | ⟨0, _⟩ => by show 1 = 1 + 0; omega
      | ⟨1, _⟩ => by show e.val = 0 + e.val; omega)

/-- A word whose signed value is not negative is left as it is. -/
theorem wrapNeg_apply_of_nonneg (v : IVec S640000 32) (i : S640000.Idx) (h : 0 ≤ (v i).toInt) :
    wrapNeg v i = v i := by
  unfold wrapNeg
  rw [select_apply]
  have hc : (cmpi .slt v (broadcastInDim S640000 ![] bcast_S_S640000 (constantI S_ 32 0#32))) i = 0#1 := by
    have hs : (v i).slt 0#32 = false := by
      rw [Bool.eq_false_iff]; intro hlt
      rw [BitVec.slt_iff_toInt_lt] at hlt
      have hz : (0#32 : BitVec 32).toInt = 0 := by decide
      omega
    show BitVec.ofBool ((v i).slt 0#32) = 0#1
    rw [hs]; rfl
  rw [hc, select_zero]

/-- Column 0 of the pairs: the target words. -/
theorem edgePairs_apply_zero (ei : IVec S2x640000 32) (e : Fin 640000) :
    edgePairs ei (ix2 e (0 : Fin 2)) = wrapNeg (rowWords ei) (ix1 e) := by
  unfold edgePairs
  refine (concatenate_pair_apply_left (t := S640000x2) (s₁ := S640000x1) (s₂ := S640000x1) (1 : Fin 2) _ _ concatenates_S640000x1_S640000x1_S640000x2_d1 (ix2 e (0 : Fin 2)) rfl
    (ix2 e (0 : Fin 1)) (fun b => match b with | ⟨0, _⟩ => rfl | ⟨1, _⟩ => rfl)).trans ?_
  exact broadcastInDim_apply _ bcast_S640000_S640000x1_0 _ (ix2 e (0 : Fin 1)) (ix1 e) (fun a => match a with
    | ⟨0, _⟩ => by show e.val = if (640000 : Nat) = 1 then 0 else e.val; rw [if_neg (by decide)])

/-- Column 1 of the pairs: the source words. -/
theorem edgePairs_apply_one (ei : IVec S2x640000 32) (e : Fin 640000) :
    edgePairs ei (ix2 e (1 : Fin 2)) = wrapNeg (colWords ei) (ix1 e) := by
  unfold edgePairs
  refine (concatenate_pair_apply_right (t := S640000x2) (s₁ := S640000x1) (s₂ := S640000x1) (1 : Fin 2) _ _ concatenates_S640000x1_S640000x1_S640000x2_d1 (ix2 e (1 : Fin 2)) rfl rfl
    (ix2 e (0 : Fin 1)) (fun b => match b with | ⟨0, _⟩ => fun _ => rfl | ⟨1, _⟩ => fun hb => absurd rfl hb) rfl).trans ?_
  exact broadcastInDim_apply _ bcast_S640000_S640000x1_0 _ (ix2 e (0 : Fin 1)) (ix1 e) (fun a => match a with
    | ⟨0, _⟩ => by show e.val = if (640000 : Nat) = 1 then 0 else e.val; rw [if_neg (by decide)])

/-! ## The accumulating scatter, read at an index -/

/-- The accumulating scatter at the extended reals, read at an index: the operand's entry plus the sum of the updates
    that land on it. -/
theorem scatterAdd_apply {s si su : Shape} {w : ℕ} (d : ScatterDims s si su) (x : FVec Ideal s .f32) (idx : IVec si w)
    (upd : FVec Ideal su .f32) (i : s.Idx) :
    Host.scatterAdd d x idx upd i = x i + ∑ j ∈ Finset.univ.filter (fun j => d.resultIdx? j idx = some i), upd j := rfl

/-- A broadcast scalar constant, read at an index. -/
theorem bcast_const_apply {t : Shape} (h : S_.BroadcastsInDim t (![] : Fin 0 → Fin t.rank)) (b : BitVec 32) (j : t.Idx) :
    (broadcastInDim t ![] h (constant (F := Ideal) S_ .f32 b)) j = Ideal.ofBits .f32 b := rfl

/-! ## Where an edge's weight lands in the dense matrix -/

/-- The index vectors read rank-1 indices through their one coordinate. -/
def idxEquiv1 {n : ℕ} : (⟨1, ![n]⟩ : Shape).Idx ≃ Fin n where
  toFun j := j 0
  invFun e := ix1 e
  left_inv j := (eq_ix1 j).symm
  right_inv _ := rfl

/-- A filtered sum re-indexed along a bijection that carries one condition to the other. -/
theorem sum_filter_equiv {α β M : Type} [Fintype α] [Fintype β] [AddCommMonoid M] (σ : α ≃ β)
    (P : α → Prop) (Q : β → Prop) [DecidablePred P] [DecidablePred Q] (f : α → M) (g : β → M)
    (hPQ : ∀ a, P a ↔ Q (σ a)) (hfg : ∀ a, f a = g (σ a)) :
    ∑ a ∈ Finset.univ.filter P, f a = ∑ b ∈ Finset.univ.filter Q, g b := by
  rw [Finset.sum_filter, Finset.sum_filter]
  refine Fintype.sum_equiv σ _ _ (fun a => ?_)
  rw [hfg a]
  exact if_congr (hPQ a) rfl rfl

/-- For an edge list whose words all name nodes, edge e's weight lands on entry (i, k) exactly when e goes to i from k. -/
theorem lands_iff (ei : IVec S2x640000 32) (hin : Cert.Arma.InRange ei) (e : Fin 640000) (i k : Fin 10000) :
    scatter_S10000x10000_S640000x2_S640000_n_01_01_1.resultIdx? (ix1 e) (edgePairs ei) = some (ix2 i k)
      ↔ Cert.Arma.rowN ei e = i ∧ Cert.Arma.colN ei e = k := by
  rw [scatter_pairs_lands_iff Gen.scatter_S10000x10000_S640000x2_S640000_n_01_01_1_wf
    scatter_S10000x10000_S640000x2_S640000_n_01_01_1 rfl (edgePairs ei) e i k]
  have hr : 0 ≤ (rowWords ei (ix1 e)).toInt := by rw [rowWords_apply]; exact (hin 0 e).1
  have hc : 0 ≤ (colWords ei (ix1 e)).toInt := by rw [colWords_apply]; exact (hin 1 e).1
  rw [edgePairs_apply_zero, edgePairs_apply_one, wrapNeg_apply_of_nonneg _ _ hr, wrapNeg_apply_of_nonneg _ _ hc,
    rowWords_apply, colWords_apply]
  unfold Cert.Arma.rowN Cert.Arma.colN
  rw [Cert.Arma.nodeOf_eq_iff _ (hin 0 e).1 (hin 0 e).2, Cert.Arma.nodeOf_eq_iff _ (hin 1 e).1 (hin 1 e).2]

/-! ## The two readings -/

/-- The kernel's edge weights are the reference's. -/
theorem edgeNorm_shared (ei : IVec ⟨2, ![2, 640000]⟩ 32) :
    Cert.KernelIdeal.AdjTerm.edgeNorm (F := Ideal) ei = Cert.ReferenceIdeal.ReadP.val_main_v26 (F := Ideal) ei := rfl

/-- The dense matrix, entry by entry, for an edge list whose words all name nodes. -/
theorem adjacency_apply (ei : IVec ⟨2, ![2, 640000]⟩ 32) (hin : Cert.Arma.InRange ei) (i k : Fin 10000) :
    (Cert.KernelIdeal.AdjTerm.adjacency (F := Ideal) ei : (⟨2, ![10000, 10000]⟩ : Shape).Idx → EReal) (ix2 i k)
      = Cert.Arma.adj (Cert.Arma.rowN ei) (Cert.Arma.colN ei)
          (fun e => (Cert.KernelIdeal.AdjTerm.edgeNorm (F := Ideal) ei : (⟨1, ![640000]⟩ : Shape).Idx → EReal) (ix1 e)) i k := by
  refine (scatterAdd_apply _ _ _ _ (ix2 i k)).trans ?_
  rw [bcast_const_apply, Ideal.ofBits_zero_f32]
  unfold Cert.Arma.adj
  generalize edgeNorm (F := Ideal) ei = n
  refine congrArg (fun s => (0 : EReal) + s) ?_
  exact sum_filter_equiv idxEquiv1 _ _ n (fun e => n (ix1 e))
    (fun j => by
      obtain ⟨e, rfl⟩ : ∃ e : Fin 640000, j = ix1 e := ⟨j 0, eq_ix1 j⟩
      exact lands_iff ei hin e i k)
    (fun j => congrArg n (eq_ix1 j))

end Cert.AdjValue

end
-- ==== Proof.LibRealSums.lean ====
/-
  Finite sums of extended reals that are all real numbers.

  The coercion of the reals into the extended reals is additive, so it commutes with a sum over any finite set; hence a
  finite sum of extended reals each of which is (the image of) a real number is itself one. This is what lets an
  equation between finite sums and products on the extended reals, whose entries are known to be finite, be proved over
  the reals, where distributivity and cancellation hold.
-/
import Mathlib

open scoped BigOperators

namespace Cert.LibRealSums

/-- The coercion of the reals into the extended reals commutes with finite sums. -/
theorem coe_finset_sum {ι : Type*} (s : Finset ι) (f : ι → ℝ) :
    ((∑ i ∈ s, f i : ℝ) : EReal) = ∑ i ∈ s, (f i : EReal) := by
  classical
  refine Finset.induction_on s ?_ ?_
  · simp
  · intro a s ha ih
    rw [Finset.sum_insert ha, Finset.sum_insert ha, EReal.coe_add, ih]

/-- A finite sum of extended reals that are all real numbers is a real number. -/
theorem exists_real_sum {ι : Type*} (s : Finset ι) (f : ι → EReal) (h : ∀ i, ∃ r : ℝ, f i = r) :
    ∃ r : ℝ, ∑ i ∈ s, f i = r := by
  choose g hg using h
  exact ⟨∑ i ∈ s, g i, by rw [coe_finset_sum]; exact Finset.sum_congr rfl fun i _ => hg i⟩

end Cert.LibRealSums
-- ==== Proof.ArmaAlgebra.lean ====
/-
  Why scaling-then-dense-product and edge-propagation-then-scaling give the same two-hop result.

  Over the REAL numbers the product of the accumulated adjacency matrix with a feature matrix is the propagation along
  the edges: in  sum_k (sum_{e : row e = i, col e = k} n e) * h(k, j)  the factor h(k, j) distributes over the inner sum,
  the two sums are exchanged, and for a fixed edge only k = col e contributes. The propagation is linear, so a scalar
  moves through it. Both steps need distributivity, which the extended reals lack at the infinities: so the statement
  is for weights, features and scalars that are all real numbers, and is proved by writing every entry as the image of a
  real and pushing the coercion outwards (it commutes with +, * and finite sums).
-/
import proofs.«176783_j33895881900097_2_alg».proof.Proof.ArmaSpec
import proofs.«176783_j33895881900097_2_alg».proof.Proof.LibRealSums

open scoped BigOperators

noncomputable section

namespace Cert.Arma

open Cert.LibRealSums

variable {ι ε γ : Type} [Fintype ι] [Fintype ε] [Fintype γ] [DecidableEq ι]

/-- Propagation along the edges over the reals. -/
def aggR (row col : ε → ι) (n : ε → ℝ) (h : ι → γ → ℝ) : ι → γ → ℝ :=
  fun i j => ∑ e ∈ Finset.univ.filter (fun e => row e = i), n e * h (col e) j

/-- The propagation of real data is the image of the real propagation. -/
theorem agg_coe (row col : ε → ι) (n : ε → ℝ) (h : ι → γ → ℝ) :
    agg row col (fun e => (n e : EReal)) (fun k l => (h k l : EReal))
      = fun i j => ((aggR row col n h i j : ℝ) : EReal) := by
  funext i j
  unfold agg aggR
  rw [zero_add, coe_finset_sum]
  exact Finset.sum_congr rfl fun e _ => (EReal.coe_mul _ _).symm

/-- The dense product with the accumulated adjacency matrix, on real data, is the image of the real propagation. -/
theorem mm_adj_coe (row col : ε → ι) (n : ε → ℝ) (h : ι → γ → ℝ) :
    mm (adj row col (fun e => (n e : EReal))) (fun k l => (h k l : EReal))
      = fun i j => ((aggR row col n h i j : ℝ) : EReal) := by
  funext i j
  unfold mm adj aggR
  have hk : ∀ k, (0 + ∑ e ∈ Finset.univ.filter (fun e => row e = i ∧ col e = k), (n e : EReal)) * (h k j : EReal)
      = (((∑ e ∈ Finset.univ.filter (fun e => row e = i ∧ col e = k), n e) * h k j : ℝ) : EReal) := by
    intro k
    rw [zero_add, ← coe_finset_sum, ← EReal.coe_mul]
  rw [Finset.sum_congr rfl fun k _ => hk k, ← coe_finset_sum]
  congr 1
  simp only [Finset.sum_mul, Finset.sum_filter]
  rw [Finset.sum_comm]
  refine Finset.sum_congr rfl fun e _ => ?_
  by_cases hr : row e = i
  · simp [hr]
  · simp [hr]

/-- A scalar moves through the real propagation. -/
theorem aggR_smul (row col : ε → ι) (n : ε → ℝ) (a : ℝ) (h : ι → γ → ℝ) :
    aggR row col n (fun k l => a * h k l) = fun i j => a * aggR row col n h i j := by
  funext i j
  unfold aggR
  rw [Finset.mul_sum]
  exact Finset.sum_congr rfl fun e _ => by ring

/-- The real propagation is additive. -/
theorem aggR_add (row col : ε → ι) (n : ε → ℝ) (g h : ι → γ → ℝ) :
    aggR row col n (fun k l => g k l + h k l) = fun i j => aggR row col n g i j + aggR row col n h i j := by
  funext i j
  unfold aggR
  rw [← Finset.sum_add_distrib]
  exact Finset.sum_congr rfl fun e _ => by ring

/-- THE TWO ROADS AGREE when the edge weights, the projected features and the two hop scalars are real numbers. -/
theorem viaProduct_eq_viaEdges (row col : ε → ι) (n : ε → EReal) (o0 : ι → γ → EReal) (ω0 ω1 : EReal)
    (hn : ∀ e, ∃ r : ℝ, n e = r) (ho : ∀ i j, ∃ r : ℝ, o0 i j = r) (h0 : ∃ r : ℝ, ω0 = r) (h1 : ∃ r : ℝ, ω1 = r) :
    viaProduct o0 ω0 ω1 (adj row col n) = viaEdges o0 ω0 ω1 (agg row col n) := by
  choose n' hn' using hn
  choose o' ho' using ho
  obtain ⟨a, rfl⟩ := h0
  obtain ⟨b, rfl⟩ := h1
  obtain rfl : n = fun e => (n' e : EReal) := funext hn'
  obtain rfl : o0 = fun i j => (o' i j : EReal) := funext fun i => funext (ho' i)
  funext i j
  unfold viaProduct viaEdges
  -- the first hop, scaled before the product
  have e1 : (fun k l => (a : EReal) * (o' k l : EReal)) = fun k l => ((a * o' k l : ℝ) : EReal) :=
    funext fun k => funext fun l => (EReal.coe_mul _ _).symm
  rw [e1, mm_adj_coe, aggR_smul]
  -- what the second hop starts from
  have e2 : (fun k l => (b : EReal) * ((o' k l : EReal) + ((a * aggR row col n' o' k l : ℝ) : EReal)))
      = fun k l => ((b * (o' k l + a * aggR row col n' o' k l) : ℝ) : EReal) :=
    funext fun k => funext fun l => by rw [← EReal.coe_add, ← EReal.coe_mul]
  rw [e2, mm_adj_coe, mm_adj_coe]
  -- the other road
  rw [agg_coe]
  have e3 : (fun k l => (o' k l : EReal) + (a : EReal) * ((aggR row col n' o' k l : ℝ) : EReal))
      = fun k l => ((o' k l + a * aggR row col n' o' k l : ℝ) : EReal) :=
    funext fun k => funext fun l => by rw [← EReal.coe_mul, ← EReal.coe_add]
  rw [e3, agg_coe, agg_coe]
  -- both sides are images of reals: compare there
  rw [← EReal.coe_mul, ← EReal.coe_add, ← EReal.coe_add, ← EReal.coe_mul, ← EReal.coe_add]
  congr 1
  rw [aggR_smul, aggR_smul]

/-- The dense projection of real data is real. -/
theorem lin_real {κ : Type} [Fintype κ] (x : ι → κ → EReal) (w : γ → κ → EReal) (b : γ → EReal)
    (hx : ∀ i k, ∃ r : ℝ, x i k = r) (hw : ∀ j k, ∃ r : ℝ, w j k = r) (hb : ∀ j, ∃ r : ℝ, b j = r) (i : ι) (j : γ) :
    ∃ r : ℝ, lin x w b i j = r := by
  unfold lin
  obtain ⟨s, hs⟩ := exists_real_sum Finset.univ (fun k => x i k * w j k) (fun k => by
    obtain ⟨a, ha⟩ := hx i k
    obtain ⟨c, hc⟩ := hw j k
    exact ⟨a * c, by rw [ha, hc, EReal.coe_mul]⟩)
  obtain ⟨t, ht⟩ := hb j
  exact ⟨s + t, by rw [hs, ht, EReal.coe_add]⟩

end Cert.Arma

end
-- ==== Proof.PreFacts.lean ====
/-
  What the precondition says, decoded. It is a conjunction of five tests, each an "and" over a whole array:
    * |x| < +infinity for every entry of the four float inputs: on the extended reals |x| = max x (-x), so the entry is
      neither +infinity nor -infinity, that is, a real number;
    * 0 <= w and w < 10000 (signed) for every word of the edge list: every word names a node.
-/
import proofs.«176783_j33895881900097_2_alg».proof.Pre_finite_inputs
import proofs.«176783_j33895881900097_2_alg».proof.Proof.Gen.Pre_finite_inputs
import proofs.«176783_j33895881900097_2_alg».proof.Proof.ArmaIndex
import Idealize.ShloMosaic.Lib.ReduceAll
import Idealize.ShloMosaic.Lib.ValueIdx
import Idealize.ShloMosaic.PureOps.Ideal

set_option maxRecDepth 16384

noncomputable section

namespace Cert.PreFacts

open Cert.Pre_finite_inputs Cert.Pre_finite_inputs.Gen Idealize.ShloMosaic Idealize.ShloMosaic.ValueIdx

instance : Subsingleton S_.Idx := ⟨fun a b => funext fun d => d.elim0⟩

/-- The bit pattern 0x7F800000 denotes +infinity. -/
theorem inf_word : Ideal.ofBits .f32 0x7F800000#32 = (⊤ : EReal) := by
  simp [Ideal.ofBits, Ideal.ieee]

/-- An extended real whose absolute value is below +infinity is a real number. -/
theorem real_of_abs_lt_inf (x : EReal)
    (h : FloatOps.cmpf (F := Ideal) (φ := .f32) .olt (FloatOps.hostAbsf x) (FloatOps.ofBits .f32 0x7F800000#32) = 1#1) :
    ∃ r : ℝ, x = r := by
  have h' : Ideal.cmp .olt (max x (-x)) (Ideal.ofBits .f32 0x7F800000#32) = 1#1 := h
  rw [inf_word] at h'
  unfold Ideal.cmp at h'
  have hlt : max x (-x) < ⊤ := by
    by_contra hc
    simp [hc] at h'
  have h1 : x < ⊤ := lt_of_le_of_lt (le_max_left _ _) hlt
  have h2 : -x < ⊤ := lt_of_le_of_lt (le_max_right _ _) hlt
  induction x using EReal.rec with
  | bot => simp at h2
  | coe r => exact ⟨r, rfl⟩
  | top => simp at h1

/-- One float input's test: if the "and" over the whole array of |a| < +infinity is 1, every entry of a is real. -/
theorem all_real {s : Shape} {axes : List (Fin s.rank)} (a : FVec Ideal s .f32)
    (hb : S_.BroadcastsInDim s (![] : Fin 0 → Fin s.rank)) (hr : s.ReducesTo axes S_) (h0 : 0 < S_.numel)
    (i0 : S_.Idx)
    (h : Host.reduce IntOp.andi
          (cmpf (F := Ideal) .olt (Host.absf a) (broadcastInDim s ![] hb (constant S_ .f32 0x7F800000#32)))
          (constantI S_ 1 1#1) hr h0 i0 = 1#1) :
    ∀ j : s.Idx, ∃ r : ℝ, a j = r := fun j =>
  real_of_abs_lt_inf (a j) (Host.reduce_andi_all _ _ hr h0 i0 h j)

/-- THE PRECONDITION DECODED: every float entry is real and every index word names a node. -/
theorem decoded (a0 : FVec Ideal S10000x512 .f32) (a1 : IVec S2x640000 32) (a2 : FVec Ideal S256x512 .f32)
    (a3 : FVec Ideal S256 .f32) (a4 : FVec Ideal S2 .f32)
    (h : Cert.Pre_finite_inputs.fn (F := Ideal) a0 a1 a2 a3 a4 = fun _ => 1#1) :
    (∀ j, ∃ r : ℝ, a0 j = r) ∧ Cert.Arma.InRange a1 ∧ (∀ j, ∃ r : ℝ, a2 j = r) ∧ (∀ j, ∃ r : ℝ, a3 j = r)
      ∧ (∀ j, ∃ r : ℝ, a4 j = r) := by
  have e := congrFun h ix0
  unfold Cert.Pre_finite_inputs.fn Cert.Pre_finite_inputs.fn_part1 at e
  simp only [andi] at e
  rw [IntOp.andi_eq_one, IntOp.andi_eq_one, IntOp.andi_eq_one, IntOp.andi_eq_one] at e
  obtain ⟨⟨⟨⟨h0, h2⟩, h3⟩, h4⟩, h1⟩ := e
  refine ⟨all_real a0 _ _ _ ix0 h0, ?_, all_real a2 _ _ _ ix0 h2, all_real a3 _ _ _ ix0 h3, all_real a4 _ _ _ ix0 h4⟩
  intro k e
  have hw : IntOp.andi (IntOp.cmpi .sge (a1 (ix2 k e)) (0#32)) (IntOp.cmpi .slt (a1 (ix2 k e)) (10000#32)) = 1#1 :=
    Host.reduce_andi_all _ _ _ _ ix0 h1 (ix2 k e)
  rw [IntOp.andi_eq_one, IntOp.cmpi_sge, IntOp.cmpi_slt] at hw
  have z0 : (0#32 : BitVec 32).toInt = 0 := by decide
  have z1 : (10000#32 : BitVec 32).toInt = 10000 := by decide
  rw [z0] at hw; rw [z1] at hw
  exact hw

end Cert.PreFacts

end
-- ==== Proof.EdgeWeightsReal.lean ====
/-
  Every edge weight is a real number, whatever the edge list holds.

  A node's degree is 0 plus one for every edge whose target word names it: a finite sum of ones, a real number. Its
  inverse square root, taken where the degree is positive, is then the real 1 / sqrt(degree); elsewhere the weight
  factor is the constant 0. An edge's weight is the product of two such factors, read at the (clamped) nodes of its two
  ends, so it is real.
-/
import proofs.«176783_j33895881900097_2_alg».proof.Proof.KAdjTerm
import proofs.«176783_j33895881900097_2_alg».proof.Proof.LibEdgeReads
import Idealize.ShloMosaic.PureOps.Ideal.Laws
import Idealize.ShloMosaic.Lib.ValueIdx
import Idealize.ShloMosaic.Lib.Pipeline.Value

open scoped BigOperators

noncomputable section

namespace Cert.EdgeWeights

open Idealize.ShloMosaic Idealize.ShloMosaic.ValueIdx Cert.KernelIdeal Cert.KernelIdeal.Gen Cert.KernelIdeal.AdjTerm

/-- The bit pattern 0x3F800000 denotes 1. -/
theorem one_word : Ideal.ofBits .f32 0x3F800000#32 = ((1 : ℝ) : EReal) := by
  simp [Ideal.ofBits, Ideal.ieee, -EReal.coe_mul]; norm_num

/-- The zero constant spread over the nodes reads 0 at every node. -/
theorem zero_nodes (j : S10000.Idx) :
    broadcastInDim S10000 ![] bcast_S_S10000 (constant (F := Ideal) S_ .f32 0x00000000#32) j = ((0 : ℝ) : EReal) :=
  (broadcastInDim_apply _ bcast_S_S10000 _ j (fun a => a.elim0) (fun a => a.elim0)).trans
    ((constant_apply _ _).trans (Ideal.ofBits_zero_f32.trans EReal.coe_zero.symm))

/-- The constant 1 spread over the edges reads 1 at every edge. -/
theorem one_edges (x : S640000.Idx) :
    broadcastInDim S640000 ![] bcast_S_S640000 (constant (F := Ideal) S_ .f32 0x3F800000#32) x = ((1 : ℝ) : EReal) :=
  (broadcastInDim_apply _ bcast_S_S640000 _ x (fun a => a.elim0) (fun a => a.elim0)).trans
    ((constant_apply _ _).trans one_word)

/-- A real number plus a finite sum of real numbers is a real number (the coercion of the reals is additive). -/
theorem real_add_sum {ι : Type} (x : EReal) (S : Finset ι) (f : ι → EReal) (hx : ∃ r : ℝ, x = r)
    (hf : ∀ i, ∃ r : ℝ, f i = r) : ∃ r : ℝ, x + ∑ i ∈ S, f i = r := by
  classical
  obtain ⟨a, ha⟩ := hx
  choose g hg using hf
  have hs : ∀ T : Finset ι, ∑ i ∈ T, f i = ((∑ i ∈ T, g i : ℝ) : EReal) := by
    intro T
    refine Finset.induction_on T ?_ ?_
    · simp
    · intro i T hi ih
      rw [Finset.sum_insert hi, Finset.sum_insert hi, EReal.coe_add, ih, hg i]
  exact ⟨a + ∑ i ∈ S, g i, by rw [ha, hs S, EReal.coe_add]⟩

/-- A degree is a real number: 0 plus a finite sum of ones. -/
theorem degree_real (ei : IVec S2x640000 32) (j : S10000.Idx) : ∃ r : ℝ, degree (F := Ideal) ei j = r := by
  unfold degree Host.scatterAdd
  rw [Ideal.hostScatterAdd_def]
  unfold Ideal.hostScatterAdd
  rw [zero_nodes]
  exact real_add_sum _ _ _ ⟨0, rfl⟩ (fun x => ⟨1, one_edges x⟩)

/-- The weight factor of every node is a real number. -/
theorem invSqrtDeg_real (ei : IVec S2x640000 32) (j : S10000.Idx) : ∃ r : ℝ, invSqrtDeg (F := Ideal) ei j = r := by
  obtain ⟨d, hd⟩ := degree_real ei j
  unfold invSqrtDeg
  -- from here on the degree array is a variable: only its entry at j matters
  generalize degree (F := Ideal) ei = D at hd ⊢
  rw [select_apply, cmpf_apply, zero_nodes, hd]
  unfold Scalar.select
  split
  · rename_i hc
    -- the comparison bit is 1: the degree is positive, and its inverse square root is real
    have hc' : Ideal.cmp .ogt (d : EReal) ((0 : ℝ) : EReal) = 1#1 := hc
    have hd0 : 0 < d := by
      unfold Ideal.cmp at hc'
      by_contra hn
      have hn' : ¬ (((0 : ℝ) : EReal) < (d : EReal)) := fun h => hn (by exact_mod_cast h)
      simp [hn, hn'] at hc'
    refine ⟨(Real.sqrt d)⁻¹, ?_⟩
    show FloatOps.hostUnary .rsqrt (D j) = _
    rw [Ideal.hostUnary_rsqrt_def, hd, Ideal.rsqrt_coe, if_neg (not_lt.mpr hd0.le), if_neg hd0.ne']
  · exact ⟨0, rfl⟩

/-- EVERY EDGE WEIGHT IS REAL: the product of the two ends' factors. -/
theorem edgeNorm_real (ei : IVec S2x640000 32) (e : Fin 640000) :
    ∃ r : ℝ, (edgeNorm (F := Ideal) ei : S640000.Idx → EReal) (ix1 e) = r := by
  unfold edgeNorm
  rw [mulf_apply,
    Cert.LibEdgeReads.gather_elts_apply (N := 10000) (E := 640000) (by decide)
      gather_S10000_S640000x1_S640000_n_0_n_n_0_1_1_wf gather_S10000_S640000x1_S640000_n_0_n_n_0_1_1 rfl,
    Cert.LibEdgeReads.gather_elts_apply (N := 10000) (E := 640000) (by decide)
      gather_S10000_S640000x1_S640000_n_0_n_n_0_1_1_wf gather_S10000_S640000x1_S640000_n_0_n_n_0_1_1 rfl]
  obtain ⟨a, ha⟩ := invSqrtDeg_real ei (ix1 ⟨min ((broadcastInDim S640000x1 ![0] bcast_S640000_S640000x1_0 (wrapNeg (rowWords ei))) (ix2 e (0 : Fin 1))).toInt.toNat (10000 - 1), by omega⟩)
  obtain ⟨b, hb⟩ := invSqrtDeg_real ei (ix1 ⟨min ((broadcastInDim S640000x1 ![0] bcast_S640000_S640000x1_0 (wrapNeg (colWords ei))) (ix2 e (0 : Fin 1))).toInt.toNat (10000 - 1), by omega⟩)
  exact ⟨a * b, by rw [ha, hb, EReal.coe_mul]⟩

end Cert.EdgeWeights

end
-- ==== Proof.lean ====
/-
  A two-hop ARMA graph convolution: the dense projection  x · wᵀ + b  of the node features, then two hops, each adding
  a scaled propagation of what has been accumulated so far along the edges of a degree-normalised graph (edge e from
  node col e to node row e, weight 1 / sqrt(deg(row e) · deg(col e)), 0 where a degree is 0).

  The reference propagates edge by edge: it gathers the source rows, scales each by its edge's weight, adds them up at
  the target rows, and scales the outcome by the hop's scalar. The kernel's program first accumulates the edge weights
  into a dense 10000 × 10000 adjacency matrix and then propagates by dense matrix products, scaling by the hop's scalar
  BEFORE the product. Entry by entry, on the extended reals:

    kernel     (o0 + A (ω0 o0)) + A (A (ω1 (o0 + A (ω0 o0))))           A the dense adjacency matrix
    reference  (o0 + ω0 P o0)   + ω1 P (P (o0 + ω0 P o0))                P the propagation along the edges

  The two are the same function of the arguments when (i) every word of the edge list names a node — then the dense
  matrix accumulates exactly the edges the propagation visits: a scatter drops an index outside the array where a
  gather clamps it, and a negative word is wrapped by the one program's dense scatter and dropped by the other's
  segment sum, so outside that domain they differ — and (ii) every entry is a real number: then A h = P h (the factor
  h(k, j) distributes over the sum of the weights of the edges from k to i, and the two sums are exchanged) and a
  scalar moves through P. Finiteness of the float inputs gives (ii): the projection is a finite sum of products of
  reals, a degree is a finite count, so every weight is real. Distributivity fails at the infinities, which is why the
  precondition is used.

  The kernel's result is read off its run region by region (four launches: the projection and three dense products,
  each output array the union of its row blocks), the reference's off its run operation by operation.
-/
import proofs.«176783_j33895881900097_2_alg».proof.Defs
import proofs.«176783_j33895881900097_2_alg».proof.Proof.Gen.Kernel
import proofs.«176783_j33895881900097_2_alg».proof.Proof.Gen.Kernel.Frame
import proofs.«176783_j33895881900097_2_alg».proof.Proof.Gen.KernelIdeal
import proofs.«176783_j33895881900097_2_alg».proof.Proof.Gen.KernelIdeal.Frame
import proofs.«176783_j33895881900097_2_alg».proof.Proof.Gen.ReferenceIdeal
import proofs.«176783_j33895881900097_2_alg».proof.Proof.Gen.Pre_finite_inputs
import proofs.«176783_j33895881900097_2_alg».proof.Proof.RefRunP
import proofs.«176783_j33895881900097_2_alg».proof.Proof.KRunNamed
import proofs.«176783_j33895881900097_2_alg».proof.Proof.KChain
import proofs.«176783_j33895881900097_2_alg».proof.Proof.RefValue
import proofs.«176783_j33895881900097_2_alg».proof.Proof.AdjValue
import proofs.«176783_j33895881900097_2_alg».proof.Proof.ArmaAlgebra
import proofs.«176783_j33895881900097_2_alg».proof.Proof.PreFacts
import proofs.«176783_j33895881900097_2_alg».proof.Proof.EdgeWeightsReal
import Idealize.ShloMosaic.Adequacy
import Idealize.ShloMosaic.Init

noncomputable section

namespace Cert.Proof

open Idealize.ShloMosaic Idealize.ShloMosaic.TcCoe Idealize.ShloMosaic.ValueIdx Idealize.SL.Sem

/-- The word-level kernel runs, and leaves its arguments as launched. -/
theorem frame_kernel : Cert.frame_Kernel := fun m ρ _ => Cert.Kernel.Gen.frame m ρ

/-- So does the kernel read on the extended reals. -/
theorem frame_kernelIdeal : Cert.frame_KernelIdeal := fun m ρ _ => Cert.KernelIdeal.Gen.frame m ρ

/-- The reference is a host program: its run, with the result dropped. -/
theorem frame_referenceIdeal : Cert.frame_ReferenceIdeal := fun m ρ _ =>
  (θ_run Cert.ReferenceIdeal.defs _ _).mono (fun _ h c => (h c).2) (Cert.ReferenceIdeal.ValueP.run (F := Ideal) m ρ)

/-- Reading the kernel on the extended reals rewrote no operation. -/
theorem preserves : Cert.preserves_Kernel_KernelIdeal := trivial

/-- THE TWO RESULTS ARE EQUAL, entry by entry, from memories that agree on the arguments, under the precondition. -/
theorem algebraic : Cert.algebraic_KernelIdeal_ReferenceIdeal := by
  intro m ρ m' ρ' hpre hagree
  refine ⟨fun c => Cert.KernelIdeal.Gen.W11 (F := Ideal) m ρ c (Proc.devRef .tc Cert.KernelIdeal.main_v62),
    Cert.KernelIdeal.RunNamed.run_named (F := Ideal) m ρ, ?_⟩
  refine (θ_run Cert.ReferenceIdeal.defs _ _).mono (fun _ h c => ⟨(h c).1.trans ?_, (h c).2⟩)
    (Cert.ReferenceIdeal.ValueP.run (F := Ideal) m' ρ')
  -- the precondition: the float inputs are real, the edge list's words name nodes
  obtain ⟨f0, hin, f2, f3, f4⟩ := Cert.PreFacts.decoded _ _ _ _ _ (hpre c)
  obtain ⟨g0, g1, g2, g3, g4⟩ := hagree c
  funext idx
  obtain ⟨i, j, rfl⟩ : ∃ (i : Fin 10000) (j : Fin 256), idx = ix2 i j := ⟨idx 0, idx 1, eq_ix2 idx⟩
  have hin' : Cert.Arma.InRange (m' ((c.tc : Thread Cert.ReferenceIdeal.nD Cert.ReferenceIdeal.τ).loc Cert.ReferenceIdeal.main_arg1)) := by
    rw [g1]; exact hin
  -- each program's result as a function of its own arguments
  refine (Cert.ReferenceIdeal.RefValue.ref_value m' c hin' i j).trans ?_
  refine Eq.trans ?_ (Cert.KernelIdeal.Chain.kernel_value m ρ c i j).symm
  rw [g0, g1, g2, g3, g4]
  -- the dense matrix is the accumulated adjacency of the edges; the edge weights are shared
  have hA : (fun i k => (Cert.KernelIdeal.AdjTerm.adjacency (F := Ideal)
        (m ((c.tc : Thread Cert.KernelIdeal.nD Cert.KernelIdeal.τ).loc Cert.KernelIdeal.main_arg1)) : (⟨2, ![10000, 10000]⟩ : Shape).Idx → EReal) (ix2 i k))
      = Cert.Arma.adj (Cert.Arma.rowN (m ((c.tc : Thread Cert.KernelIdeal.nD Cert.KernelIdeal.τ).loc Cert.KernelIdeal.main_arg1)))
          (Cert.Arma.colN (m ((c.tc : Thread Cert.KernelIdeal.nD Cert.KernelIdeal.τ).loc Cert.KernelIdeal.main_arg1)))
          (fun e => (Cert.KernelIdeal.AdjTerm.edgeNorm (F := Ideal)
            (m ((c.tc : Thread Cert.KernelIdeal.nD Cert.KernelIdeal.τ).loc Cert.KernelIdeal.main_arg1)) : (⟨1, ![640000]⟩ : Shape).Idx → EReal) (ix1 e)) :=
    funext fun i => funext fun k => Cert.AdjValue.adjacency_apply _ hin i k
  rw [hA, ← Cert.AdjValue.edgeNorm_shared]
  -- the two roads agree on real data
  refine (congrFun (congrFun (Cert.Arma.viaProduct_eq_viaEdges _ _ _ _ _ _
    (fun e => Cert.EdgeWeights.edgeNorm_real _ e)
    (Cert.Arma.lin_real _ _ _ (fun i k => f0 (ix2 i k)) (fun j k => f2 (ix2 j k)) (fun j => f3 (ix1 j)))
    (f4 (ix1 (0 : Fin 2))) (f4 (ix1 (1 : Fin 2)))) i) j).symm

end Cert.Proof

/-- Everything the certificate claims. -/
theorem Cert.Proof.claim : Cert.Claim :=
  ⟨Cert.Kernel.Gen.facts, Cert.KernelIdeal.Gen.facts, Cert.ReferenceIdeal.Gen.facts, Cert.Pre_finite_inputs.Gen.facts,
    Cert.Proof.frame_kernel, Cert.Proof.frame_kernelIdeal, Cert.Proof.frame_referenceIdeal, Cert.Proof.preserves,
    Cert.Proof.algebraic⟩

end
